-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4x4 : Shape := ⟨3, ![8, 4, 4]⟩
abbrev S8x4096x3 : Shape := ⟨3, ![8, 4096, 3]⟩
abbrev S_ : Shape := ⟨0, ![]⟩

class Facts : Prop where
  bcast_S_S8x4x4 : S_.BroadcastsInDim S8x4x4 (![] : Fin 0 → Fin S8x4x4.rank)
  reducesTo_S8x4x4_S_d0_1_2 : S8x4x4.ReducesTo [0, 1, 2] S_
  h_S_ : 0 < S_.numel
  bcast_S_S8x4096x3 : S_.BroadcastsInDim S8x4096x3 (![] : Fin 0 → Fin S8x4096x3.rank)
  reducesTo_S8x4096x3_S_d0_1_2 : S8x4096x3.ReducesTo [0, 1, 2] S_

variable [Facts]

def fn_part1 {F : FTy → Type} [FloatOps F] (main_v13 : IVec S_ 1) (main_v16 : IVec S8x4096x3 1) : IVec S_ 1 :=
  let main_c_5 : IVec S_ 1 := constantI S_ 1 1#1
  let main_v17 : IVec S_ 1 := (fun x v => Host.reduce IntOp.andi x v reducesTo_S8x4096x3_S_d0_1_2 h_S_) main_v16 main_c_5
  let main_v18 : IVec S_ 1 := andi main_v13 main_v17
  main_v18

def fn {F : FTy → Type} [FloatOps F] (main_arg0 : FVec F S8x4x4 .f32) (main_arg1 : FVec F S8x4x4 .f32) (main_arg2 : FVec F S8x4096x3 .f32) (main_arg3 : FVec F S8x4096x3 .f32) : IVec S_ 1 :=
  let main_v0 : FVec F S8x4x4 .f32 := Host.absf main_arg0
  let main_cst : FVec F S_ .f32 := constant S_ .f32 0x7F800000#32
  let main_v1 : FVec F S8x4x4 .f32 := broadcastInDim S8x4x4 ![] bcast_S_S8x4x4 main_cst
  let main_v2 : IVec S8x4x4 1 := cmpf .olt main_v0 main_v1
  let main_c : IVec S_ 1 := constantI S_ 1 1#1
  let main_v3 : IVec S_ 1 := (fun x v => Host.reduce IntOp.andi x v reducesTo_S8x4x4_S_d0_1_2 h_S_) main_v2 main_c
  let main_v4 : FVec F S8x4x4 .f32 := Host.absf main_arg1
  let main_cst_0 : FVec F S_ .f32 := constant S_ .f32 0x7F800000#32
  let main_v5 : FVec F S8x4x4 .f32 := broadcastInDim S8x4x4 ![] bcast_S_S8x4x4 main_cst_0
  let main_v6 : IVec S8x4x4 1 := cmpf .olt main_v4 main_v5
  let main_c_1 : IVec S_ 1 := constantI S_ 1 1#1
  let main_v7 : IVec S_ 1 := (fun x v => Host.reduce IntOp.andi x v reducesTo_S8x4x4_S_d0_1_2 h_S_) main_v6 main_c_1
  let main_v8 : IVec S_ 1 := andi main_v3 main_v7
  let main_v9 : FVec F S8x4096x3 .f32 := Host.absf main_arg2
  let main_cst_2 : FVec F S_ .f32 := constant S_ .f32 0x7F800000#32
  let main_v10 : FVec F S8x4096x3 .f32 := broadcastInDim S8x4096x3 ![] bcast_S_S8x4096x3 main_cst_2
  let main_v11 : IVec S8x4096x3 1 := cmpf .olt main_v9 main_v10
  let main_c_3 : IVec S_ 1 := constantI S_ 1 1#1
  let main_v12 : IVec S_ 1 := (fun x v => Host.reduce IntOp.andi x v reducesTo_S8x4096x3_S_d0_1_2 h_S_) main_v11 main_c_3
  let main_v13 : IVec S_ 1 := andi main_v8 main_v12
  let main_v14 : FVec F S8x4096x3 .f32 := Host.absf main_arg3
  let main_cst_4 : FVec F S_ .f32 := constant S_ .f32 0x7F800000#32
  let main_v15 : FVec F S8x4096x3 .f32 := broadcastInDim S8x4096x3 ![] bcast_S_S8x4096x3 main_cst_4
  let main_v16 : IVec S8x4096x3 1 := cmpf .olt main_v14 main_v15
  fn_part1 (F := F) main_v13 main_v16
-- ==== Kernel.lean ====
abbrev S8x4x4 : Shape := ⟨3, ![8, 4, 4]⟩
abbrev S8x4096x3 : Shape := ⟨3, ![8, 4096, 3]⟩
abbrev S_ : Shape := ⟨0, ![]⟩
abbrev S8x4096x1 : Shape := ⟨3, ![8, 4096, 1]⟩
abbrev S8x4096x4 : Shape := ⟨3, ![8, 4096, 4]⟩
abbrev S8x1x128 : Shape := ⟨3, ![8, 1, 128]⟩
abbrev S1x1024x3 : Shape := ⟨3, ![1, 1024, 3]⟩
abbrev S1x1x128 : Shape := ⟨3, ![1, 1, 128]⟩
abbrev S1x4096 : Shape := ⟨2, ![1, 4096]⟩
abbrev S1024x3 : Shape := ⟨2, ![1024, 3]⟩
abbrev S1024 : Shape := ⟨1, ![1024]⟩
abbrev S1024x1024 : Shape := ⟨2, ![1024, 1024]⟩
abbrev S1024x1 : Shape := ⟨2, ![1024, 1]⟩
abbrev S1x1024 : Shape := ⟨2, ![1, 1024]⟩
abbrev S1 : Shape := ⟨1, ![1]⟩
abbrev S1x1 : Shape := ⟨2, ![1, 1]⟩
abbrev S1x128 : Shape := ⟨2, ![1, 128]⟩
abbrev S8x1x1 : Shape := ⟨3, ![8, 1, 1]⟩
abbrev S8 : Shape := ⟨1, ![8]⟩
abbrev S8x3x3 : Shape := ⟨3, ![8, 3, 3]⟩
abbrev S8x3x1 : Shape := ⟨3, ![8, 3, 1]⟩
abbrev S8x3 : Shape := ⟨2, ![8, 3]⟩
abbrev S4 : Shape := ⟨1, ![4]⟩

abbrev nBuf : Space → Nat
  | .hbm => 60
  | .vmem => 14
  | .smem => 0
  | _ => 0

abbrev bufTy : (tb : Table) → Fin (tcTables nBuf tb) → BufTy
  | .hbm, ⟨0, _⟩ => ⟨S8x4x4, .f32⟩
  | .hbm, ⟨1, _⟩ => ⟨S8x4x4, .f32⟩
  | .hbm, ⟨2, _⟩ => ⟨S8x4096x3, .f32⟩
  | .hbm, ⟨3, _⟩ => ⟨S8x4096x3, .f32⟩
  | .hbm, ⟨4, _⟩ => ⟨S_, .f32⟩
  | .hbm, ⟨5, _⟩ => ⟨S8x4096x1, .f32⟩
  | .hbm, ⟨6, _⟩ => ⟨S8x4096x4, .f32⟩
  | .hbm, ⟨7, _⟩ => ⟨S8x4096x4, .f32⟩
  | .hbm, ⟨8, _⟩ => ⟨S8x4096x3, .f32⟩
  | .hbm, ⟨9, _⟩ => ⟨S8x4096x4, .f32⟩
  | .hbm, ⟨10, _⟩ => ⟨S8x4096x3, .f32⟩
  | .hbm, ⟨11, _⟩ => ⟨S8x1x128, .f32⟩
  | .hbm, ⟨12, _⟩ => ⟨S8x1x128, .f32⟩
  | .hbm, ⟨13, _⟩ => ⟨S8x1x1, .f32⟩
  | .hbm, ⟨14, _⟩ => ⟨S8, .f32⟩
  | .hbm, ⟨15, _⟩ => ⟨S8x1x1, .f32⟩
  | .hbm, ⟨16, _⟩ => ⟨S8, .f32⟩
  | .hbm, ⟨17, _⟩ => ⟨S8x3x3, .f32⟩
  | .hbm, ⟨18, _⟩ => ⟨S8x3x3, .f32⟩
  | .hbm, ⟨19, _⟩ => ⟨S8x3x3, .f32⟩
  | .hbm, ⟨20, _⟩ => ⟨S8x3x1, .f32⟩
  | .hbm, ⟨21, _⟩ => ⟨S8x3, .f32⟩
  | .hbm, ⟨22, _⟩ => ⟨S8x3x1, .f32⟩
  | .hbm, ⟨23, _⟩ => ⟨S8x3, .f32⟩
  | .hbm, ⟨24, _⟩ => ⟨S8x3, .f32⟩
  | .hbm, ⟨25, _⟩ => ⟨S8x3x3, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S8x3, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S8, .f32⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S8, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S1, .f32⟩
  | .hbm, ⟨56, _⟩ => ⟨S1, .f32⟩
  | .hbm, ⟨57, _⟩ => ⟨S1, .f32⟩
  | .hbm, ⟨58, _⟩ => ⟨S1, .f32⟩
  | .hbm, ⟨59, _⟩ => ⟨S4, .f32⟩
  | .local _ .vmem, ⟨0, _⟩ => ⟨S1x1024x3, .f32⟩
  | .local _ .vmem, ⟨1, _⟩ => ⟨S1x1024x3, .f32⟩
  | .local _ .vmem, ⟨2, _⟩ => ⟨S1x1024x3, .f32⟩
  | .local _ .vmem, ⟨3, _⟩ => ⟨S1x1024x3, .f32⟩
  | .local _ .vmem, ⟨4, _⟩ => ⟨S1x1024x3, .f32⟩
  | .local _ .vmem, ⟨5, _⟩ => ⟨S1x1024x3, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x4096, .f32⟩
  | .local _ .vmem, ⟨11, _⟩ => ⟨S1x4096, .f32⟩
  | .local _ .vmem, ⟨12, _⟩ => ⟨S1x4096, .f32⟩
  | .local _ .vmem, ⟨13, _⟩ => ⟨S1x4096, .f32⟩
  | _, _ => ⟨S8x4x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 4], ![false, false, false]⟩

def k0_mult1 (i : grid0.Coords) : BitVec 32 :=
  let arg1 : BitVec 32 := BitVec.ofNat 32 (i 1).val
  let c1024_i32 : BitVec 32 := 1024#32
  let v39 : BitVec 32 := Scalar.muli arg1 c1024_i32
  v39
def k0_mult2 (i : grid0.Coords) : BitVec 32 :=
  let arg2 : BitVec 32 := BitVec.ofNat 32 (i 2).val
  let c1024_i32_20 : BitVec 32 := 1024#32
  let v41 : BitVec 32 := Scalar.muli arg2 c1024_i32_20
  v41
def k0_off1 (i : grid0.Coords) : Fin 2 → Nat :=
  let c0_21 : Index := 0#32
  let arg1 : BitVec 32 := BitVec.ofNat 32 (i 1).val
  let c1024_i32 : BitVec 32 := 1024#32
  let v39 : BitVec 32 := Scalar.muli arg1 c1024_i32
  let v40 : BitVec 32 := v39
  let v43 : Index := Scalar.indexCast v40
  ![0, v43.toNat]
def k0_off2 (i : grid0.Coords) : Fin 2 → Nat :=
  let c0_25 : Index := 0#32
  let arg2 : BitVec 32 := BitVec.ofNat 32 (i 2).val
  let c1024_i32_20 : BitVec 32 := 1024#32
  let v41 : BitVec 32 := Scalar.muli arg2 c1024_i32_20
  let v42 : BitVec 32 := v41
  let v59 : Index := Scalar.indexCast v42
  ![0, v59.toNat]
def k0_cond2 (i : grid0.Coords) : BitVec 1 :=
  let arg1 : BitVec 32 := BitVec.ofNat 32 (i 1).val
  let c3_i32 : BitVec 32 := 3#32
  let v75 : BitVec 1 := Scalar.cmpi .eq arg1 c3_i32
  let arg2 : BitVec 32 := BitVec.ofNat 32 (i 2).val
  let c3_i32_29 : BitVec 32 := 3#32
  let v76 : BitVec 1 := Scalar.cmpi .eq arg2 c3_i32_29
  let v77 : BitVec 1 := Scalar.andi v75 v76
  let v78 : BitVec 32 := Scalar.extui v77
  let c0_i32_30 : BitVec 32 := 0#32
  let v79 : BitVec 1 := Scalar.cmpi .ne v78 c0_i32_30
  v79

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

class Facts₀ : Prop where
  bcast_S_S8x4096x1 : S_.BroadcastsInDim S8x4096x1 (![] : Fin 0 → Fin S8x4096x1.rank)
  concatenates_S8x4096x3_S8x4096x1_S8x4096x4_d2 : Shape.Concatenates [S8x4096x3, S8x4096x1] S8x4096x4 2
  slices_S8x4096x4_S8x4096x3_0_0_0 : S8x4096x4.Slices ![0, 0, 0] S8x4096x3
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  reduces_S1024x3_S1024 : S1024x3.Reduces [1] S1024
  shapeCasts_S1024_S1024x1 : S1024.ShapeCasts S1024x1
  shapeCasts_S1024_S1x1024 : S1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1024_S1024_2 : S1024x1024.Reduces [0] S1024
  h_S1x1024 : 0 < S1x1024.numel
  shapeCasts_S1x1024_S1x1024 : S1x1024.ShapeCasts S1x1024
  reduces_S1x4096_S1 : S1x4096.Reduces [1] S1
  shapeCasts_S1_S1x1 : S1.ShapeCasts S1x1
  shapeCasts_S1x1_S1x1 : S1x1.ShapeCasts S1x1
  broadcasts_S1x1_S1x128 : S1x1.Broadcasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  slices_S8x1x128_S8x1x1_0_0_0 : S8x1x128.Slices ![0, 0, 0] S8x1x1
  shapeCasts_S8x1x1_S8 : S8x1x1.ShapeCasts S8
  slices_S8x4x4_S8x3x3_0_0_0 : S8x4x4.Slices ![0, 0, 0] S8x3x3
  slices_S8x4x4_S8x3x1_0_0_3 : S8x4x4.Slices ![0, 0, 3] S8x3x1
  shapeCasts_S8x3x1_S8x3 : S8x3x1.ShapeCasts S8x3
  reducesTo_S8x3x3_S8_d1_2 : S8x3x3.ReducesTo [1, 2] S8
  h_S_ : 0 < S_.numel
  reducesTo_S8x3_S8_d1 : S8x3.ReducesTo [1] S8
  bcast_S_S8 : S_.BroadcastsInDim S8 (![] : Fin 0 → Fin S8.rank)
  reducesTo_S8_S_d0 : S8.ReducesTo [0] S_
  bcast_S_S1 : S_.BroadcastsInDim S1 (![] : Fin 0 → Fin S1.rank)
  concatenates_S1_S1_S1_S1_S4_d0 : Shape.Concatenates [S1, S1, S1, S1] S4 0
  dot_S8x4096x4_S8x4x4_S8x4096x4_2_2_1_1_0_0_wf : DotDims.WF S8x4096x4 S8x4x4 S8x4096x4 [2] [2] [1] [1] [0] [0]
  dot_S1024x3_S1024x3_S1024x1024_1_1_0_0_n_n_wf : DotDims.WF S1024x3 S1024x3 S1024x1024 [1] [1] [0] [0] [] []
  hrank0 : 0 < grid0.rank
  k0_mult1_dvd : ∀ i : grid0.Coords, 1024 ∣ (k0_mult1 i).toNat
  k0_mult2_dvd : ∀ i : grid0.Coords, 1024 ∣ (k0_mult2 i).toNat
  k0_off1_inb : ∀ i : grid0.Coords, ∀ a, (k0_off1 i) a + S1x1024.size a ≤ S1x4096.size a
  k0_off2_inb : ∀ i : grid0.Coords, ∀ a, (k0_off2 i) a + S1x1024.size a ≤ S1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S8x4096x3.size a
  hwx0_0 : ∀ i : grid0.Coords, EltTy.bits .f32 = 32 ∨ (Rect.block (s := S8x4096x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S8x4096x3.size a
  hwx0_1 : ∀ i : grid0.Coords, EltTy.bits .f32 = 32 ∨ (Rect.block (s := S8x4096x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x3.size a ≤ S8x4096x3.size a
  hwx0_2 : ∀ i : grid0.Coords, EltTy.bits .f32 = 32 ∨ (Rect.block (s := S8x4096x3) S1x1024x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S8x1x128.size a
  hwx0_3 : ∀ i : grid0.Coords, EltTy.bits .f32 = 32 ∨ (Rect.block (s := S8x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S8x1x128.size a
  hwx0_4 : ∀ i : grid0.Coords, EltTy.bits .f32 = 32 ∨ (Rect.block (s := S8x1x128) S1x1x128.size (cc0_transform_4 i) (hinb0_4 i)).WholeWords (EltTy.packing .f32)

variable [Facts₀]

def dot_S8x4096x4_S8x4x4_S8x4096x4_2_2_1_1_0_0 : DotDims S8x4096x4 S8x4x4 S8x4096x4 where
  lhsContracting := [2]
  rhsContracting := [2]
  lhsNonContracting := [1]
  rhsNonContracting := [1]
  lhsBatch := [0]
  rhsBatch := [0]
  wf := dot_S8x4096x4_S8x4x4_S8x4096x4_2_2_1_1_0_0_wf
def dot_S1024x3_S1024x3_S1024x1024_1_1_0_0_n_n : DotDims S1024x3 S1024x3 S1024x1024 where
  lhsContracting := [1]
  rhsContracting := [1]
  lhsNonContracting := [0]
  rhsNonContracting := [0]
  lhsBatch := []
  rhsBatch := []
  wf := dot_S1024x3_S1024x3_S1024x1024_1_1_0_0_n_n_wf

abbrev win0_0 : Pipeline.Window sig grid0 :=
  Pipeline.Window.ofSpec (Memref.whole main_v3) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S1x1x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x4x4 : Shape := ⟨3, ![8, 4, 4]⟩
abbrev S8x4096x3 : Shape := ⟨3, ![8, 4096, 3]⟩
abbrev S_ : Shape := ⟨0, ![]⟩
abbrev S8x4096x1 : Shape := ⟨3, ![8, 4096, 1]⟩
abbrev S8x4096x4 : Shape := ⟨3, ![8, 4096, 4]⟩
abbrev S8x4096 : Shape := ⟨2, ![8, 4096]⟩
abbrev S8x1x4096 : Shape := ⟨3, ![8, 1, 4096]⟩
abbrev S8x4096x4096 : Shape := ⟨3, ![8, 4096, 4096]⟩
abbrev S8 : Shape := ⟨1, ![8]⟩
abbrev S8x3x3 : Shape := ⟨3, ![8, 3, 3]⟩
abbrev S8x3x1 : Shape := ⟨3, ![8, 3, 1]⟩
abbrev S8x3 : Shape := ⟨2, ![8, 3]⟩
abbrev S1 : Shape := ⟨1, ![1]⟩
abbrev S4 : Shape := ⟨1, ![4]⟩

abbrev nBuf : Space → Nat
  | .hbm => 128
  | .vmem => 0
  | .smem => 0
  | _ => 0

abbrev bufTy : (tb : Table) → Fin (tcTables nBuf tb) → BufTy
  | .hbm, ⟨0, _⟩ => ⟨S8x4x4, .f32⟩
  | .hbm, ⟨1, _⟩ => ⟨S8x4x4, .f32⟩
  | .hbm, ⟨2, _⟩ => ⟨S8x4096x3, .f32⟩
  | .hbm, ⟨3, _⟩ => ⟨S8x4096x3, .f32⟩
  | .hbm, ⟨4, _⟩ => ⟨S_, .f32⟩
  | .hbm, ⟨5, _⟩ => ⟨S8x4096x1, .f32⟩
  | .hbm, ⟨6, _⟩ => ⟨S8x4096x4, .f32⟩
  | .hbm, ⟨7, _⟩ => ⟨S8x4096x4, .f32⟩
  | .hbm, ⟨8, _⟩ => ⟨S8x4096x3, .f32⟩
  | .hbm, ⟨9, _⟩ => ⟨S8x4096x4, .f32⟩
  | .hbm, ⟨10, _⟩ => ⟨S8x4096x3, .f32⟩
  | .hbm, ⟨11, _⟩ => ⟨S8x4096x3, .f32⟩
  | .hbm, ⟨12, _⟩ => ⟨S_, .f32⟩
  | .hbm, ⟨13, _⟩ => ⟨S8x4096, .f32⟩
  | .hbm, ⟨14, _⟩ => ⟨S8x4096x3, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S8x1x4096, .f32⟩
  | .hbm, ⟨19, _⟩ => ⟨S8x4096x4096, .f32⟩
  | .hbm, ⟨20, _⟩ => ⟨S8x4096x4096, .f32⟩
  | .hbm, ⟨21, _⟩ => ⟨S8x4096x4096, .f32⟩
  | .hbm, ⟨22, _⟩ => ⟨S8x4096x4096, .f32⟩
  | .hbm, ⟨23, _⟩ => ⟨S_, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S_, .f32⟩
  | .hbm, ⟨28, _⟩ => ⟨S8x4096, .f32⟩
  | .hbm, ⟨29, _⟩ => ⟨S_, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S_, .f32⟩
  | .hbm, ⟨35, _⟩ => ⟨S8x4096, .f32⟩
  | .hbm, ⟨36, _⟩ => ⟨S_, .f32⟩
  | .hbm, ⟨37, _⟩ => ⟨S8, .f32⟩
  | .hbm, ⟨38, _⟩ => ⟨S_, .f32⟩
  | .hbm, ⟨39, _⟩ => ⟨S8, .f32⟩
  | .hbm, ⟨40, _⟩ => ⟨S8, .f32⟩
  | .hbm, ⟨41, _⟩ => ⟨S8, .f32⟩
  | .hbm, ⟨42, _⟩ => ⟨S8x3x3, .f32⟩
  | .hbm, ⟨43, _⟩ => ⟨S8x3x3, .f32⟩
  | .hbm, ⟨44, _⟩ => ⟨S8x3x3, .f32⟩
  | .hbm, ⟨45, _⟩ => ⟨S8x3x1, .f32⟩
  | .hbm, ⟨46, _⟩ => ⟨S8x3, .f32⟩
  | .hbm, ⟨47, _⟩ => ⟨S8x3x1, .f32⟩
  | .hbm, ⟨48, _⟩ => ⟨S8x3, .f32⟩
  | .hbm, ⟨49, _⟩ => ⟨S8x3, .f32⟩
  | .hbm, ⟨50, _⟩ => ⟨S8x3x3, .f32⟩
  | .hbm, ⟨51, _⟩ => ⟨S_, .f32⟩
  | .hbm, ⟨52, _⟩ => ⟨S8, .f32⟩
  | .hbm, ⟨53, _⟩ => ⟨S8, .f32⟩
  | .hbm, ⟨54, _⟩ => ⟨S8x3, .f32⟩
  | .hbm, ⟨55, _⟩ => ⟨S_, .f32⟩
  | .hbm, ⟨56, _⟩ => ⟨S8, .f32⟩
  | .hbm, ⟨57, _⟩ => ⟨S8, .f32⟩
  | .hbm, ⟨58, _⟩ => ⟨S_, .f32⟩
  | .hbm, ⟨59, _⟩ => ⟨S8, .f32⟩
  | .hbm, ⟨60, _⟩ => ⟨S8, .f32⟩
  | .hbm, ⟨61, _⟩ => ⟨S_, .f32⟩
  | .hbm, ⟨62, _⟩ => ⟨S8, .f32⟩
  | .hbm, ⟨63, _⟩ => ⟨S8, .f32⟩
  | .hbm, ⟨64, _⟩ => ⟨S8, .f32⟩
  | .hbm, ⟨65, _⟩ => ⟨S8x4096x3, .f32⟩
  | .hbm, ⟨66, _⟩ => ⟨S_, .f32⟩
  | .hbm, ⟨67, _⟩ => ⟨S8x4096, .f32⟩
  | .hbm, ⟨68, _⟩ => ⟨S8x4096x3, .f32⟩
  | .hbm, ⟨69, _⟩ => ⟨S_, .f32⟩
  | .hbm, ⟨70, _⟩ => ⟨S8x4096, .f32⟩
  | .hbm, ⟨71, _⟩ => ⟨S8x4096x1, .f32⟩
  | .hbm, ⟨72, _⟩ => ⟨S8x1x4096, .f32⟩
  | .hbm, ⟨73, _⟩ => ⟨S8x4096x4096, .f32⟩
  | .hbm, ⟨74, _⟩ => ⟨S8x4096x4096, .f32⟩
  | .hbm, ⟨75, _⟩ => ⟨S8x4096x4096, .f32⟩
  | .hbm, ⟨76, _⟩ => ⟨S8x4096x4096, .f32⟩
  | .hbm, ⟨77, _⟩ => ⟨S_, .f32⟩
  | .hbm, ⟨78, _⟩ => ⟨S8x4096x4096, .f32⟩
  | .hbm, ⟨79, _⟩ => ⟨S8x4096x4096, .f32⟩
  | .hbm, ⟨80, _⟩ => ⟨S8x4096x4096, .f32⟩
  | .hbm, ⟨81, _⟩ => ⟨S_, .f32⟩
  | .hbm, ⟨82, _⟩ => ⟨S8x4096, .f32⟩
  | .hbm, ⟨83, _⟩ => ⟨S_, .f32⟩
  | .hbm, ⟨84, _⟩ => ⟨S8, .f32⟩
  | .hbm, ⟨85, _⟩ => ⟨S_, .f32⟩
  | .hbm, ⟨86, _⟩ => ⟨S8, .f32⟩
  | .hbm, ⟨87, _⟩ => ⟨S8, .f32⟩
  | .hbm, ⟨88, _⟩ => ⟨S_, .f32⟩
  | .hbm, ⟨89, _⟩ => ⟨S8x4096, .f32⟩
  | .hbm, ⟨90, _⟩ => ⟨S_, .f32⟩
  | .hbm, ⟨91, _⟩ => ⟨S8, .f32⟩
  | .hbm, ⟨92, _⟩ => ⟨S_, .f32⟩
  | .hbm, ⟨93, _⟩ => ⟨S8, .f32⟩
  | .hbm, ⟨94, _⟩ => ⟨S8, .f32⟩
  | .hbm, ⟨95, _⟩ => ⟨S8, .f32⟩
  | .hbm, ⟨96, _⟩ => ⟨S_, .f32⟩
  | .hbm, ⟨97, _⟩ => ⟨S8, .f32⟩
  | .hbm, ⟨98, _⟩ => ⟨S8, .f32⟩
  | .hbm, ⟨99, _⟩ => ⟨S_, .f32⟩
  | .hbm, ⟨100, _⟩ => ⟨S8, .f32⟩
  | .hbm, ⟨101, _⟩ => ⟨S8, .f32⟩
  | .hbm, ⟨102, _⟩ => ⟨S8, .f32⟩
  | .hbm, ⟨103, _⟩ => ⟨S_, .f32⟩
  | .hbm, ⟨104, _⟩ => ⟨S8, .f32⟩
  | .hbm, ⟨105, _⟩ => ⟨S8, .f32⟩
  | .hbm, ⟨106, _⟩ => ⟨S8, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S1, .f32⟩
  | .hbm, ⟨124, _⟩ => ⟨S1, .f32⟩
  | .hbm, ⟨125, _⟩ => ⟨S1, .f32⟩
  | .hbm, ⟨126, _⟩ => ⟨S1, .f32⟩
  | .hbm, ⟨127, _⟩ => ⟨S4, .f32⟩
  | _, _ => ⟨S8x4x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_cst_11 : Ref sig .tc := ⟨.hbm, 58, rfl⟩
abbrev main_v42 : Ref sig .tc := ⟨.hbm, 59, rfl⟩
abbrev main_v43 : Ref sig .tc := ⟨.hbm, 60, rfl⟩
abbrev main_cst_12 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_13 : Ref sig .tc := ⟨.hbm, 66, rfl⟩
abbrev main_v48 : Ref sig .tc := ⟨.hbm, 67, rfl⟩
abbrev main_v49 : Ref sig .tc := ⟨.hbm, 68, rfl⟩
abbrev main_cst_14 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_15 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_16 : Ref sig .tc := ⟨.hbm, 81, rfl⟩
abbrev main_v60 : Ref sig .tc := ⟨.hbm, 82, rfl⟩
abbrev main_cst_17 : Ref sig .tc := ⟨.hbm, 83, rfl⟩
abbrev main_v61 : Ref sig .tc := ⟨.hbm, 84, rfl⟩
abbrev main_cst_18 : Ref sig .tc := ⟨.hbm, 85, rfl⟩
abbrev main_v62 : Ref sig .tc := ⟨.hbm, 86, rfl⟩
abbrev main_v63 : Ref sig .tc := ⟨.hbm, 87, rfl⟩
abbrev main_cst_19 : Ref sig .tc := ⟨.hbm, 88, rfl⟩
abbrev main_v64 : Ref sig .tc := ⟨.hbm, 89, rfl⟩
abbrev main_cst_20 : Ref sig .tc := ⟨.hbm, 90, rfl⟩
abbrev main_v65 : Ref sig .tc := ⟨.hbm, 91, rfl⟩
abbrev main_cst_21 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_22 : Ref sig .tc := ⟨.hbm, 96, rfl⟩
abbrev main_v69 : Ref sig .tc := ⟨.hbm, 97, rfl⟩
abbrev main_v70 : Ref sig .tc := ⟨.hbm, 98, rfl⟩
abbrev main_cst_23 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_24 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_25 : Ref sig .tc := ⟨.hbm, 107, rfl⟩
abbrev main_v77 : Ref sig .tc := ⟨.hbm, 108, rfl⟩
abbrev main_cst_26 : Ref sig .tc := ⟨.hbm, 109, rfl⟩
abbrev main_v78 : Ref sig .tc := ⟨.hbm, 110, rfl⟩
abbrev main_cst_27 : Ref sig .tc := ⟨.hbm, 111, rfl⟩
abbrev main_v79 : Ref sig .tc := ⟨.hbm, 112, rfl⟩
abbrev main_cst_28 : Ref sig .tc := ⟨.hbm, 113, rfl⟩
abbrev main_v80 : Ref sig .tc := ⟨.hbm, 114, rfl⟩
abbrev main_cst_29 : Ref sig .tc := ⟨.hbm, 115, rfl⟩
abbrev main_v81 : Ref sig .tc := ⟨.hbm, 116, rfl⟩
abbrev main_cst_30 : Ref sig .tc := ⟨.hbm, 117, rfl⟩
abbrev main_v82 : Ref sig .tc := ⟨.hbm, 118, rfl⟩
abbrev main_cst_31 : Ref sig .tc := ⟨.hbm, 119, rfl⟩
abbrev main_v83 : Ref sig .tc := ⟨.hbm, 120, rfl⟩
abbrev main_cst_32 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩

abbrev nD : Nat := 1
abbrev τ : Topo := Topo.v7x

variable {F : FTy → Type} [FloatOps F]

class Facts₀ : Prop where
  bcast_S_S8x4096x1 : S_.BroadcastsInDim S8x4096x1 (![] : Fin 0 → Fin S8x4096x1.rank)
  concatenates_S8x4096x3_S8x4096x1_S8x4096x4_d2 : Shape.Concatenates [S8x4096x3, S8x4096x1] S8x4096x4 2
  slices_S8x4096x4_S8x4096x3_0_0_0 : S8x4096x4.Slices ![0, 0, 0] S8x4096x3
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096_S8_d1 : S8x4096.ReducesTo [1] S8
  bcast_S_S8 : S_.BroadcastsInDim S8 (![] : Fin 0 → Fin S8.rank)
  reducesTo_S8x4096x4096_S8x4096_d1 : S8x4096x4096.ReducesTo [1] S8x4096
  slices_S8x4x4_S8x3x3_0_0_0 : S8x4x4.Slices ![0, 0, 0] S8x3x3
  slices_S8x4x4_S8x3x1_0_0_3 : S8x4x4.Slices ![0, 0, 3] S8x3x1
  shapeCasts_S8x3x1_S8x3 : S8x3x1.ShapeCasts S8x3
  reducesTo_S8x3x3_S8_d1_2 : S8x3x3.ReducesTo [1, 2] S8
  reducesTo_S8x3_S8_d1 : S8x3.ReducesTo [1] S8
  reducesTo_S8_S_d0 : S8.ReducesTo [0] S_
  bcast_S_S1 : S_.BroadcastsInDim S1 (![] : Fin 0 → Fin S1.rank)
  concatenates_S1_S1_S1_S1_S4_d0 : Shape.Concatenates [S1, S1, S1, S1] S4 0
  dot_S8x4096x4_S8x4x4_S8x4096x4_2_2_1_1_0_0_wf : DotDims.WF S8x4096x4 S8x4x4 S8x4096x4 [2] [2] [1] [1] [0] [0]
  dot_S8x4096x3_S8x4096x3_S8x4096x4096_2_2_1_1_0_0_wf : DotDims.WF S8x4096x3 S8x4096x3 S8x4096x4096 [2] [2] [1] [1] [0] [0]

variable [Facts₀]

def dot_S8x4096x4_S8x4x4_S8x4096x4_2_2_1_1_0_0 : DotDims S8x4096x4 S8x4x4 S8x4096x4 where
  lhsContracting := [2]
  rhsContracting := [2]
  lhsNonContracting := [1]
  rhsNonContracting := [1]
  lhsBatch := [0]
  rhsBatch := [0]
  wf := dot_S8x4096x4_S8x4x4_S8x4096x4_2_2_1_1_0_0_wf
def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.RefValueCut.lean ====
/-
  The reference's straight line of 124 host operations, cut into eight consecutive stretches.

  The contents after the whole line are the fold of the operations over the launch contents; the fold of a concatenation is the
  fold of the second part from the fold of the first.  Each stretch ends where a value that several later operations read has
  just been written, so that a later stretch meets that value as the contents of a buffer and not as a term:
    1. the two transformed clouds (the sliced products of the source points, with a ones column, by the two transforms);
    2. the squared-distance array of the first cloud against the target points;
    3. its chamfer value per batch entry (the mean of the row minima plus the mean of the column minima);
    4. the transform discrepancy per batch entry (two norms, each with weight one, added);
    5. the squared-distance array of the first cloud against the second;
    6. its chamfer value per batch entry;
    7. the weighted total and the four batch means, each as a one-entry vector;
    8. their stacking into the result.
  The stretches are the operations of the list `ops`, in order and unchanged; `ops_eq` says so.
-/
import proofs.«126651_j14345190769122_2_alg».proof.Proof.RefRunP

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Stretch 1: operations 0 to 6 of the line. -/
abbrev s1 : List (HloOp τ sig (Elt F)) :=
  [ nullary main_cst (constant S_ .f32 0x3F800000#32),
    unary main_cst main_v0 (broadcastInDim S8x4096x1 ![] bcast_S_S8x4096x1 : (⟨S_, .f32⟩ : BufTy).Contents (Elt F) → (⟨S8x4096x1, .f32⟩ : BufTy).Contents (Elt F)),
    binary main_arg2 main_v0 main_v1 ((fun a b => concatenate S8x4096x4 2 [⟨S8x4096x3, a⟩, ⟨S8x4096x1, b⟩] concatenates_S8x4096x3_S8x4096x1_S8x4096x4_d2) : (⟨S8x4096x3, .f32⟩ : BufTy).Contents (Elt F) → (⟨S8x4096x1, .f32⟩ : BufTy).Contents (Elt F) → (⟨S8x4096x4, .f32⟩ : BufTy).Contents (Elt F)),
    binary main_v1 main_arg0 main_v2 ((fun l r => Host.dotGeneral dot_S8x4096x4_S8x4x4_S8x4096x4_2_2_1_1_0_0 none l r) : (⟨S8x4096x4, .f32⟩ : BufTy).Contents (Elt F) → (⟨S8x4x4, .f32⟩ : BufTy).Contents (Elt F) → (⟨S8x4096x4, .f32⟩ : BufTy).Contents (Elt F)),
    unary main_v2 main_v3 ((extractStridedSlice S8x4096x3 ![0, 0, 0] · slices_S8x4096x4_S8x4096x3_0_0_0) : (⟨S8x4096x4, .f32⟩ : BufTy).Contents (Elt F) → (⟨S8x4096x3, .f32⟩ : BufTy).Contents (Elt F)),
    binary main_v1 main_arg1 main_v4 ((fun l r => Host.dotGeneral dot_S8x4096x4_S8x4x4_S8x4096x4_2_2_1_1_0_0 none l r) : (⟨S8x4096x4, .f32⟩ : BufTy).Contents (Elt F) → (⟨S8x4x4, .f32⟩ : BufTy).Contents (Elt F) → (⟨S8x4096x4, .f32⟩ : BufTy).Contents (Elt F)),
    unary main_v4 main_v5 ((extractStridedSlice S8x4096x3 ![0, 0, 0] · slices_S8x4096x4_S8x4096x3_0_0_0) : (⟨S8x4096x4, .f32⟩ : BufTy).Contents (Elt F) → (⟨S8x4096x3, .f32⟩ : BufTy).Contents (Elt F)) ]

/-- Stretch 2: operations 7 to 22 of the line. -/
abbrev s2 : List (HloOp τ sig (Elt F)) :=
  [ binary main_v3 main_v3 main_v6 (mulf : (⟨S8x4096x3, .f32⟩ : BufTy).Contents (Elt F) → (⟨S8x4096x3, .f32⟩ : BufTy).Contents (Elt F) → (⟨S8x4096x3, .f32⟩ : BufTy).Contents (Elt F)),
    nullary main_cst_0 (constant S_ .f32 0x00000000#32),
    binary main_v6 main_cst_0 main_v7 ((fun x v => Host.reduceAdd x v reducesTo_S8x4096x3_S8x4096_d2 h_S_) : (⟨S8x4096x3, .f32⟩ : BufTy).Contents (Elt F) → (⟨S_, .f32⟩ : BufTy).Contents (Elt F) → (⟨S8x4096, .f32⟩ : BufTy).Contents (Elt F)),
    binary main_arg3 main_arg3 main_v8 (mulf : (⟨S8x4096x3, .f32⟩ : BufTy).Contents (Elt F) → (⟨S8x4096x3, .f32⟩ : BufTy).Contents (Elt F) → (⟨S8x4096x3, .f32⟩ : BufTy).Contents (Elt F)),
    nullary main_cst_1 (constant S_ .f32 0x00000000#32),
    binary main_v8 main_cst_1 main_v9 ((fun x v => Host.reduceAdd x v reducesTo_S8x4096x3_S8x4096_d2 h_S_) : (⟨S8x4096x3, .f32⟩ : BufTy).Contents (Elt F) → (⟨S_, .f32⟩ : BufTy).Contents (Elt F) → (⟨S8x4096, .f32⟩ : BufTy).Contents (Elt F)),
    unary main_v7 main_v10 (broadcastInDim S8x4096x1 ![0, 1] bcast_S8x4096_S8x4096x1_0_1 : (⟨S8x4096, .f32⟩ : BufTy).Contents (Elt F) → (⟨S8x4096x1, .f32⟩ : BufTy).Contents (Elt F)),
    unary main_v9 main_v11 (broadcastInDim S8x1x4096 ![0, 2] bcast_S8x4096_S8x1x4096_0_2 : (⟨S8x4096, .f32⟩ : BufTy).Contents (Elt F) → (⟨S8x1x4096, .f32⟩ : BufTy).Contents (Elt F)),
    unary main_v10 main_v12 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    unary main_v11 main_v13 (broadcastInDim S8x4096x4096 ![0, 1, 2] bcast_S8x1x4096_S8x4096x4096_0_1_2 : (⟨S8x1x4096, .f32⟩ : BufTy).Contents (Elt F) → (⟨S8x4096x4096, .f32⟩ : BufTy).Contents (Elt F)),
    binary main_v12 main_v13 main_v14 (addf : (⟨S8x4096x4096, .f32⟩ : BufTy).Contents (Elt F) → (⟨S8x4096x4096, .f32⟩ : BufTy).Contents (Elt F) → (⟨S8x4096x4096, .f32⟩ : BufTy).Contents (Elt F)),
    binary main_v3 main_arg3 main_v15 ((fun l r => Host.dotGeneral dot_S8x4096x3_S8x4096x3_S8x4096x4096_2_2_1_1_0_0 none l r) : (⟨S8x4096x3, .f32⟩ : BufTy).Contents (Elt F) → (⟨S8x4096x3, .f32⟩ : BufTy).Contents (Elt F) → (⟨S8x4096x4096, .f32⟩ : BufTy).Contents (Elt F)),
    nullary main_cst_2 (constant S_ .f32 0x40000000#32),
    unary main_cst_2 main_v16 (broadcastInDim S8x4096x4096 ![] bcast_S_S8x4096x4096 : (⟨S_, .f32⟩ : BufTy).Contents (Elt F) → (⟨S8x4096x4096, .f32⟩ : BufTy).Contents (Elt F)),
    binary main_v16 main_v15 main_v17 (mulf : (⟨S8x4096x4096, .f32⟩ : BufTy).Contents (Elt F) → (⟨S8x4096x4096, .f32⟩ : BufTy).Contents (Elt F) → (⟨S8x4096x4096, .f32⟩ : BufTy).Contents (Elt F)),
    binary main_v14 main_v17 main_v18 (subf : (⟨S8x4096x4096, .f32⟩ : BufTy).Contents (Elt F) → (⟨S8x4096x4096, .f32⟩ : BufTy).Contents (Elt F) → (⟨S8x4096x4096, .f32⟩ : BufTy).Contents (Elt F)) ]

/-- Stretch 3: operations 23 to 37 of the line. -/
abbrev s3 : List (HloOp τ sig (Elt F)) :=
  [ nullary main_cst_3 (constant S_ .f32 0x7F800000#32),
    binary main_v18 main_cst_3 main_v19 ((fun x v => Host.reduce FloatOps.minimumf x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)),
    nullary main_cst_4 (constant S_ .f32 0x00000000#32),
    binary main_v19 main_cst_4 main_v20 ((fun x v => Host.reduceAdd x v reducesTo_S8x4096_S8_d1 h_S_) : (⟨S8x4096, .f32⟩ : BufTy).Contents (Elt F) → (⟨S_, .f32⟩ : BufTy).Contents (Elt F) → (⟨S8, .f32⟩ : BufTy).Contents (Elt F)),
    nullary main_cst_5 (constant S_ .f32 0x45800000#32),
    unary main_cst_5 main_v21 (broadcastInDim S8 ![] bcast_S_S8 : (⟨S_, .f32⟩ : BufTy).Contents (Elt F) → (⟨S8, .f32⟩ : BufTy).Contents (Elt F)),
    binary main_v20 main_v21 main_v22 (Host.divf : (⟨S8, .f32⟩ : BufTy).Contents (Elt F) → (⟨S8, .f32⟩ : BufTy).Contents (Elt F) → (⟨S8, .f32⟩ : BufTy).Contents (Elt F)),
    nullary main_cst_6 (constant S_ .f32 0x7F800000#32),
    binary main_v18 main_cst_6 main_v23 ((fun x v => Host.reduce FloatOps.minimumf x v reducesTo_S8x4096x4096_S8x4096_d1 h_S_) : (⟨S8x4096x4096, .f32⟩ : BufTy).Contents (Elt F) → (⟨S_, .f32⟩ : BufTy).Contents (Elt F) → (⟨S8x4096, .f32⟩ : BufTy).Contents (Elt F)),
    nullary main_cst_7 (constant S_ .f32 0x00000000#32),
    binary main_v23 main_cst_7 main_v24 ((fun x v => Host.reduceAdd x v reducesTo_S8x4096_S8_d1 h_S_) : (⟨S8x4096, .f32⟩ : BufTy).Contents (Elt F) → (⟨S_, .f32⟩ : BufTy).Contents (Elt F) → (⟨S8, .f32⟩ : BufTy).Contents (Elt F)),
    nullary main_cst_8 (constant S_ .f32 0x45800000#32),
    unary main_cst_8 main_v25 (broadcastInDim S8 ![] bcast_S_S8 : (⟨S_, .f32⟩ : BufTy).Contents (Elt F) → (⟨S8, .f32⟩ : BufTy).Contents (Elt F)),
    binary main_v24 main_v25 main_v26 (Host.divf : (⟨S8, .f32⟩ : BufTy).Contents (Elt F) → (⟨S8, .f32⟩ : BufTy).Contents (Elt F) → (⟨S8, .f32⟩ : BufTy).Contents (Elt F)),
    binary main_v22 main_v26 main_v27 (addf : (⟨S8, .f32⟩ : BufTy).Contents (Elt F) → (⟨S8, .f32⟩ : BufTy).Contents (Elt F) → (⟨S8, .f32⟩ : BufTy).Contents (Elt F)) ]

/-- Stretch 4: operations 38 to 60 of the line. -/
abbrev s4 : List (HloOp τ sig (Elt F)) :=
  [ unary main_arg0 main_v28 ((extractStridedSlice S8x3x3 ![0, 0, 0] · slices_S8x4x4_S8x3x3_0_0_0) : (⟨S8x4x4, .f32⟩ : BufTy).Contents (Elt F) → (⟨S8x3x3, .f32⟩ : BufTy).Contents (Elt F)),
    unary main_arg1 main_v29 ((extractStridedSlice S8x3x3 ![0, 0, 0] · slices_S8x4x4_S8x3x3_0_0_0) : (⟨S8x4x4, .f32⟩ : BufTy).Contents (Elt F) → (⟨S8x3x3, .f32⟩ : BufTy).Contents (Elt F)),
    binary main_v28 main_v29 main_v30 (subf : (⟨S8x3x3, .f32⟩ : BufTy).Contents (Elt F) → (⟨S8x3x3, .f32⟩ : BufTy).Contents (Elt F) → (⟨S8x3x3, .f32⟩ : BufTy).Contents (Elt F)),
    unary main_arg0 main_v31 ((extractStridedSlice S8x3x1 ![0, 0, 3] · slices_S8x4x4_S8x3x1_0_0_3) : (⟨S8x4x4, .f32⟩ : BufTy).Contents (Elt F) → (⟨S8x3x1, .f32⟩ : BufTy).Contents (Elt F)),
    reshape main_v31 main_v32 rfl shapeCasts_S8x3x1_S8x3,
    unary main_arg1 main_v33 ((extractStridedSlice S8x3x1 ![0, 0, 3] · slices_S8x4x4_S8x3x1_0_0_3) : (⟨S8x4x4, .f32⟩ : BufTy).Contents (Elt F) → (⟨S8x3x1, .f32⟩ : BufTy).Contents (Elt F)),
    reshape main_v33 main_v34 rfl shapeCasts_S8x3x1_S8x3,
    binary main_v32 main_v34 main_v35 (subf : (⟨S8x3, .f32⟩ : BufTy).Contents (Elt F) → (⟨S8x3, .f32⟩ : BufTy).Contents (Elt F) → (⟨S8x3, .f32⟩ : BufTy).Contents (Elt F)),
    binary main_v30 main_v30 main_v36 (mulf : (⟨S8x3x3, .f32⟩ : BufTy).Contents (Elt F) → (⟨S8x3x3, .f32⟩ : BufTy).Contents (Elt F) → (⟨S8x3x3, .f32⟩ : BufTy).Contents (Elt F)),
    nullary main_cst_9 (constant S_ .f32 0x00000000#32),
    binary main_v36 main_cst_9 main_v37 ((fun x v => Host.reduceAdd x v reducesTo_S8x3x3_S8_d1_2 h_S_) : (⟨S8x3x3, .f32⟩ : BufTy).Contents (Elt F) → (⟨S_, .f32⟩ : BufTy).Contents (Elt F) → (⟨S8, .f32⟩ : BufTy).Contents (Elt F)),
    unary main_v37 main_v38 (Host.sqrt : (⟨S8, .f32⟩ : BufTy).Contents (Elt F) → (⟨S8, .f32⟩ : BufTy).Contents (Elt F)),
    binary main_v35 main_v35 main_v39 (mulf : (⟨S8x3, .f32⟩ : BufTy).Contents (Elt F) → (⟨S8x3, .f32⟩ : BufTy).Contents (Elt F) → (⟨S8x3, .f32⟩ : BufTy).Contents (Elt F)),
    nullary main_cst_10 (constant S_ .f32 0x00000000#32),
    binary main_v39 main_cst_10 main_v40 ((fun x v => Host.reduceAdd x v reducesTo_S8x3_S8_d1 h_S_) : (⟨S8x3, .f32⟩ : BufTy).Contents (Elt F) → (⟨S_, .f32⟩ : BufTy).Contents (Elt F) → (⟨S8, .f32⟩ : BufTy).Contents (Elt F)),
    unary main_v40 main_v41 (Host.sqrt : (⟨S8, .f32⟩ : BufTy).Contents (Elt F) → (⟨S8, .f32⟩ : BufTy).Contents (Elt F)),
    nullary main_cst_11 (constant S_ .f32 0x3F800000#32),
    unary main_cst_11 main_v42 (broadcastInDim S8 ![] bcast_S_S8 : (⟨S_, .f32⟩ : BufTy).Contents (Elt F) → (⟨S8, .f32⟩ : BufTy).Contents (Elt F)),
    binary main_v42 main_v38 main_v43 (mulf : (⟨S8, .f32⟩ : BufTy).Contents (Elt F) → (⟨S8, .f32⟩ : BufTy).Contents (Elt F) → (⟨S8, .f32⟩ : BufTy).Contents (Elt F)),
    nullary main_cst_12 (constant S_ .f32 0x3F800000#32),
    unary main_cst_12 main_v44 (broadcastInDim S8 ![] bcast_S_S8 : (⟨S_, .f32⟩ : BufTy).Contents (Elt F) → (⟨S8, .f32⟩ : BufTy).Contents (Elt F)),
    binary main_v44 main_v41 main_v45 (mulf : (⟨S8, .f32⟩ : BufTy).Contents (Elt F) → (⟨S8, .f32⟩ : BufTy).Contents (Elt F) → (⟨S8, .f32⟩ : BufTy).Contents (Elt F)),
    binary main_v43 main_v45 main_v46 (addf : (⟨S8, .f32⟩ : BufTy).Contents (Elt F) → (⟨S8, .f32⟩ : BufTy).Contents (Elt F) → (⟨S8, .f32⟩ : BufTy).Contents (Elt F)) ]

/-- Stretch 5: operations 61 to 76 of the line. -/
abbrev s5 : List (HloOp τ sig (Elt F)) :=
  [ binary main_v3 main_v3 main_v47 (mulf : (⟨S8x4096x3, .f32⟩ : BufTy).Contents (Elt F) → (⟨S8x4096x3, .f32⟩ : BufTy).Contents (Elt F) → (⟨S8x4096x3, .f32⟩ : BufTy).Contents (Elt F)),
    nullary main_cst_13 (constant S_ .f32 0x00000000#32),
    binary main_v47 main_cst_13 main_v48 ((fun x v => Host.reduceAdd x v reducesTo_S8x4096x3_S8x4096_d2 h_S_) : (⟨S8x4096x3, .f32⟩ : BufTy).Contents (Elt F) → (⟨S_, .f32⟩ : BufTy).Contents (Elt F) → (⟨S8x4096, .f32⟩ : BufTy).Contents (Elt F)),
    binary main_v5 main_v5 main_v49 (mulf : (⟨S8x4096x3, .f32⟩ : BufTy).Contents (Elt F) → (⟨S8x4096x3, .f32⟩ : BufTy).Contents (Elt F) → (⟨S8x4096x3, .f32⟩ : BufTy).Contents (Elt F)),
    nullary main_cst_14 (constant S_ .f32 0x00000000#32),
    binary main_v49 main_cst_14 main_v50 ((fun x v => Host.reduceAdd x v reducesTo_S8x4096x3_S8x4096_d2 h_S_) : (⟨S8x4096x3, .f32⟩ : BufTy).Contents (Elt F) → (⟨S_, .f32⟩ : BufTy).Contents (Elt F) → (⟨S8x4096, .f32⟩ : BufTy).Contents (Elt F)),
    unary main_v48 main_v51 (broadcastInDim S8x4096x1 ![0, 1] bcast_S8x4096_S8x4096x1_0_1 : (⟨S8x4096, .f32⟩ : BufTy).Contents (Elt F) → (⟨S8x4096x1, .f32⟩ : BufTy).Contents (Elt F)),
    unary main_v50 main_v52 (broadcastInDim S8x1x4096 ![0, 2] bcast_S8x4096_S8x1x4096_0_2 : (⟨S8x4096, .f32⟩ : BufTy).Contents (Elt F) → (⟨S8x1x4096, .f32⟩ : BufTy).Contents (Elt F)),
    unary main_v51 main_v53 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    unary main_v52 main_v54 (broadcastInDim S8x4096x4096 ![0, 1, 2] bcast_S8x1x4096_S8x4096x4096_0_1_2 : (⟨S8x1x4096, .f32⟩ : BufTy).Contents (Elt F) → (⟨S8x4096x4096, .f32⟩ : BufTy).Contents (Elt F)),
    binary main_v53 main_v54 main_v55 (addf : (⟨S8x4096x4096, .f32⟩ : BufTy).Contents (Elt F) → (⟨S8x4096x4096, .f32⟩ : BufTy).Contents (Elt F) → (⟨S8x4096x4096, .f32⟩ : BufTy).Contents (Elt F)),
    binary main_v3 main_v5 main_v56 ((fun l r => Host.dotGeneral dot_S8x4096x3_S8x4096x3_S8x4096x4096_2_2_1_1_0_0 none l r) : (⟨S8x4096x3, .f32⟩ : BufTy).Contents (Elt F) → (⟨S8x4096x3, .f32⟩ : BufTy).Contents (Elt F) → (⟨S8x4096x4096, .f32⟩ : BufTy).Contents (Elt F)),
    nullary main_cst_15 (constant S_ .f32 0x40000000#32),
    unary main_cst_15 main_v57 (broadcastInDim S8x4096x4096 ![] bcast_S_S8x4096x4096 : (⟨S_, .f32⟩ : BufTy).Contents (Elt F) → (⟨S8x4096x4096, .f32⟩ : BufTy).Contents (Elt F)),
    binary main_v57 main_v56 main_v58 (mulf : (⟨S8x4096x4096, .f32⟩ : BufTy).Contents (Elt F) → (⟨S8x4096x4096, .f32⟩ : BufTy).Contents (Elt F) → (⟨S8x4096x4096, .f32⟩ : BufTy).Contents (Elt F)),
    binary main_v55 main_v58 main_v59 (subf : (⟨S8x4096x4096, .f32⟩ : BufTy).Contents (Elt F) → (⟨S8x4096x4096, .f32⟩ : BufTy).Contents (Elt F) → (⟨S8x4096x4096, .f32⟩ : BufTy).Contents (Elt F)) ]

/-- Stretch 6: operations 77 to 91 of the line. -/
abbrev s6 : List (HloOp τ sig (Elt F)) :=
  [ nullary main_cst_16 (constant S_ .f32 0x7F800000#32),
    binary main_v59 main_cst_16 main_v60 ((fun x v => Host.reduce FloatOps.minimumf x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)),
    nullary main_cst_17 (constant S_ .f32 0x00000000#32),
    binary main_v60 main_cst_17 main_v61 ((fun x v => Host.reduceAdd x v reducesTo_S8x4096_S8_d1 h_S_) : (⟨S8x4096, .f32⟩ : BufTy).Contents (Elt F) → (⟨S_, .f32⟩ : BufTy).Contents (Elt F) → (⟨S8, .f32⟩ : BufTy).Contents (Elt F)),
    nullary main_cst_18 (constant S_ .f32 0x45800000#32),
    unary main_cst_18 main_v62 (broadcastInDim S8 ![] bcast_S_S8 : (⟨S_, .f32⟩ : BufTy).Contents (Elt F) → (⟨S8, .f32⟩ : BufTy).Contents (Elt F)),
    binary main_v61 main_v62 main_v63 (Host.divf : (⟨S8, .f32⟩ : BufTy).Contents (Elt F) → (⟨S8, .f32⟩ : BufTy).Contents (Elt F) → (⟨S8, .f32⟩ : BufTy).Contents (Elt F)),
    nullary main_cst_19 (constant S_ .f32 0x7F800000#32),
    binary main_v59 main_cst_19 main_v64 ((fun x v => Host.reduce FloatOps.minimumf x v reducesTo_S8x4096x4096_S8x4096_d1 h_S_) : (⟨S8x4096x4096, .f32⟩ : BufTy).Contents (Elt F) → (⟨S_, .f32⟩ : BufTy).Contents (Elt F) → (⟨S8x4096, .f32⟩ : BufTy).Contents (Elt F)),
    nullary main_cst_20 (constant S_ .f32 0x00000000#32),
    binary main_v64 main_cst_20 main_v65 ((fun x v => Host.reduceAdd x v reducesTo_S8x4096_S8_d1 h_S_) : (⟨S8x4096, .f32⟩ : BufTy).Contents (Elt F) → (⟨S_, .f32⟩ : BufTy).Contents (Elt F) → (⟨S8, .f32⟩ : BufTy).Contents (Elt F)),
    nullary main_cst_21 (constant S_ .f32 0x45800000#32),
    unary main_cst_21 main_v66 (broadcastInDim S8 ![] bcast_S_S8 : (⟨S_, .f32⟩ : BufTy).Contents (Elt F) → (⟨S8, .f32⟩ : BufTy).Contents (Elt F)),
    binary main_v65 main_v66 main_v67 (Host.divf : (⟨S8, .f32⟩ : BufTy).Contents (Elt F) → (⟨S8, .f32⟩ : BufTy).Contents (Elt F) → (⟨S8, .f32⟩ : BufTy).Contents (Elt F)),
    binary main_v63 main_v67 main_v68 (addf : (⟨S8, .f32⟩ : BufTy).Contents (Elt F) → (⟨S8, .f32⟩ : BufTy).Contents (Elt F) → (⟨S8, .f32⟩ : BufTy).Contents (Elt F)) ]

/-- Stretch 7: operations 92 to 122 of the line. -/
abbrev s7 : List (HloOp τ sig (Elt F)) :=
  [ nullary main_cst_22 (constant S_ .f32 0x3F800000#32),
    unary main_cst_22 main_v69 (broadcastInDim S8 ![] bcast_S_S8 : (⟨S_, .f32⟩ : BufTy).Contents (Elt F) → (⟨S8, .f32⟩ : BufTy).Contents (Elt F)),
    binary main_v69 main_v27 main_v70 (mulf : (⟨S8, .f32⟩ : BufTy).Contents (Elt F) → (⟨S8, .f32⟩ : BufTy).Contents (Elt F) → (⟨S8, .f32⟩ : BufTy).Contents (Elt F)),
    nullary main_cst_23 (constant S_ .f32 0x3F800000#32),
    unary main_cst_23 main_v71 (broadcastInDim S8 ![] bcast_S_S8 : (⟨S_, .f32⟩ : BufTy).Contents (Elt F) → (⟨S8, .f32⟩ : BufTy).Contents (Elt F)),
    binary main_v71 main_v46 main_v72 (mulf : (⟨S8, .f32⟩ : BufTy).Contents (Elt F) → (⟨S8, .f32⟩ : BufTy).Contents (Elt F) → (⟨S8, .f32⟩ : BufTy).Contents (Elt F)),
    binary main_v70 main_v72 main_v73 (addf : (⟨S8, .f32⟩ : BufTy).Contents (Elt F) → (⟨S8, .f32⟩ : BufTy).Contents (Elt F) → (⟨S8, .f32⟩ : BufTy).Contents (Elt F)),
    nullary main_cst_24 (constant S_ .f32 0x3F000000#32),
    unary main_cst_24 main_v74 (broadcastInDim S8 ![] bcast_S_S8 : (⟨S_, .f32⟩ : BufTy).Contents (Elt F) → (⟨S8, .f32⟩ : BufTy).Contents (Elt F)),
    binary main_v74 main_v68 main_v75 (mulf : (⟨S8, .f32⟩ : BufTy).Contents (Elt F) → (⟨S8, .f32⟩ : BufTy).Contents (Elt F) → (⟨S8, .f32⟩ : BufTy).Contents (Elt F)),
    binary main_v73 main_v75 main_v76 (addf : (⟨S8, .f32⟩ : BufTy).Contents (Elt F) → (⟨S8, .f32⟩ : BufTy).Contents (Elt F) → (⟨S8, .f32⟩ : BufTy).Contents (Elt F)),
    nullary main_cst_25 (constant S_ .f32 0x00000000#32),
    binary main_v76 main_cst_25 main_v77 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_26 (constant S_ .f32 0x41000000#32),
    binary main_v77 main_cst_26 main_v78 (Host.divf : (⟨S_, .f32⟩ : BufTy).Contents (Elt F) → (⟨S_, .f32⟩ : BufTy).Contents (Elt F) → (⟨S_, .f32⟩ : BufTy).Contents (Elt F)),
    nullary main_cst_27 (constant S_ .f32 0x00000000#32),
    binary main_v27 main_cst_27 main_v79 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_28 (constant S_ .f32 0x41000000#32),
    binary main_v79 main_cst_28 main_v80 (Host.divf : (⟨S_, .f32⟩ : BufTy).Contents (Elt F) → (⟨S_, .f32⟩ : BufTy).Contents (Elt F) → (⟨S_, .f32⟩ : BufTy).Contents (Elt F)),
    nullary main_cst_29 (constant S_ .f32 0x00000000#32),
    binary main_v46 main_cst_29 main_v81 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_30 (constant S_ .f32 0x41000000#32),
    binary main_v81 main_cst_30 main_v82 (Host.divf : (⟨S_, .f32⟩ : BufTy).Contents (Elt F) → (⟨S_, .f32⟩ : BufTy).Contents (Elt F) → (⟨S_, .f32⟩ : BufTy).Contents (Elt F)),
    nullary main_cst_31 (constant S_ .f32 0x00000000#32),
    binary main_v68 main_cst_31 main_v83 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_32 (constant S_ .f32 0x41000000#32),
    binary main_v83 main_cst_32 main_v84 (Host.divf : (⟨S_, .f32⟩ : BufTy).Contents (Elt F) → (⟨S_, .f32⟩ : BufTy).Contents (Elt F) → (⟨S_, .f32⟩ : BufTy).Contents (Elt F)),
    unary main_v78 main_v85 (broadcastInDim S1 ![] bcast_S_S1 : (⟨S_, .f32⟩ : BufTy).Contents (Elt F) → (⟨S1, .f32⟩ : BufTy).Contents (Elt F)),
    unary main_v80 main_v86 (broadcastInDim S1 ![] bcast_S_S1 : (⟨S_, .f32⟩ : BufTy).Contents (Elt F) → (⟨S1, .f32⟩ : BufTy).Contents (Elt F)),
    unary main_v82 main_v87 (broadcastInDim S1 ![] bcast_S_S1 : (⟨S_, .f32⟩ : BufTy).Contents (Elt F) → (⟨S1, .f32⟩ : BufTy).Contents (Elt F)),
    unary main_v84 main_v88 (broadcastInDim S1 ![] bcast_S_S1 : (⟨S_, .f32⟩ : BufTy).Contents (Elt F) → (⟨S1, .f32⟩ : BufTy).Contents (Elt F)) ]

/-- Stretch 8: operation 123, the last. -/
abbrev s8 : List (HloOp τ sig (Elt F)) :=
  [ nary ![main_v85, main_v86, main_v87, main_v88] main_v89 (fun u => concatenate S4 0 [⟨S1, u 0⟩, ⟨S1, u 1⟩, ⟨S1, u 2⟩, ⟨S1, u 3⟩] concatenates_S1_S1_S1_S1_S4_d0) ]

set_option maxRecDepth 65536 in
/-- The line is its eight stretches, one after the other. -/
theorem ops_eq : (ValueP.ops (F := F)) = s1 ++ (s2 ++ (s3 ++ (s4 ++ (s5 ++ (s6 ++ (s7 ++ s8)))))) := rfl

end Cert.ReferenceIdeal.RefValue

end
-- ==== Proof.LibHostFold.lean ====
/-
  Two facts about folding a straight line of host operations over buffer contents.

  The contents after a list of operations are a fold over the list, so the fold of a concatenation is the fold of the second
  part from the fold of the first: a long program can be evaluated stretch by stretch, the contents between two stretches a
  variable. And an operation of a called function reads and writes its buffers through a typed reference, which carries
  contents to the buffer's own type and back; the round trip is the identity, and saying so once lets the evaluated term be
  compared with a named one without going through each pair of casts.
-/
import Idealize.ShloMosaic.Lib.StableHlo.Run

namespace Idealize.ShloMosaic.HostFold

open Idealize.ShloMosaic Idealize.ShloMosaic.StableHlo

variable {τ : Topo} {sig : RefSig} {Val : EltTy → Type}

/-- Folding a concatenation of operation lists is folding its parts in order. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Contents carried through a typed reference to its buffer's own type and back are unchanged. -/
theorem ofBuf_toBuf {T : BufTy} (x : TRef sig T) (v : T.Contents Val) : x.ofBuf (x.toBuf v) = v := by
  obtain ⟨r, h, _, _⟩ := x
  subst h
  rfl

end Idealize.ShloMosaic.HostFold
-- ==== Proof.RefValueFold.lean ====
/-
  The reference's fold, evaluated stretch by stretch.

  For each of the eight stretches of the line and ANY contents W before it: the buffer the stretch is there to write holds,
  after the stretch, its stage value (the value of that operation as a function of the program's arguments), provided the
  buffers the stretch reads held their stage values in W; and a buffer the stretch does not write keeps what W had.  Chained
  through the eight stretches from the launch contents, the result buffer holds the last stage: the stacked means as a
  function of the four arguments.  No value is ever written out as a term of the arguments: a later stretch meets an
  earlier one's result as a hypothesis about W.
-/
import proofs.«126651_j14345190769122_2_alg».proof.Proof.RefValueCut
import proofs.«126651_j14345190769122_2_alg».proof.Proof.RefReadP
import proofs.«126651_j14345190769122_2_alg».proof.Proof.LibHostFold

noncomputable section

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

section Stretches

variable (W : Valuation τ sig (Elt F))
variable (x0 x1 : (⟨S8x4x4, .f32⟩ : BufTy).Contents (Elt F)) (x2 x3 : (⟨S8x4096x3, .f32⟩ : BufTy).Contents (Elt F))

/-! ### Stretch 1: the two transformed clouds -/

theorem s1_v3 : after s1 W (Proc.devRef .tc main_v3) = val_main_v3 (W (Proc.devRef .tc main_arg0)) (W (Proc.devRef .tc main_arg2)) := by
  after_results_simp <;> rfl
theorem s1_v5 : after s1 W (Proc.devRef .tc main_v5) = val_main_v5 (W (Proc.devRef .tc main_arg1)) (W (Proc.devRef .tc main_arg2)) := by
  after_results_simp <;> rfl
theorem s1_arg0 : after s1 W (Proc.devRef .tc main_arg0) = W (Proc.devRef .tc main_arg0) := by after_results_simp
theorem s1_arg1 : after s1 W (Proc.devRef .tc main_arg1) = W (Proc.devRef .tc main_arg1) := by after_results_simp
theorem s1_arg3 : after s1 W (Proc.devRef .tc main_arg3) = W (Proc.devRef .tc main_arg3) := by after_results_simp

/-! ### Stretch 2: the squared distances to the target points -/

theorem s2_v18 (h3 : W (Proc.devRef .tc main_v3) = val_main_v3 x0 x2) (ha : W (Proc.devRef .tc main_arg3) = x3) :
    after s2 W (Proc.devRef .tc main_v18) = val_main_v18 x0 x2 x3 := by
  after_results_simp
  rw [h3, ha]; rfl
theorem s2_v3 : after s2 W (Proc.devRef .tc main_v3) = W (Proc.devRef .tc main_v3) := by after_results_simp
theorem s2_v5 : after s2 W (Proc.devRef .tc main_v5) = W (Proc.devRef .tc main_v5) := by after_results_simp
theorem s2_arg0 : after s2 W (Proc.devRef .tc main_arg0) = W (Proc.devRef .tc main_arg0) := by after_results_simp
theorem s2_arg1 : after s2 W (Proc.devRef .tc main_arg1) = W (Proc.devRef .tc main_arg1) := by after_results_simp

/-! ### Stretch 3: the chamfer value against the target points -/

theorem s3_v27 (h : W (Proc.devRef .tc main_v18) = val_main_v18 x0 x2 x3) :
    after s3 W (Proc.devRef .tc main_v27) = val_main_v27 x0 x2 x3 := by
  after_results_simp
  rw [h]; rfl
theorem s3_v3 : after s3 W (Proc.devRef .tc main_v3) = W (Proc.devRef .tc main_v3) := by after_results_simp
theorem s3_v5 : after s3 W (Proc.devRef .tc main_v5) = W (Proc.devRef .tc main_v5) := by after_results_simp
theorem s3_arg0 : after s3 W (Proc.devRef .tc main_arg0) = W (Proc.devRef .tc main_arg0) := by after_results_simp
theorem s3_arg1 : after s3 W (Proc.devRef .tc main_arg1) = W (Proc.devRef .tc main_arg1) := by after_results_simp

/-! ### Stretch 4: the transform discrepancy -/

theorem s4_v46 (h0 : W (Proc.devRef .tc main_arg0) = x0) (h1 : W (Proc.devRef .tc main_arg1) = x1) :
    after s4 W (Proc.devRef .tc main_v46) = val_main_v46 x0 x1 := by
  after_results_simp
  rw [h0, h1]; rfl
theorem s4_v3 : after s4 W (Proc.devRef .tc main_v3) = W (Proc.devRef .tc main_v3) := by after_results_simp
theorem s4_v5 : after s4 W (Proc.devRef .tc main_v5) = W (Proc.devRef .tc main_v5) := by after_results_simp
theorem s4_v27 : after s4 W (Proc.devRef .tc main_v27) = W (Proc.devRef .tc main_v27) := by after_results_simp

/-! ### Stretch 5: the squared distances between the two transformed clouds -/

theorem s5_v59 (h3 : W (Proc.devRef .tc main_v3) = val_main_v3 x0 x2) (h5 : W (Proc.devRef .tc main_v5) = val_main_v5 x1 x2) :
    after s5 W (Proc.devRef .tc main_v59) = val_main_v59 x0 x1 x2 := by
  after_results_simp
  rw [h3, h5]; rfl
theorem s5_v27 : after s5 W (Proc.devRef .tc main_v27) = W (Proc.devRef .tc main_v27) := by after_results_simp
theorem s5_v46 : after s5 W (Proc.devRef .tc main_v46) = W (Proc.devRef .tc main_v46) := by after_results_simp

/-! ### Stretch 6: the chamfer value between the two transformed clouds -/

theorem s6_v68 (h : W (Proc.devRef .tc main_v59) = val_main_v59 x0 x1 x2) :
    after s6 W (Proc.devRef .tc main_v68) = val_main_v68 x0 x1 x2 := by
  after_results_simp
  rw [h]; rfl
theorem s6_v27 : after s6 W (Proc.devRef .tc main_v27) = W (Proc.devRef .tc main_v27) := by after_results_simp
theorem s6_v46 : after s6 W (Proc.devRef .tc main_v46) = W (Proc.devRef .tc main_v46) := by after_results_simp

/-! ### Stretch 7: the weighted total and the four batch means -/

theorem s7_v85 (h27 : W (Proc.devRef .tc main_v27) = val_main_v27 x0 x2 x3) (h46 : W (Proc.devRef .tc main_v46) = val_main_v46 x0 x1)
    (h68 : W (Proc.devRef .tc main_v68) = val_main_v68 x0 x1 x2) :
    after s7 W (Proc.devRef .tc main_v85) = val_main_v85 x0 x1 x2 x3 := by
  after_results_simp
  rw [h27, h46, h68]; rfl
theorem s7_v86 (h27 : W (Proc.devRef .tc main_v27) = val_main_v27 x0 x2 x3) :
    after s7 W (Proc.devRef .tc main_v86) = val_main_v86 x0 x2 x3 := by
  after_results_simp
  rw [h27]; rfl
theorem s7_v87 (h46 : W (Proc.devRef .tc main_v46) = val_main_v46 x0 x1) :
    after s7 W (Proc.devRef .tc main_v87) = val_main_v87 x0 x1 := by
  after_results_simp
  rw [h46]; rfl
theorem s7_v88 (h68 : W (Proc.devRef .tc main_v68) = val_main_v68 x0 x1 x2) :
    after s7 W (Proc.devRef .tc main_v88) = val_main_v88 x0 x1 x2 := by
  after_results_simp
  rw [h68]; rfl

/-! ### Stretch 8: the stacking -/

theorem s8_v89 (h85 : W (Proc.devRef .tc main_v85) = val_main_v85 x0 x1 x2 x3) (h86 : W (Proc.devRef .tc main_v86) = val_main_v86 x0 x2 x3)
    (h87 : W (Proc.devRef .tc main_v87) = val_main_v87 x0 x1) (h88 : W (Proc.devRef .tc main_v88) = val_main_v88 x0 x1 x2) :
    after s8 W (Proc.devRef .tc main_v89) = val_main_v89 x0 x1 x2 x3 := by
  simp only [after_cons, after_nil]
  rw [nary_result]
  unfold val_main_v89
  rw [← h85, ← h86, ← h87, ← h88]
  rfl

end Stretches

/-- The result buffer after the whole line holds the last stage of the arguments' contents. -/
theorem after_ops_v89 (V : Valuation τ sig (Elt F)) :
    after (ValueP.ops (F := F)) V (Proc.devRef .tc main_v89)
      = val_main_v89 (V (Proc.devRef .tc main_arg0)) (V (Proc.devRef .tc main_arg1)) (V (Proc.devRef .tc main_arg2)) (V (Proc.devRef .tc main_arg3)) := by
  rw [ops_eq]
  simp only [HostFold.after_append]
  have e3 : after s1 V (Proc.devRef .tc main_v3) = val_main_v3 (V (Proc.devRef .tc main_arg0)) (V (Proc.devRef .tc main_arg2)) := s1_v3 V
  have e5 : after s1 V (Proc.devRef .tc main_v5) = val_main_v5 (V (Proc.devRef .tc main_arg1)) (V (Proc.devRef .tc main_arg2)) := s1_v5 V
  have h27 : after s6 (after s5 (after s4 (after s3 (after s2 (after s1 V))))) (Proc.devRef .tc main_v27)
      = val_main_v27 (V (Proc.devRef .tc main_arg0)) (V (Proc.devRef .tc main_arg2)) (V (Proc.devRef .tc main_arg3)) := by
    rw [s6_v27, s5_v27, s4_v27]
    exact s3_v27 _ _ _ _ (s2_v18 _ _ _ _ e3 (s1_arg3 V))
  have h46 : after s6 (after s5 (after s4 (after s3 (after s2 (after s1 V))))) (Proc.devRef .tc main_v46)
      = val_main_v46 (V (Proc.devRef .tc main_arg0)) (V (Proc.devRef .tc main_arg1)) := by
    rw [s6_v46, s5_v46]
    refine s4_v46 _ _ _ ?_ ?_
    · rw [s3_arg0, s2_arg0, s1_arg0]
    · rw [s3_arg1, s2_arg1, s1_arg1]
  have h68 : after s6 (after s5 (after s4 (after s3 (after s2 (after s1 V))))) (Proc.devRef .tc main_v68)
      = val_main_v68 (V (Proc.devRef .tc main_arg0)) (V (Proc.devRef .tc main_arg1)) (V (Proc.devRef .tc main_arg2)) := by
    refine s6_v68 _ _ _ _ (s5_v59 _ _ _ _ ?_ ?_)
    · rw [s4_v3, s3_v3, s2_v3]; exact e3
    · rw [s4_v5, s3_v5, s2_v5]; exact e5
  exact s8_v89 _ _ _ _ _ (s7_v85 _ _ _ _ _ h27 h46 h68) (s7_v86 _ _ _ _ h27) (s7_v87 _ _ _ h46) (s7_v88 _ _ _ _ h68)

end Cert.ReferenceIdeal.RefValue

end
-- ==== Proof.Spec.lean ====
/-
  The mathematics both programs compute, stated once over abstract arrays of extended reals.

  Point clouds.  For one batch entry, X and Y are 4096 points of three coordinates each.  With
  |x|² the sum of a point's squared coordinates and x·y the sum of products of coordinates,
      dist X Y n m = (|X n|² + |Y m|²) − 2 · (X n · Y m),
  and the chamfer distance of the two clouds is the mean over n of the least dist X Y n m over m,
  plus the mean over m of the least dist X Y n m over n.  A mean is the sum divided by the count
  (4096 points; 8 batch entries), the divisions being the extended reals' division by the exact
  value of the count's float word; the least value over a finite range is the meet of the
  extended reals' order, whose top (+∞) is the meet of nothing.

  Result.  From per-batch values ch (chamfer against the target cloud), tch (chamfer against the
  cloud moved by the other transform) and two parts tr₁, tr₂ of a transform discrepancy, the four
  results are the batch means of   (ch + (tr₁ + tr₂)) + ½ · tch,   ch,   tr₁ + tr₂,   tch.
-/
import Idealize.ShloMosaic.PureOps.Ideal
import Idealize.ShloMosaic.Lib.ValueIdx

noncomputable section

open scoped BigOperators

namespace ChamferSpec

open Idealize.ShloMosaic Idealize.ShloMosaic.ValueIdx

/-- The float words the programs spell, at their exact values (never evaluated: both sides carry the same word). -/
def two : EReal := Ideal.ofBits .f32 0x40000000#32
def count : EReal := Ideal.ofBits .f32 0x45800000#32
def half : EReal := Ideal.ofBits .f32 0x3F000000#32
def eight : EReal := Ideal.ofBits .f32 0x41000000#32

/-- A cloud: 4096 points of three coordinates. -/
abbrev Cloud := Fin 4096 → Fin 3 → EReal

/-- Batch entry b of an array [8, 4096, 3] as a cloud. -/
def cloud (A : (⟨3, ![8, 4096, 3]⟩ : Shape).Idx → EReal) (b : Fin 8) : Cloud := fun n d => A (ix3 b n d)

/-- |x|²: the sum of the squared coordinates of point n. -/
def sq (X : Cloud) (n : Fin 4096) : EReal := ∑ d : Fin 3, X n d * X n d

/-- x·y: the sum of the products of the coordinates of X's point n and Y's point m. -/
def dot (X Y : Cloud) (n m : Fin 4096) : EReal := ∑ d : Fin 3, X n d * Y m d

/-- The squared distance in its expanded form, grouped as both programs group it. -/
def dist (X Y : Cloud) (n m : Fin 4096) : EReal := (sq X n + sq Y m) - two * dot X Y n m

/-- The least distance from X's point n to Y. -/
def rowMin (X Y : Cloud) (n : Fin 4096) : EReal := Finset.univ.inf fun m : Fin 4096 => dist X Y n m

/-- The least distance from Y's point m to X. -/
def colMin (X Y : Cloud) (m : Fin 4096) : EReal := Finset.univ.inf fun n : Fin 4096 => dist X Y n m

/-- The chamfer distance of two clouds. -/
def chamfer (X Y : Cloud) : EReal :=
  Ideal.div (∑ n : Fin 4096, rowMin X Y n) count + Ideal.div (∑ m : Fin 4096, colMin X Y m) count

/-- The batch mean of eight values. -/
def mean8 (v : Fin 8 → EReal) : EReal := Ideal.div (∑ b : Fin 8, v b) eight

/-- The weighted total of one batch entry. -/
def total (ch tch tr₁ tr₂ : Fin 8 → EReal) (b : Fin 8) : EReal := (ch b + (tr₁ b + tr₂ b)) + half * tch b

/-- The four results. -/
def out (ch tch tr₁ tr₂ : Fin 8 → EReal) : (⟨1, ![4]⟩ : Shape).Idx → EReal := fun j =>
  match j 0 with
  | ⟨0, _⟩ => mean8 (total ch tch tr₁ tr₂)
  | ⟨1, _⟩ => mean8 ch
  | ⟨2, _⟩ => mean8 fun b => tr₁ b + tr₂ b
  | ⟨3, _⟩ => mean8 tch

end ChamferSpec

end
-- ==== Proof.RefValueDist.lean ====
/-
  The reference's two squared-distance arrays, read at an index.

  With P the first transformed cloud array, G the second and T the target points (each [8, 4096, 3]), the reference forms
  for each batch entry b the array   (|X n|² + |Y m|²) − 2 · (X n · Y m)   over (n, m), once with X = P, Y = T and once with
  X = P, Y = G: the squared norms are sums over the three coordinates of products, spread along the other axis by two
  broadcasts each; the inner product is a contraction over the coordinate axis; the literal 2 is spread over the whole
  array.  Read at (b, n, m) each array is the specification's `dist` of the two clouds of batch entry b at (n, m): every
  broadcast reads its operand at the index with the new axis dropped, every sum starts from the zero word, which is 0.
-/
import proofs.«126651_j14345190769122_2_alg».proof.Proof.RefReadP
import proofs.«126651_j14345190769122_2_alg».proof.Proof.Spec

noncomputable section

namespace Cert.ReferenceIdeal.RefValue

open Cert.ReferenceIdeal Cert.ReferenceIdeal.Gen Cert.ReferenceIdeal.ReadP Idealize.ShloMosaic Idealize.ShloMosaic.ValueIdx ChamferSpec
open scoped BigOperators

variable (x0 x1 : (⟨S8x4x4, .f32⟩ : BufTy).Contents (Elt Ideal)) (x2 x3 : (⟨S8x4096x3, .f32⟩ : BufTy).Contents (Elt Ideal))
variable (b : Fin 8) (n m : Fin 4096)

/-- A sum of products over the three coordinates that starts from the zero word is the sum. -/
theorem zero_word_add (s : EReal) : (FloatOps.ofBits (F := Ideal) .f32 0x00000000#32 : EReal) + s = s := by
  show Ideal.ofBits .f32 0x00000000#32 + s = s
  rw [Ideal.ofBits_zero_f32, zero_add]

/-! ### First array: the first transformed cloud against the target points -/

theorem v7_at : val_main_v7 (F := Ideal) x0 x2 (ix2 b n) = sq (cloud (val_main_v3 (F := Ideal) x0 x2) b) n := by
  rw [val_main_v7_apply, val_main_cst_0_apply, zero_word_add]
  refine Finset.sum_congr rfl fun k _ => ?_
  have e : idx_main_v7 (ix2 b n) k = ix3 b n k := by
    funext a; match a with | ⟨0, _⟩ => rfl | ⟨1, _⟩ => rfl | ⟨2, _⟩ => rfl
  rw [e]; rfl

theorem v9_at : val_main_v9 (F := Ideal) x3 (ix2 b m) = sq (cloud x3 b) m := by
  rw [val_main_v9_apply, val_main_cst_1_apply, zero_word_add]
  refine Finset.sum_congr rfl fun k _ => ?_
  have e : idx_main_v9 (ix2 b m) k = ix3 b m k := by
    funext a; match a with | ⟨0, _⟩ => rfl | ⟨1, _⟩ => rfl | ⟨2, _⟩ => rfl
  rw [e]; rfl

theorem v15_at : val_main_v15 (F := Ideal) x0 x2 x3 (ix3 b n m) = dot (cloud (val_main_v3 (F := Ideal) x0 x2) b) (cloud x3 b) n m := by
  rw [val_main_v15_apply]
  refine Finset.sum_congr rfl fun k _ => ?_
  have el : lidx_main_v15 (ix3 b n m) k = ix3 b n k := by
    funext a; match a with | ⟨0, _⟩ => rfl | ⟨1, _⟩ => rfl | ⟨2, _⟩ => rfl
  have er : ridx_main_v15 (ix3 b n m) k = ix3 b m k := by
    funext a; match a with | ⟨0, _⟩ => rfl | ⟨1, _⟩ => rfl | ⟨2, _⟩ => rfl
  rw [el, er]; rfl

theorem v12_at : val_main_v12 (F := Ideal) x0 x2 (ix3 b n m) = sq (cloud (val_main_v3 (F := Ideal) x0 x2) b) n := by
  rw [val_main_v12_apply, val_main_v10_apply]
  have e : idx_main_v10 (idx_main_v12 (ix3 b n m)) = ix2 b n := by
    funext a; match a with | ⟨0, _⟩ => rfl | ⟨1, _⟩ => rfl
  rw [e, v7_at]

theorem v13_at : val_main_v13 (F := Ideal) x3 (ix3 b n m) = sq (cloud x3 b) m := by
  rw [val_main_v13_apply, val_main_v11_apply]
  have e : idx_main_v11 (idx_main_v13 (ix3 b n m)) = ix2 b m := by
    funext a; match a with | ⟨0, _⟩ => rfl | ⟨1, _⟩ => rfl
  rw [e, v9_at]

/-- The first squared-distance array at (b, n, m). -/
theorem v18_at : val_main_v18 (F := Ideal) x0 x2 x3 (ix3 b n m)
    = dist (cloud (val_main_v3 (F := Ideal) x0 x2) b) (cloud x3 b) n m := by
  rw [val_main_v18_apply, val_main_v14_apply, val_main_v17_apply, v12_at, v13_at, v15_at, val_main_v16_apply, val_main_cst_2_apply]
  rfl

/-! ### Second array: the first transformed cloud against the second -/

theorem v48_at : val_main_v48 (F := Ideal) x0 x2 (ix2 b n) = sq (cloud (val_main_v3 (F := Ideal) x0 x2) b) n := by
  rw [val_main_v48_apply, val_main_cst_13_apply, zero_word_add]
  refine Finset.sum_congr rfl fun k _ => ?_
  have e : idx_main_v48 (ix2 b n) k = ix3 b n k := by
    funext a; match a with | ⟨0, _⟩ => rfl | ⟨1, _⟩ => rfl | ⟨2, _⟩ => rfl
  rw [e]; rfl

theorem v50_at : val_main_v50 (F := Ideal) x1 x2 (ix2 b m) = sq (cloud (val_main_v5 (F := Ideal) x1 x2) b) m := by
  rw [val_main_v50_apply, val_main_cst_14_apply, zero_word_add]
  refine Finset.sum_congr rfl fun k _ => ?_
  have e : idx_main_v50 (ix2 b m) k = ix3 b m k := by
    funext a; match a with | ⟨0, _⟩ => rfl | ⟨1, _⟩ => rfl | ⟨2, _⟩ => rfl
  rw [e]; rfl

theorem v56_at : val_main_v56 (F := Ideal) x0 x1 x2 (ix3 b n m)
    = dot (cloud (val_main_v3 (F := Ideal) x0 x2) b) (cloud (val_main_v5 (F := Ideal) x1 x2) b) n m := by
  rw [val_main_v56_apply]
  refine Finset.sum_congr rfl fun k _ => ?_
  have el : lidx_main_v56 (ix3 b n m) k = ix3 b n k := by
    funext a; match a with | ⟨0, _⟩ => rfl | ⟨1, _⟩ => rfl | ⟨2, _⟩ => rfl
  have er : ridx_main_v56 (ix3 b n m) k = ix3 b m k := by
    funext a; match a with | ⟨0, _⟩ => rfl | ⟨1, _⟩ => rfl | ⟨2, _⟩ => rfl
  rw [el, er]; rfl

theorem v53_at : val_main_v53 (F := Ideal) x0 x2 (ix3 b n m) = sq (cloud (val_main_v3 (F := Ideal) x0 x2) b) n := by
  rw [val_main_v53_apply, val_main_v51_apply]
  have e : idx_main_v51 (idx_main_v53 (ix3 b n m)) = ix2 b n := by
    funext a; match a with | ⟨0, _⟩ => rfl | ⟨1, _⟩ => rfl
  rw [e, v48_at]

theorem v54_at : val_main_v54 (F := Ideal) x1 x2 (ix3 b n m) = sq (cloud (val_main_v5 (F := Ideal) x1 x2) b) m := by
  rw [val_main_v54_apply, val_main_v52_apply]
  have e : idx_main_v52 (idx_main_v54 (ix3 b n m)) = ix2 b m := by
    funext a; match a with | ⟨0, _⟩ => rfl | ⟨1, _⟩ => rfl
  rw [e, v50_at]

/-- The second squared-distance array at (b, n, m). -/
theorem v59_at : val_main_v59 (F := Ideal) x0 x1 x2 (ix3 b n m)
    = dist (cloud (val_main_v3 (F := Ideal) x0 x2) b) (cloud (val_main_v5 (F := Ideal) x1 x2) b) n m := by
  rw [val_main_v59_apply, val_main_v55_apply, val_main_v58_apply, v53_at, v54_at, v56_at, val_main_v57_apply, val_main_cst_15_apply]
  rfl

end Cert.ReferenceIdeal.RefValue

end
-- ==== Proof.RefValueMin.lean ====
/-
  The reference's four minimum-reductions, read at an index.

  A reduction with a minimum body over one axis of an array, started from the word of +∞, is at each index of the result the
  least element of the array along that axis: the fold of the binary minimum from +∞ over the axis's coordinates, and +∞ is
  the top of the extended reals, so the fold is the meet of the family, the order-theoretic infimum over the finite range.
  For the squared-distance arrays: over the last axis, at (b, n), it is the least distance from point n of the first cloud
  to the second cloud (the specification's `rowMin`); over the middle axis, at (b, m), the least distance from point m of
  the second cloud to the first (`colMin`).
-/
import proofs.«126651_j14345190769122_2_alg».proof.Proof.RefValueDist
import Idealize.ShloMosaic.PureOps.Reduce

noncomputable section

namespace Cert.ReferenceIdeal.RefValue

open Cert.ReferenceIdeal Cert.ReferenceIdeal.Gen Cert.ReferenceIdeal.ReadP Idealize.ShloMosaic Idealize.ShloMosaic.ValueIdx ChamferSpec
open scoped BigOperators

/-- The word of +∞ is the top of the extended reals. -/
theorem inf_word : Ideal.ofBits .f32 0x7F800000#32 = (⊤ : EReal) := by simp [Ideal.ofBits, Ideal.ieee]

/-- The fold of the binary minimum from the top over a finite family is the family's infimum. -/
theorem fold_min_eq_inf {ι : Type} (s : Finset ι) (g : ι → EReal) :
    Finset.fold (FloatOps.minimumf (F := Ideal) (φ := .f32)) (⊤ : EReal) g s = s.inf g := by
  classical
  induction s using Finset.induction_on with
  | empty => rw [Finset.fold_empty, Finset.inf_empty]
  | insert a s ha ih =>
    rw [Finset.fold_insert ha, Finset.inf_insert, ih]
    rfl

/-- A minimum-reduction over one axis from the word of +∞, at an index: the infimum along the axis. -/
theorem hostReduce_min_at {s t u : Shape} {a : Fin s.rank} (x : s.Idx → EReal) (init : u.Idx → EReal)
    (h' : s.ReducesTo [a] t) (h : s.Reduces [a] t) (hu : 0 < u.numel)
    (hinit : init (Shape.Idx.first hu) = Ideal.ofBits .f32 0x7F800000#32) (j : t.Idx) :
    Host.reduce (FloatOps.minimumf (F := Ideal) (φ := .f32)) x init h' hu j
      = (Finset.univ : Finset (Fin (s.size a))).inf fun k => x (h.lift j k) := by
  rw [Host.reduce_eq_fold_single (FloatOps.minimumf (F := Ideal) (φ := .f32)) x init h' h hu j, hinit, inf_word,
    fold_min_eq_inf]
  rfl

theorem reduces_d2 : S8x4096x4096.Reduces [2] S8x4096 := by decide
theorem reduces_d1 : S8x4096x4096.Reduces [1] S8x4096 := by decide

/-- Over the last axis: (b, n) with coordinate k put back is (b, n, k). -/
theorem lift_d2 (b : Fin 8) (n : Fin 4096) (k : Fin (S8x4096x4096.size 2)) :
    reduces_d2.lift (ix2 b n) k = ix3 b n (⟨k.val, k.isLt⟩ : Fin 4096) := by
  funext c; apply Fin.ext
  fin_cases c <;> rfl

/-- Over the middle axis: (b, m) with coordinate k put back is (b, k, m). -/
theorem lift_d1 (b : Fin 8) (m : Fin 4096) (k : Fin (S8x4096x4096.size 1)) :
    reduces_d1.lift (ix2 b m) k = ix3 b (⟨k.val, k.isLt⟩ : Fin 4096) m := by
  funext c; apply Fin.ext
  fin_cases c <;> rfl

variable (x0 x1 : (⟨S8x4x4, .f32⟩ : BufTy).Contents (Elt Ideal)) (x2 x3 : (⟨S8x4096x3, .f32⟩ : BufTy).Contents (Elt Ideal))
variable (b : Fin 8) (n m : Fin 4096)

/-! ### Against the target points -/

theorem v19_at : val_main_v19 (F := Ideal) x0 x2 x3 (ix2 b n)
    = rowMin (cloud (val_main_v3 (F := Ideal) x0 x2) b) (cloud x3 b) n := by
  unfold val_main_v19
  rw [hostReduce_min_at _ _ reducesTo_S8x4096x4096_S8x4096_d2 reduces_d2 h_S_ rfl]
  show (Finset.univ : Finset (Fin 4096)).inf _ = (Finset.univ : Finset (Fin 4096)).inf _
  refine congrArg _ (funext fun k => ?_)
  rw [lift_d2]
  exact v18_at x0 x2 x3 b n k

theorem v23_at : val_main_v23 (F := Ideal) x0 x2 x3 (ix2 b m)
    = colMin (cloud (val_main_v3 (F := Ideal) x0 x2) b) (cloud x3 b) m := by
  unfold val_main_v23
  rw [hostReduce_min_at _ _ reducesTo_S8x4096x4096_S8x4096_d1 reduces_d1 h_S_ rfl]
  show (Finset.univ : Finset (Fin 4096)).inf _ = (Finset.univ : Finset (Fin 4096)).inf _
  refine congrArg _ (funext fun k => ?_)
  rw [lift_d1]
  exact v18_at x0 x2 x3 b k m

/-! ### Against the second transformed cloud -/

theorem v60_at : val_main_v60 (F := Ideal) x0 x1 x2 (ix2 b n)
    = rowMin (cloud (val_main_v3 (F := Ideal) x0 x2) b) (cloud (val_main_v5 (F := Ideal) x1 x2) b) n := by
  unfold val_main_v60
  rw [hostReduce_min_at _ _ reducesTo_S8x4096x4096_S8x4096_d2 reduces_d2 h_S_ rfl]
  show (Finset.univ : Finset (Fin 4096)).inf _ = (Finset.univ : Finset (Fin 4096)).inf _
  refine congrArg _ (funext fun k => ?_)
  rw [lift_d2]
  exact v59_at x0 x1 x2 b n k

theorem v64_at : val_main_v64 (F := Ideal) x0 x1 x2 (ix2 b m)
    = colMin (cloud (val_main_v3 (F := Ideal) x0 x2) b) (cloud (val_main_v5 (F := Ideal) x1 x2) b) m := by
  unfold val_main_v64
  rw [hostReduce_min_at _ _ reducesTo_S8x4096x4096_S8x4096_d1 reduces_d1 h_S_ rfl]
  show (Finset.univ : Finset (Fin 4096)).inf _ = (Finset.univ : Finset (Fin 4096)).inf _
  refine congrArg _ (funext fun k => ?_)
  rw [lift_d1]
  exact v59_at x0 x1 x2 b k m

end Cert.ReferenceIdeal.RefValue

end
-- ==== Proof.RefValueMean.lean ====
/-
  The reference's per-batch values and their batch means, read at an index.

  Per batch entry b.  The chamfer value is the sum over n of the row minima divided by the word of 4096, plus the sum over m
  of the column minima divided by it: each sum is a reduction by addition from the zero word, which is 0, each quotient the
  extended reals' division by the value of the count's word.  The transform discrepancy is the sum of two square roots, each
  multiplied by the word of 1, which is 1.  The weighted total is (1 · ch + 1 · tr) + ½ · tch.
  The four results are the batch means of these: a sum over the eight entries from the zero word, divided by the word of 8.
-/
import proofs.«126651_j14345190769122_2_alg».proof.Proof.RefValueMin
import Idealize.ShloMosaic.Lib.IdealHost

noncomputable section

namespace Cert.ReferenceIdeal.RefValue

open Cert.ReferenceIdeal Cert.ReferenceIdeal.Gen Cert.ReferenceIdeal.ReadP Idealize.ShloMosaic Idealize.ShloMosaic.ValueIdx ChamferSpec
open scoped BigOperators

/-- A sum over the indices of a one-axis shape is the sum over the axis's coordinates. -/
theorem sum_idx1 {n : Nat} (f : (⟨1, ![n]⟩ : Shape).Idx → EReal) : ∑ j, f j = ∑ a : Fin n, f (ix1 a) := by
  refine Fintype.sum_equiv ⟨fun j => j 0, fun a => ix1 a, fun j => (eq_ix1 j).symm, fun _ => rfl⟩ _ _ fun j => ?_
  exact congrArg f (eq_ix1 j)

/-- The word of 1 times a value is the value. -/
theorem one_word_mul (s : EReal) : (FloatOps.ofBits (F := Ideal) .f32 0x3F800000#32 : EReal) * s = s := by
  show Ideal.ofBits .f32 0x3F800000#32 * s = s
  rw [Ideal.ofBits_one_f32, one_mul]

variable (x0 x1 : (⟨S8x4x4, .f32⟩ : BufTy).Contents (Elt Ideal)) (x2 x3 : (⟨S8x4096x3, .f32⟩ : BufTy).Contents (Elt Ideal))
variable (b : Fin 8)

/-! ### The chamfer value against the target points -/

theorem v20_at : val_main_v20 (F := Ideal) x0 x2 x3 (ix1 b) = ∑ n : Fin 4096, rowMin (cloud (val_main_v3 (F := Ideal) x0 x2) b) (cloud x3 b) n := by
  rw [val_main_v20_apply, val_main_cst_4_apply, zero_word_add]
  refine Finset.sum_congr rfl fun k _ => ?_
  have e : idx_main_v20 (ix1 b) k = ix2 b k := by
    funext a; match a with | ⟨0, _⟩ => rfl | ⟨1, _⟩ => rfl
  rw [e, v19_at]

theorem v24_at : val_main_v24 (F := Ideal) x0 x2 x3 (ix1 b) = ∑ m : Fin 4096, colMin (cloud (val_main_v3 (F := Ideal) x0 x2) b) (cloud x3 b) m := by
  rw [val_main_v24_apply, val_main_cst_7_apply, zero_word_add]
  refine Finset.sum_congr rfl fun k _ => ?_
  have e : idx_main_v24 (ix1 b) k = ix2 b k := by
    funext a; match a with | ⟨0, _⟩ => rfl | ⟨1, _⟩ => rfl
  rw [e, v23_at]

/-- The chamfer value of batch entry b against the target points. -/
theorem v27_at : val_main_v27 (F := Ideal) x0 x2 x3 (ix1 b) = chamfer (cloud (val_main_v3 (F := Ideal) x0 x2) b) (cloud x3 b) := by
  rw [val_main_v27_apply, val_main_v22_apply, val_main_v26_apply, v20_at, v24_at, val_main_v21_apply, val_main_v25_apply,
    val_main_cst_5_apply, val_main_cst_8_apply]
  rfl

/-! ### The chamfer value against the second transformed cloud -/

theorem v61_at : val_main_v61 (F := Ideal) x0 x1 x2 (ix1 b) = ∑ n : Fin 4096, rowMin (cloud (val_main_v3 (F := Ideal) x0 x2) b) (cloud (val_main_v5 (F := Ideal) x1 x2) b) n := by
  rw [val_main_v61_apply, val_main_cst_17_apply, zero_word_add]
  refine Finset.sum_congr rfl fun k _ => ?_
  have e : idx_main_v61 (ix1 b) k = ix2 b k := by
    funext a; match a with | ⟨0, _⟩ => rfl | ⟨1, _⟩ => rfl
  rw [e, v60_at]

theorem v65_at : val_main_v65 (F := Ideal) x0 x1 x2 (ix1 b) = ∑ m : Fin 4096, colMin (cloud (val_main_v3 (F := Ideal) x0 x2) b) (cloud (val_main_v5 (F := Ideal) x1 x2) b) m := by
  rw [val_main_v65_apply, val_main_cst_20_apply, zero_word_add]
  refine Finset.sum_congr rfl fun k _ => ?_
  have e : idx_main_v65 (ix1 b) k = ix2 b k := by
    funext a; match a with | ⟨0, _⟩ => rfl | ⟨1, _⟩ => rfl
  rw [e, v64_at]

/-- The chamfer value of batch entry b against the second transformed cloud. -/
theorem v68_at : val_main_v68 (F := Ideal) x0 x1 x2 (ix1 b) = chamfer (cloud (val_main_v3 (F := Ideal) x0 x2) b) (cloud (val_main_v5 (F := Ideal) x1 x2) b) := by
  rw [val_main_v68_apply, val_main_v63_apply, val_main_v67_apply, v61_at, v65_at, val_main_v62_apply, val_main_v66_apply,
    val_main_cst_18_apply, val_main_cst_21_apply]
  rfl

/-! ### The transform discrepancy and the weighted total -/

/-- The transform discrepancy of batch entry b: the two square roots, each with weight one, added. -/
theorem v46_at : val_main_v46 (F := Ideal) x0 x1 (ix1 b)
    = val_main_v38 (F := Ideal) x0 x1 (ix1 b) + val_main_v41 (F := Ideal) x0 x1 (ix1 b) := by
  rw [val_main_v46_apply, val_main_v43_apply, val_main_v45_apply, val_main_v42_apply, val_main_v44_apply,
    val_main_cst_11_apply, val_main_cst_12_apply]
  show (FloatOps.ofBits (F := Ideal) .f32 0x3F800000#32 : EReal) * _ + (FloatOps.ofBits (F := Ideal) .f32 0x3F800000#32 : EReal) * _ = _
  rw [one_word_mul, one_word_mul]

/-- The per-batch values the results average. -/
abbrev chT (b : Fin 8) : EReal := chamfer (cloud (val_main_v3 (F := Ideal) x0 x2) b) (cloud x3 b)
abbrev chG (b : Fin 8) : EReal := chamfer (cloud (val_main_v3 (F := Ideal) x0 x2) b) (cloud (val_main_v5 (F := Ideal) x1 x2) b)
abbrev trR (b : Fin 8) : EReal := val_main_v38 (F := Ideal) x0 x1 (ix1 b)
abbrev trT (b : Fin 8) : EReal := val_main_v41 (F := Ideal) x0 x1 (ix1 b)

/-- The weighted total of batch entry b. -/
theorem v76_at : val_main_v76 (F := Ideal) x0 x1 x2 x3 (ix1 b)
    = total (chT x0 x2 x3) (chG x0 x1 x2) (trR x0 x1) (trT x0 x1) b := by
  rw [val_main_v76_apply, val_main_v73_apply, val_main_v75_apply, val_main_v70_apply, val_main_v72_apply,
    val_main_v69_apply, val_main_v71_apply, val_main_v74_apply, val_main_cst_22_apply, val_main_cst_23_apply,
    val_main_cst_24_apply, v27_at, v46_at, v68_at]
  show ((FloatOps.ofBits (F := Ideal) .f32 0x3F800000#32 : EReal) * _ + (FloatOps.ofBits (F := Ideal) .f32 0x3F800000#32 : EReal) * _) + _ = _
  rw [one_word_mul, one_word_mul]
  rfl

/-! ### The four batch means -/

theorem v78_at (i : S_.Idx) : val_main_v78 (F := Ideal) x0 x1 x2 x3 i
    = mean8 (total (chT x0 x2 x3) (chG x0 x1 x2) (trR x0 x1) (trT x0 x1)) := by
  rw [val_main_v78_apply, val_main_v77_apply, val_main_cst_25_apply, zero_word_add, val_main_cst_26_apply, sum_idx1]
  unfold mean8
  refine congrArg (fun s => Ideal.div s eight) (Finset.sum_congr rfl fun b _ => ?_)
  exact v76_at x0 x1 x2 x3 b

theorem v80_at (i : S_.Idx) : val_main_v80 (F := Ideal) x0 x2 x3 i = mean8 (chT x0 x2 x3) := by
  rw [val_main_v80_apply, val_main_v79_apply, val_main_cst_27_apply, zero_word_add, val_main_cst_28_apply, sum_idx1]
  unfold mean8
  refine congrArg (fun s => Ideal.div s eight) (Finset.sum_congr rfl fun b _ => ?_)
  exact v27_at x0 x2 x3 b

theorem v82_at (i : S_.Idx) : val_main_v82 (F := Ideal) x0 x1 i = mean8 fun b => trR x0 x1 b + trT x0 x1 b := by
  rw [val_main_v82_apply, val_main_v81_apply, val_main_cst_29_apply, zero_word_add, val_main_cst_30_apply, sum_idx1]
  unfold mean8
  refine congrArg (fun s => Ideal.div s eight) (Finset.sum_congr rfl fun b _ => ?_)
  exact v46_at x0 x1 b

theorem v84_at (i : S_.Idx) : val_main_v84 (F := Ideal) x0 x1 x2 i = mean8 (chG x0 x1 x2) := by
  rw [val_main_v84_apply, val_main_v83_apply, val_main_cst_31_apply, zero_word_add, val_main_cst_32_apply, sum_idx1]
  unfold mean8
  refine congrArg (fun s => Ideal.div s eight) (Finset.sum_congr rfl fun b _ => ?_)
  exact v68_at x0 x1 x2 b

end Cert.ReferenceIdeal.RefValue

end
-- ==== Proof.RefValue.lean ====
/-
  The reference's result as the specification's four batch means, and its frame.

  The result is the stacking of four one-entry vectors; at entry j it is the j-th of them at its only index, a broadcast of
  a scalar: the batch mean of the weighted totals, of the chamfer values against the target points, of the transform
  discrepancies, and of the chamfer values against the second transformed cloud.  With the fold of the whole line already
  evaluated to the last stage of the arguments' contents, the contents of the result buffer after the reference's run are
  the specification's `out` of
     b ↦ chamfer (P b) (T b),   b ↦ chamfer (P b) (G b),   and the two square-root stages at b,
  where P and G are the two transformed cloud arrays (host terms of the first three arguments, kept closed) and T the fourth
  argument.  The frame: the run terminates with the four arguments unchanged.
-/
import proofs.«126651_j14345190769122_2_alg».proof.Defs
import proofs.«126651_j14345190769122_2_alg».proof.Proof.Gen.Pre_finite_inputs
import proofs.«126651_j14345190769122_2_alg».proof.Proof.RefValueFold
import proofs.«126651_j14345190769122_2_alg».proof.Proof.RefValueMean
import Idealize.ShloMosaic.Lib.Pipeline.Value

noncomputable section

namespace Cert.ReferenceIdeal.RefValue

open Cert.ReferenceIdeal Cert.ReferenceIdeal.Gen Cert.ReferenceIdeal.ReadP Idealize.ShloMosaic Idealize.ShloMosaic.ValueIdx
  Idealize.ShloMosaic.TcCoe Idealize.SL.Sem Idealize.ShloMosaic.StableHlo ChamferSpec
open scoped BigOperators

section Stack

variable (x0 x1 : (⟨S8x4x4, .f32⟩ : BufTy).Contents (Elt Ideal)) (x2 x3 : (⟨S8x4096x3, .f32⟩ : BufTy).Contents (Elt Ideal))

/-- The stacking read at entry q: the q-th one-entry vector at its only index. -/
theorem v89_at (q : Fin 4) : val_main_v89 (F := Ideal) x0 x1 x2 x3 (ix1 q)
    = out (chT x0 x2 x3) (chG x0 x1 x2) (trR x0 x1) (trT x0 x1) (ix1 q) := by
  unfold val_main_v89
  let pieces : List ((s : Shape) × (s.Idx → EReal)) :=
    [⟨S1, val_main_v85 (F := Ideal) x0 x1 x2 x3⟩, ⟨S1, val_main_v86 (F := Ideal) x0 x2 x3⟩, ⟨S1, val_main_v87 (F := Ideal) x0 x1⟩, ⟨S1, val_main_v88 (F := Ideal) x0 x1 x2⟩]
  show concatenate S4 0 pieces concatenates_S1_S1_S1_S1_S4_d0 (ix1 q) = _
  have hi : ∀ b : Fin S1.rank, b.cast (rfl : S1.rank = S4.rank) ≠ (0 : Fin S4.rank) →
      ((ix1 (0 : Fin 1) : S1.Idx) b).val = ((ix1 q : S4.Idx) (b.cast (rfl : S1.rank = S4.rank))).val :=
    fun b hb => match b, hb with | ⟨0, _⟩, hb => absurd rfl hb
  match q with
  | ⟨0, _⟩ =>
    refine (concatenate_apply_piece (0 : Fin S4.rank) pieces concatenates_S1_S1_S1_S1_S4_d0 (ix1 (⟨0, by decide⟩ : Fin 4)) 0 (by show (0 : Nat) < 4; omega) S1 _ rfl rfl 0 rfl
      (ix1 (0 : Fin 1)) hi rfl).trans ?_
    rw [val_main_v85_apply, v78_at]; rfl
  | ⟨1, _⟩ =>
    refine (concatenate_apply_piece (0 : Fin S4.rank) pieces concatenates_S1_S1_S1_S1_S4_d0 (ix1 (⟨1, by decide⟩ : Fin 4)) 1 (by show (1 : Nat) < 4; omega) S1 _ rfl rfl 1 rfl
      (ix1 (0 : Fin 1)) hi rfl).trans ?_
    rw [val_main_v86_apply, v80_at]; rfl
  | ⟨2, _⟩ =>
    refine (concatenate_apply_piece (0 : Fin S4.rank) pieces concatenates_S1_S1_S1_S1_S4_d0 (ix1 (⟨2, by decide⟩ : Fin 4)) 2 (by show (2 : Nat) < 4; omega) S1 _ rfl rfl 2 rfl
      (ix1 (0 : Fin 1)) hi rfl).trans ?_
    rw [val_main_v87_apply, v82_at]; rfl
  | ⟨3, _⟩ =>
    refine (concatenate_apply_piece (0 : Fin S4.rank) pieces concatenates_S1_S1_S1_S1_S4_d0 (ix1 (⟨3, by decide⟩ : Fin 4)) 3 (by show (3 : Nat) < 4; omega) S1 _ rfl rfl 3 rfl
      (ix1 (0 : Fin 1)) hi rfl).trans ?_
    rw [val_main_v88_apply, v84_at]; rfl

/-- The last stage is the specification's four results. -/
theorem v89_eq : val_main_v89 (F := Ideal) x0 x1 x2 x3
    = out (chT x0 x2 x3) (chG x0 x1 x2) (trR x0 x1) (trT x0 x1) := by
  funext j
  calc val_main_v89 (F := Ideal) x0 x1 x2 x3 j
      = val_main_v89 (F := Ideal) x0 x1 x2 x3 (ix1 (j 0)) := congrArg _ (eq_ix1 (n := 4) j)
    _ = out (chT x0 x2 x3) (chG x0 x1 x2) (trR x0 x1) (trT x0 x1) (ix1 (j 0)) := v89_at x0 x1 x2 x3 (j 0)
    _ = out (chT x0 x2 x3) (chG x0 x1 x2) (trR x0 x1) (trT x0 x1) j := congrArg _ (eq_ix1 (n := 4) j).symm

end Stack

/-- The contents of the result buffer after the reference's line, from any contents V: the four batch means of the
    specification, of the chamfer values of the first transformed cloud against the fourth argument and against the second
    transformed cloud, and of the two square-root stages. -/
theorem result_eq (V : Valuation τ sig (Elt Ideal)) :
    after (ValueP.ops (F := Ideal)) V (Proc.devRef .tc main_v89)
      = out
          (fun b => chamfer (cloud (val_main_v3 (F := Ideal) (V (Proc.devRef .tc main_arg0)) (V (Proc.devRef .tc main_arg2))) b) (cloud (V (Proc.devRef .tc main_arg3)) b))
          (fun b => chamfer (cloud (val_main_v3 (F := Ideal) (V (Proc.devRef .tc main_arg0)) (V (Proc.devRef .tc main_arg2))) b)
            (cloud (val_main_v5 (F := Ideal) (V (Proc.devRef .tc main_arg1)) (V (Proc.devRef .tc main_arg2))) b))
          (fun b => val_main_v38 (F := Ideal) (V (Proc.devRef .tc main_arg0)) (V (Proc.devRef .tc main_arg1)) (ix1 b))
          (fun b => val_main_v41 (F := Ideal) (V (Proc.devRef .tc main_arg0)) (V (Proc.devRef .tc main_arg1)) (ix1 b)) := by
  rw [after_ops_v89, v89_eq]

/-- The reference terminates with its four arguments unchanged. -/
theorem frame_ri : Cert.frame_ReferenceIdeal := fun m ρ _ =>
  (θ_run Cert.ReferenceIdeal.defs _ _).mono (fun _ h c => (h c).2) (Cert.ReferenceIdeal.ValueP.run (F := Ideal) m ρ)

end Cert.ReferenceIdeal.RefValue

end
-- ==== Proof.RefBridge.lean ====
/-
  The two programs' common result, and the reference's half of the comparison.

  Both programs end with the same four numbers as a function of the four argument arrays: the specification's four batch
  means of the chamfer values of the first transformed cloud against the target points and against the second transformed
  cloud, and of the two square-root parts of the transform discrepancy.  That function is `value`.  The reference's run, from
  any memory, ends with its result buffer at `value` of its own arguments and the arguments unchanged; and if a second memory
  (the other program's) agrees with the first on the four arguments, at `value` of that memory's arguments.  Given that the
  other program's run ends at the same `value`, the two results are equal: the comparison claim.
-/
import proofs.«126651_j14345190769122_2_alg».proof.Proof.RefValue
import proofs.«126651_j14345190769122_2_alg».proof.Proof.Gen.KernelIdeal

noncomputable section

namespace Cert.Bridge

open Idealize.ShloMosaic Idealize.ShloMosaic.ValueIdx Idealize.SL.Sem Idealize.ShloMosaic.StableHlo ChamferSpec
open Cert.ReferenceIdeal.ReadP Cert.ReferenceIdeal.RefValue

/-- The four results as a function of the four argument arrays. -/
def value (a0 a1 : (⟨Cert.ReferenceIdeal.S8x4x4, .f32⟩ : BufTy).Contents (Elt Ideal))
    (a2 a3 : (⟨Cert.ReferenceIdeal.S8x4096x3, .f32⟩ : BufTy).Contents (Elt Ideal)) : (⟨1, ![4]⟩ : Shape).Idx → EReal :=
  out (fun b => chamfer (cloud (val_main_v3 (F := Ideal) a0 a2) b) (cloud a3 b))
    (fun b => chamfer (cloud (val_main_v3 (F := Ideal) a0 a2) b) (cloud (val_main_v5 (F := Ideal) a1 a2) b))
    (fun b => val_main_v38 (F := Ideal) a0 a1 (ix1 b))
    (fun b => val_main_v41 (F := Ideal) a0 a1 (ix1 b))

/-- The reference's run ends with its result at `value` of its arguments, the arguments unchanged. -/
theorem reference_run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
        r.2.mem ((c.tc : Thread Cert.ReferenceIdeal.nD Cert.ReferenceIdeal.τ).loc Cert.ReferenceIdeal.main_v89)
            = value (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run (Cert.ReferenceIdeal.defs (F := Ideal)) _ _).mono
    (fun _ h c => ⟨(h c).1.trans (result_eq (launchContents m' c)), (h c).2⟩)
    (Cert.ReferenceIdeal.ValueP.run (F := Ideal) m' g')

/-- The kernel's half, as the comparison needs it: from any memory satisfying the precondition the kernel's run ends with
    its result at `value` of its arguments, the arguments unchanged. -/
def KernelValue : Prop :=
  ∀ (m : (ℓ : Loc Cert.KernelIdeal.nD Cert.KernelIdeal.τ Cert.KernelIdeal.sig) → Buf (Elt Ideal) ℓ) (g : Dev Cert.KernelIdeal.nD → PrngReg), Cert.Pre_KernelIdeal m →
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v42)
            = value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

/-- The comparison claim from the kernel's half. -/
theorem algebraic_of (hk : KernelValue) : Cert.algebraic_KernelIdeal_ReferenceIdeal := by
  intro m g m' g' hpre hagree
  refine ⟨fun c => value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), hk m g hpre, ?_⟩
  refine (θ_run (Cert.ReferenceIdeal.defs (F := Ideal)) _ _).mono (fun r h c => ?_) (reference_run m' g')
  obtain ⟨h0, h1, h2, h3⟩ := hagree c
  refine ⟨(h c).1.trans ?_, (h c).2⟩
  rw [h0, h1, h2, h3]

end Cert.Bridge

end
-- ==== Proof.ClaimOf.lean ====
/-
  The certificate's claim from its three kernel-side parts.

  The claim is a conjunction of five: the kernel's frame at the bit-exact instance, the kernel's frame at the ideal
  instance, the reference's frame, that the idealization is the sanctioned one (no operation was rewritten, so there is
  nothing to show), and the comparison at the ideal instance.  The reference's frame and the reference's half of the
  comparison are proved; given the two kernel frames and the kernel's half of the comparison, the claim follows.
-/
import proofs.«126651_j14345190769122_2_alg».proof.Defs
import proofs.«126651_j14345190769122_2_alg».proof.Proof.Gen.Kernel
import proofs.«126651_j14345190769122_2_alg».proof.Proof.Gen.KernelIdeal
import proofs.«126651_j14345190769122_2_alg».proof.Proof.Gen.ReferenceIdeal
import proofs.«126651_j14345190769122_2_alg».proof.Proof.Gen.Pre_finite_inputs
import proofs.«126651_j14345190769122_2_alg».proof.Proof.RefBridge

noncomputable section

namespace Cert.Bridge

/-- The claim, from the kernel's two frames and the kernel's half of the comparison. -/
theorem claim_of (hK : Cert.frame_Kernel) (hKI : Cert.frame_KernelIdeal) (hV : KernelValue) : Cert.Claim :=
  ⟨Cert.Kernel.Gen.facts, Cert.KernelIdeal.Gen.facts, Cert.ReferenceIdeal.Gen.facts, Cert.Pre_finite_inputs.Gen.facts,
    hK, hKI, Cert.ReferenceIdeal.RefValue.frame_ri, trivial, algebraic_of hV⟩

end Cert.Bridge

end
-- ==== Proof.WFrameKit.lean ====
/-
  The kernel program's @main around its one pallas_call, and the vocabulary the per-point runs are stated in.

  @main is seven host operations (the two point clouds moved by the two transforms), the pallas_call, and
  forty-seven host operations on its two results.  The host operations before the call write only their own result
  buffers, so the call finds the four argument arrays as launched; the operations after it write neither an argument
  nor an array the call stages.  A window's block at a grid point is its array read through the block's rectangle.
  The kernel body branches on two conditions of the grid position: "first tile of a batch entry" (both tile
  coordinates zero: every sixteenth point) and "last tile of a batch entry" (both three: the point before).
-/
import proofs.«126651_j14345190769122_2_alg».proof.Proof.Gen.Kernel.Launch
import proofs.«126651_j14345190769122_2_alg».proof.Proof.Gen.Kernel.Skeleton
import proofs.«126651_j14345190769122_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the call -/

/-- The buffers' contents when the call is entered: after the seven host operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the call, the call, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the call touch unscoped buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 1600000 in
/-- Each writes only its own result buffer, which is no array the call stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the call writes an argument: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window w's block at point t, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "First tile of a batch entry." -/
abbrev cond0_0 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
/-- "Last tile of a batch entry." -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S1x1024x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x3 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x128 .f32 := win0_4.stage (cfg0.slots t 4)
abbrev hs0_4 (t : Fin cfg0.N) : (ms0_4 t).IsWhole := hstage0_4 ((cfg0.slots t 4).cast nbuf0_4)
/-- The four scratch rows. -/
abbrev scM0_0 : Memref sig .tc .vmem S1x4096 .f32 := Memref.whole cc0_scratch0
abbrev scM0_1 : Memref sig .tc .vmem S1x4096 .f32 := Memref.whole cc0_scratch1
abbrev scM0_2 : Memref sig .tc .vmem S1x4096 .f32 := Memref.whole cc0_scratch2
abbrev scM0_3 : Memref sig .tc .vmem S1x4096 .f32 := Memref.whole cc0_scratch3

/-- What the launch hands the call beside the windows: the four scratch rows at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- What a store through a rectangle leaves, read back: the earlier contents with the rectangle's part replaced. -/
theorem read_writes_cons_overlay {sig' : RefSig} {κ : Kind} {sp : Space} {s : Shape} {e : EltTy} {Val : EltTy → Type}
    (v : View sig' κ sp s e) (f : v.ty.Contents Val) (r : Rect s) (w : r.shape.Idx → Val e) (L : List (View.Piece Val s e)) :
    v.read Val (v.writes Val f (⟨r, w⟩ :: L)) = r.overlay (v.read Val (v.writes Val f L)) w := by
  funext j
  by_cases hj : j ∈ r.set
  · obtain ⟨x, rfl⟩ : ∃ x, r.emb x = j := r.exists_idx_of_mem hj
    rw [View.read_writes_cons_emb, Rect.overlay_emb]
  · rw [Rect.overlay_of_not_mem _ _ _ hj, View.writes_cons, View.read_slice_write_of_not_mem r _ _ _ (by rw [Rect.map_emb_univ]; exact hj)]

end Cert.Kernel.KFrame

end
-- ==== Proof.WStep.lean ====
/-
  One grid point of the kernel as a pure step on its four scratch rows.

  The kernel keeps four rows of 4096 numbers between grid points: running row minima of the two
  distance matrices (rows 0 and 1) and running column minima (rows 2 and 3).  At a grid point with
  query block x₀, target block x₁ and second target block x₂ it replaces the 1024-slice of rows 0 and
  1 that belongs to the query block by the entrywise minimum of the slice and the tile's row minima,
  and the 1024-slice of rows 2 and 3 that belongs to the target block by the entrywise minimum of the
  slice and the tile's column minima.  At the first point of each batch entry (sixteen points per
  entry) the rows are first reset to +∞.  `scr` is the state of the four rows after each point, by
  recursion on the point; at the last point of a batch entry the two outputs are the means of rows
  0 and 2, and of rows 1 and 3, added.
-/
import proofs.«126651_j14345190769122_2_alg».proof.Proof.Gen.Kernel.Skeleton
import Idealize.ShloMosaic.Lib.Pipeline.FrameBody

noncomputable section

namespace Cert.Kernel.KStep

open Cert.Kernel Cert.Kernel.Gen Idealize.ShloMosaic

variable {F : FTy → Type} [FloatOps F]

/-- The slice of a scratch row that belongs to the point's query block. -/
abbrev rowRect (i : grid0.Coords) : Rect S1x4096 := Rect.unit (s := S1x4096) (k0_off1 i) S1x1024.size (k0_off1_inb i)
/-- The slice of a scratch row that belongs to the point's target block. -/
abbrev colRect (i : grid0.Coords) : Rect S1x4096 := Rect.unit (s := S1x4096) (k0_off2 i) S1x1024.size (k0_off2_inb i)

/-- Row 0 after the point: its query slice lowered by the first matrix's tile row minima. -/
def upd0 (i : grid0.Coords) (x0 x1 : Vec F S1x1024x3 .f32) (s : Vec F S1x4096 .f32) : Vec F S1x4096 .f32 :=
  (rowRect i).overlay s (k0_pay12 (k0_pay11 x0 x1) (View.ld s (rowRect i)))
/-- Row 1: the same with the second matrix. -/
def upd1 (i : grid0.Coords) (x0 x2 : Vec F S1x1024x3 .f32) (s : Vec F S1x4096 .f32) : Vec F S1x4096 .f32 :=
  (rowRect i).overlay s (k0_pay13 (k0_pay10 x0 x2) (View.ld s (rowRect i)))
/-- Row 2: its target slice lowered by the first matrix's tile column minima. -/
def upd2 (i : grid0.Coords) (x0 x1 : Vec F S1x1024x3 .f32) (s : Vec F S1x4096 .f32) : Vec F S1x4096 .f32 :=
  (colRect i).overlay s (k0_pay14 (k0_pay9 x0 x1) (View.ld s (colRect i)))
/-- Row 3: the same with the second matrix. -/
def upd3 (i : grid0.Coords) (x0 x2 : Vec F S1x1024x3 .f32) (s : Vec F S1x4096 .f32) : Vec F S1x4096 .f32 :=
  (colRect i).overlay s (k0_pay15 (k0_pay10 x0 x2) (View.ld s (colRect i)))

/-- The four rows. -/
abbrev Rows (F : FTy → Type) [FloatOps F] : Type :=
  Vec F S1x4096 .f32 × Vec F S1x4096 .f32 × Vec F S1x4096 .f32 × Vec F S1x4096 .f32

/-- The reset state: every entry +∞. -/
def reset : Rows F := (k0_pay3, k0_pay4, k0_pay5, k0_pay6)

/-- One point's step on the four rows. -/
def step (i : grid0.Coords) (x0 x1 x2 : Vec F S1x1024x3 .f32) (s : Rows F) : Rows F :=
  (upd0 i x0 x1 s.1, upd1 i x0 x2 s.2.1, upd2 i x0 x1 s.2.2.1, upd3 i x0 x2 s.2.2.2)

/-- The four rows after point t, for block families X₀, X₁, X₂ (the blocks the three input windows show at each
    point): reset at the first of every sixteen points, carried otherwise. -/
def scr (X0 X1 X2 : Fin grid0.N → Vec F S1x1024x3 .f32) : (t : ℕ) → t < grid0.N → Rows F
  | 0, h => step (grid0.coords ⟨0, h⟩) (X0 ⟨0, h⟩) (X1 ⟨0, h⟩) (X2 ⟨0, h⟩) reset
  | t + 1, h =>
    if (t + 1) % 16 = 0 then step (grid0.coords ⟨t + 1, h⟩) (X0 ⟨t + 1, h⟩) (X1 ⟨t + 1, h⟩) (X2 ⟨t + 1, h⟩) reset
    else step (grid0.coords ⟨t + 1, h⟩) (X0 ⟨t + 1, h⟩) (X1 ⟨t + 1, h⟩) (X2 ⟨t + 1, h⟩) (scr X0 X1 X2 t (Nat.lt_of_succ_lt h))

/-- The first output block at a batch entry's last point: the means of rows 0 and 2, added, on every lane. -/
def outA (s : Rows F) : Vec F S1x1x128 .f32 := k0_pay1 s.1 s.2.2.1
/-- The second output block: the means of rows 1 and 3, added. -/
def outB (s : Rows F) : Vec F S1x1x128 .f32 := k0_pay2 s.2.1 s.2.2.2

end Cert.Kernel.KStep

end
-- ==== Proof.WRunA.lean ====
/-
  The kernel body at the first tile of a batch entry: it resets the four scratch rows to +∞, reads the three
  input blocks, lowers the query slice of rows 0 and 1 and the target slice of rows 2 and 3, and leaves the two
  output buffers untouched.  The rows may hold anything before; afterwards they hold the step of the reset rows.
-/
import proofs.«126651_j14345190769122_2_alg».proof.Proof.WFrameKit
import proofs.«126651_j14345190769122_2_alg».proof.Proof.WStep
import Idealize.ShloMosaic.Lib.Pipeline.Value

set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- A store through the whole shape replaces everything. -/
theorem overlay_unit_zero {S : Shape} {α : Type} {off : Fin S.rank → Nat} (h : off = fun _ => 0)
    (inb : ∀ a, off a + S.size a ≤ S.size a) (X : S.Idx → α) (G : S.Idx → α) : (Rect.unit off S.size inb).overlay X G = G := by
  subst h; funext y
  have e := Rect.overlay_emb (Rect.whole S) X G y
  rw [Rect.emb_whole_apply] at e
  exact e

theorem zero2 : (![0, 0] : Fin 2 → Nat) = fun _ => 0 := by funext a; fin_cases a <;> rfl
theorem zero3 : (![0, 0, 0] : Fin 3 → Nat) = fun _ => 0 := by funext a; fin_cases a <;> rfl

set_option maxHeartbeats 8000000 in
theorem kernelRun0_A (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x3 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S1x4096 .f32) (harg11 : arg11.IsWhole) (hc0 : cond0_0 i) (hc1 : ¬cond0_1 i)
    (x0 x1 x2 : Vec F S1x1024x3 .f32) (xi3 xi4 : Vec F S1x1x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xi4
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xi4
            ∗ owns (c : Thread nD τ) arg8 fullShare (KStep.step i x0 x1 x2 KStep.reset).1 ∗ owns (c : Thread nD τ) arg9 fullShare (KStep.step i x0 x1 x2 KStep.reset).2.1 ∗ owns (c : Thread nD τ) arg10 fullShare (KStep.step i x0 x1 x2 KStep.reset).2.2.1 ∗ owns (c : Thread nD τ) arg11 fullShare (KStep.step i x0 x1 x2 KStep.reset).2.2.2) -∗ K ⟨⟩))
      ⊢ wp frame (wpE (defs₀ (F := F)) Variants.none c none) E (cc0__chamfer_kernel i arg3 harg3 arg4 harg4 arg5 harg5 arg6 harg6 arg7 harg7 arg8 harg8 arg9 harg9 arg10 harg10 arg11 harg11) K := by
  simp only [cc0__chamfer_kernel_eq_skeleton]; unfold cc0__chamfer_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
  obtain rfl := harg3.eq_unread hf0; obtain rfl := harg4.eq_unread hf1; obtain rfl := harg5.eq_unread hf2
  obtain rfl := harg6.eq_unread hf3; obtain rfl := harg7.eq_unread hf4
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HS0]
  · iexists _; isplitr; swap; · iexact HS0
    ipureintro; sl_unfold_run_names
    unfold KStep.step KStep.upd0 KStep.upd1 KStep.upd2 KStep.upd3 KStep.reset
    simp only [View.readAt_eq_ld, read_writes_cons_overlay, View.writes_nil, hf0, hf1, hf2, View.ld_unit_zero (S := S1x1024x3) zero3, View.ld_unit_zero (S := S1x4096) zero2, overlay_unit_zero (S := S1x4096) zero2, overlay_unit_zero (S := S1x1x128) zero3]
    try (with_reducible rfl)
  isplitl [HS1]
  · iexists _; isplitr; swap; · iexact HS1
    ipureintro; sl_unfold_run_names
    unfold KStep.step KStep.upd0 KStep.upd1 KStep.upd2 KStep.upd3 KStep.reset
    simp only [View.readAt_eq_ld, read_writes_cons_overlay, View.writes_nil, hf0, hf1, hf2, View.ld_unit_zero (S := S1x1024x3) zero3, View.ld_unit_zero (S := S1x4096) zero2, overlay_unit_zero (S := S1x4096) zero2, overlay_unit_zero (S := S1x1x128) zero3]
    try (with_reducible rfl)
  isplitl [HS2]
  · iexists _; isplitr; swap; · iexact HS2
    ipureintro; sl_unfold_run_names
    unfold KStep.step KStep.upd0 KStep.upd1 KStep.upd2 KStep.upd3 KStep.reset
    simp only [View.readAt_eq_ld, read_writes_cons_overlay, View.writes_nil, hf0, hf1, hf2, View.ld_unit_zero (S := S1x1024x3) zero3, View.ld_unit_zero (S := S1x4096) zero2, overlay_unit_zero (S := S1x4096) zero2, overlay_unit_zero (S := S1x1x128) zero3]
    try (with_reducible rfl)
  iexists _; isplitr; swap; · iexact HS3
  ipureintro; sl_unfold_run_names
  unfold KStep.step KStep.upd0 KStep.upd1 KStep.upd2 KStep.upd3 KStep.reset
  simp only [View.readAt_eq_ld, read_writes_cons_overlay, View.writes_nil, hf0, hf1, hf2, View.ld_unit_zero (S := S1x1024x3) zero3, View.ld_unit_zero (S := S1x4096) zero2, overlay_unit_zero (S := S1x4096) zero2, overlay_unit_zero (S := S1x1x128) zero3]
  try (with_reducible rfl)

end Cert.Kernel.KFrame

end
-- ==== Proof.WRunB.lean ====
/-
  The kernel body at a middle tile of a batch entry (neither the first nor the last): it reads the three input
  blocks, lowers the query slice of scratch rows 0 and 1 and the target slice of rows 2 and 3, each from what the
  row held, and leaves the two output buffers untouched: the rows go from s to the step of s.
-/
import proofs.«126651_j14345190769122_2_alg».proof.Proof.WRunA

set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 8000000 in
theorem kernelRun0_B (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x3 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S1x4096 .f32) (harg11 : arg11.IsWhole) (hc0 : ¬cond0_0 i) (hc1 : ¬cond0_1 i)
    (x0 x1 x2 : Vec F S1x1024x3 .f32) (s : KStep.Rows F) (xi3 xi4 : Vec F S1x1x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xi4
        ∗ owns (c : Thread nD τ) arg8 fullShare s.1 ∗ owns (c : Thread nD τ) arg9 fullShare s.2.1 ∗ owns (c : Thread nD τ) arg10 fullShare s.2.2.1 ∗ owns (c : Thread nD τ) arg11 fullShare s.2.2.2
        ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xi4
            ∗ owns (c : Thread nD τ) arg8 fullShare (KStep.step i x0 x1 x2 s).1 ∗ owns (c : Thread nD τ) arg9 fullShare (KStep.step i x0 x1 x2 s).2.1 ∗ owns (c : Thread nD τ) arg10 fullShare (KStep.step i x0 x1 x2 s).2.2.1 ∗ owns (c : Thread nD τ) arg11 fullShare (KStep.step i x0 x1 x2 s).2.2.2) -∗ K ⟨⟩))
      ⊢ wp frame (wpE (defs₀ (F := F)) Variants.none c none) E (cc0__chamfer_kernel i arg3 harg3 arg4 harg4 arg5 harg5 arg6 harg6 arg7 harg7 arg8 harg8 arg9 harg9 arg10 harg10 arg11 harg11) K := by
  simp only [cc0__chamfer_kernel_eq_skeleton]; unfold cc0__chamfer_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
  obtain rfl := harg3.eq_unread hf0; obtain rfl := harg4.eq_unread hf1; obtain rfl := harg5.eq_unread hf2
  obtain rfl := harg6.eq_unread hf3; obtain rfl := harg7.eq_unread hf4
  obtain rfl := harg8.eq_unread hfs0; obtain rfl := harg9.eq_unread hfs1; obtain rfl := harg10.eq_unread hfs2; obtain rfl := harg11.eq_unread hfs3
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HS0]
  · iexists _; isplitr; swap; · iexact HS0
    ipureintro; sl_unfold_run_names
    unfold KStep.step KStep.upd0 KStep.upd1 KStep.upd2 KStep.upd3
    simp only [View.readAt_eq_ld, read_writes_cons_overlay, View.writes_nil, hf0, hf1, hf2, View.ld_unit_zero (S := S1x1024x3) zero3, View.ld_unit_zero (S := S1x4096) zero2, overlay_unit_zero (S := S1x4096) zero2, overlay_unit_zero (S := S1x1x128) zero3, hfs0, hfs1, hfs2, hfs3]
    try (with_reducible rfl)
  isplitl [HS1]
  · iexists _; isplitr; swap; · iexact HS1
    ipureintro; sl_unfold_run_names
    unfold KStep.step KStep.upd0 KStep.upd1 KStep.upd2 KStep.upd3
    simp only [View.readAt_eq_ld, read_writes_cons_overlay, View.writes_nil, hf0, hf1, hf2, View.ld_unit_zero (S := S1x1024x3) zero3, View.ld_unit_zero (S := S1x4096) zero2, overlay_unit_zero (S := S1x4096) zero2, overlay_unit_zero (S := S1x1x128) zero3, hfs0, hfs1, hfs2, hfs3]
    try (with_reducible rfl)
  isplitl [HS2]
  · iexists _; isplitr; swap; · iexact HS2
    ipureintro; sl_unfold_run_names
    unfold KStep.step KStep.upd0 KStep.upd1 KStep.upd2 KStep.upd3
    simp only [View.readAt_eq_ld, read_writes_cons_overlay, View.writes_nil, hf0, hf1, hf2, View.ld_unit_zero (S := S1x1024x3) zero3, View.ld_unit_zero (S := S1x4096) zero2, overlay_unit_zero (S := S1x4096) zero2, overlay_unit_zero (S := S1x1x128) zero3, hfs0, hfs1, hfs2, hfs3]
    try (with_reducible rfl)
  iexists _; isplitr; swap; · iexact HS3
  ipureintro; sl_unfold_run_names
  unfold KStep.step KStep.upd0 KStep.upd1 KStep.upd2 KStep.upd3
  simp only [View.readAt_eq_ld, read_writes_cons_overlay, View.writes_nil, hf0, hf1, hf2, View.ld_unit_zero (S := S1x1024x3) zero3, View.ld_unit_zero (S := S1x4096) zero2, overlay_unit_zero (S := S1x4096) zero2, overlay_unit_zero (S := S1x1x128) zero3, hfs0, hfs1, hfs2, hfs3]
  try (with_reducible rfl)

end Cert.Kernel.KFrame

end
-- ==== Proof.WRunC.lean ====
/-
  The kernel body at the last tile of a batch entry: it reads the three input blocks, lowers the slices of the
  four scratch rows as at a middle tile, then reads the four rows whole and stores into each output buffer the
  sum of the means of its two rows on every lane.  The output buffers may hold anything before.
-/
import proofs.«126651_j14345190769122_2_alg».proof.Proof.WRunB

set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 8000000 in
theorem kernelRun0_C (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x3 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S1x4096 .f32) (harg11 : arg11.IsWhole) (hc0 : ¬cond0_0 i) (hc1 : cond0_1 i)
    (x0 x1 x2 : Vec F S1x1024x3 .f32) (s : KStep.Rows F) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d)
        ∗ owns (c : Thread nD τ) arg8 fullShare s.1 ∗ owns (c : Thread nD τ) arg9 fullShare s.2.1 ∗ owns (c : Thread nD τ) arg10 fullShare s.2.2.1 ∗ owns (c : Thread nD τ) arg11 fullShare s.2.2.2
        ∗ (iprop(owns (c : Thread nD τ) arg3 fullShare x0 ∗ owns (c : Thread nD τ) arg4 fullShare x1 ∗ owns (c : Thread nD τ) arg5 fullShare x2 ∗ owns (c : Thread nD τ) arg6 fullShare (KStep.outA (KStep.step i x0 x1 x2 s)) ∗ owns (c : Thread nD τ) arg7 fullShare (KStep.outB (KStep.step i x0 x1 x2 s))
            ∗ owns (c : Thread nD τ) arg8 fullShare (KStep.step i x0 x1 x2 s).1 ∗ owns (c : Thread nD τ) arg9 fullShare (KStep.step i x0 x1 x2 s).2.1 ∗ owns (c : Thread nD τ) arg10 fullShare (KStep.step i x0 x1 x2 s).2.2.1 ∗ owns (c : Thread nD τ) arg11 fullShare (KStep.step i x0 x1 x2 s).2.2.2) -∗ K ⟨⟩))
      ⊢ wp frame (wpE (defs₀ (F := F)) Variants.none c none) E (cc0__chamfer_kernel i arg3 harg3 arg4 harg4 arg5 harg5 arg6 harg6 arg7 harg7 arg8 harg8 arg9 harg9 arg10 harg10 arg11 harg11) K := by
  simp only [cc0__chamfer_kernel_eq_skeleton]; unfold cc0__chamfer_kernel_skel
  unfold owns
  iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, ⟨%fs2, %hfs2, HS2⟩, ⟨%fs3, %hfs3, HS3⟩, Hk⟩
  obtain rfl := harg3.eq_unread hf0; obtain rfl := harg4.eq_unread hf1; obtain rfl := harg5.eq_unread hf2
  obtain rfl := harg8.eq_unread hfs0; obtain rfl := harg9.eq_unread hfs1; obtain rfl := harg10.eq_unread hfs2; obtain rfl := harg11.eq_unread hfs3
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; swap; · iexact H3
    ipureintro; sl_unfold_run_names
    unfold KStep.outA KStep.step KStep.upd0 KStep.upd1 KStep.upd2 KStep.upd3
    simp only [View.readAt_eq_ld, read_writes_cons_overlay, View.writes_nil, hf0, hf1, hf2, View.ld_unit_zero (S := S1x1024x3) zero3, View.ld_unit_zero (S := S1x4096) zero2, overlay_unit_zero (S := S1x4096) zero2, overlay_unit_zero (S := S1x1x128) zero3, hfs0, hfs1, hfs2, hfs3]
    try (with_reducible rfl)
  isplitl [H4]
  · iexists _; isplitr; swap; · iexact H4
    ipureintro; sl_unfold_run_names
    unfold KStep.outB KStep.step KStep.upd0 KStep.upd1 KStep.upd2 KStep.upd3
    simp only [View.readAt_eq_ld, read_writes_cons_overlay, View.writes_nil, hf0, hf1, hf2, View.ld_unit_zero (S := S1x1024x3) zero3, View.ld_unit_zero (S := S1x4096) zero2, overlay_unit_zero (S := S1x4096) zero2, overlay_unit_zero (S := S1x1x128) zero3, hfs0, hfs1, hfs2, hfs3]
    try (with_reducible rfl)
  isplitl [HS0]
  · iexists _; isplitr; swap; · iexact HS0
    ipureintro; sl_unfold_run_names
    unfold KStep.step KStep.upd0 KStep.upd1 KStep.upd2 KStep.upd3
    simp only [View.readAt_eq_ld, read_writes_cons_overlay, View.writes_nil, hf0, hf1, hf2, View.ld_unit_zero (S := S1x1024x3) zero3, View.ld_unit_zero (S := S1x4096) zero2, overlay_unit_zero (S := S1x4096) zero2, overlay_unit_zero (S := S1x1x128) zero3, hfs0, hfs1, hfs2, hfs3]
    try (with_reducible rfl)
  isplitl [HS1]
  · iexists _; isplitr; swap; · iexact HS1
    ipureintro; sl_unfold_run_names
    unfold KStep.step KStep.upd0 KStep.upd1 KStep.upd2 KStep.upd3
    simp only [View.readAt_eq_ld, read_writes_cons_overlay, View.writes_nil, hf0, hf1, hf2, View.ld_unit_zero (S := S1x1024x3) zero3, View.ld_unit_zero (S := S1x4096) zero2, overlay_unit_zero (S := S1x4096) zero2, overlay_unit_zero (S := S1x1x128) zero3, hfs0, hfs1, hfs2, hfs3]
    try (with_reducible rfl)
  isplitl [HS2]
  · iexists _; isplitr; swap; · iexact HS2
    ipureintro; sl_unfold_run_names
    unfold KStep.step KStep.upd0 KStep.upd1 KStep.upd2 KStep.upd3
    simp only [View.readAt_eq_ld, read_writes_cons_overlay, View.writes_nil, hf0, hf1, hf2, View.ld_unit_zero (S := S1x1024x3) zero3, View.ld_unit_zero (S := S1x4096) zero2, overlay_unit_zero (S := S1x4096) zero2, overlay_unit_zero (S := S1x1x128) zero3, hfs0, hfs1, hfs2, hfs3]
    try (with_reducible rfl)
  iexists _; isplitr; swap; · iexact HS3
  ipureintro; sl_unfold_run_names
  unfold KStep.step KStep.upd0 KStep.upd1 KStep.upd2 KStep.upd3
  simp only [View.readAt_eq_ld, read_writes_cons_overlay, View.writes_nil, hf0, hf1, hf2, View.ld_unit_zero (S := S1x1024x3) zero3, View.ld_unit_zero (S := S1x4096) zero2, overlay_unit_zero (S := S1x4096) zero2, overlay_unit_zero (S := S1x1x128) zero3, hfs0, hfs1, hfs2, hfs3]
  try (with_reducible rfl)

end Cert.Kernel.KFrame

end
-- ==== Proof.WStepFacts.lean ====
/-
  The scratch rows after a point, case by case: at the first point of a batch entry the step starts from the reset
  rows; at every other point from the rows the point before left.
-/
import proofs.«126651_j14345190769122_2_alg».proof.Proof.WStep

noncomputable section

namespace Cert.Kernel.KStep

open Cert.Kernel Cert.Kernel.Gen Idealize.ShloMosaic

variable {F : FTy → Type} [FloatOps F]

theorem scr_first (X0 X1 X2 : Fin grid0.N → Vec F S1x1024x3 .f32) (t : Fin grid0.N) (h : t.val % 16 = 0) :
    scr X0 X1 X2 t.val t.isLt = step (grid0.coords t) (X0 t) (X1 t) (X2 t) reset := by
  obtain ⟨n, hn⟩ := t
  cases n with
  | zero => rfl
  | succ n => exact if_pos h

theorem scr_next (X0 X1 X2 : Fin grid0.N → Vec F S1x1024x3 .f32) (t : Fin grid0.N) (h : ¬t.val % 16 = 0) :
    scr X0 X1 X2 t.val t.isLt
      = step (grid0.coords t) (X0 t) (X1 t) (X2 t) (scr X0 X1 X2 (t.val - 1) (Nat.lt_of_le_of_lt (Nat.sub_le _ _) t.isLt)) := by
  obtain ⟨n, hn⟩ := t
  cases n with
  | zero => exact absurd (Nat.zero_mod _) h
  | succ n => exact if_neg h

end Cert.Kernel.KStep

end
-- ==== Proof.WFrameData.lean ====
/-
  The proof data of the kernel program's one pallas_call: what the four scratch rows and the two output buffers
  hold after every grid point, and the invariant carried between points.

  After point t the four scratch rows hold `KStep.scr` at t over the three input windows' blocks; the two output
  buffers hold, at the last point of a batch entry, the two sums of means of those rows.  Between points the call
  keeps the four rows at exactly these contents (before the first point: anything).
-/
import proofs.«126651_j14345190769122_2_alg».proof.Proof.WFrameKit
import proofs.«126651_j14345190769122_2_alg».proof.Proof.WStepFacts

set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four scratch rows after point t, over the blocks the three input windows show. -/
def scrM (c : Dev nD) (t : ℕ) (h : t < cfg0.N) : KStep.Rows F :=
  KStep.scr (fun t => iblk m c 0 t) (fun t => iblk m c 1 t) (fun t => iblk m c 2 t) t h

theorem scrM_first (c : Dev nD) (t : Fin cfg0.N) (h : t.val % 16 = 0) :
    scrM m c t.val t.isLt = KStep.step (grid0.coords t) (iblk m c 0 t) (iblk m c 1 t) (iblk m c 2 t) KStep.reset :=
  KStep.scr_first _ _ _ t h
theorem scrM_next (c : Dev nD) (t : Fin cfg0.N) (h : ¬t.val % 16 = 0) :
    scrM m c t.val t.isLt = KStep.step (grid0.coords t) (iblk m c 0 t) (iblk m c 1 t) (iblk m c 2 t)
      (scrM m c (t.val - 1) (Nat.lt_of_le_of_lt (Nat.sub_le _ _) t.isLt)) :=
  KStep.scr_next _ _ _ t h

/-- The invariant before point n: anything before the first point; afterwards the four rows at what the point before left. -/
def PhiS (c : Dev nD) : (n : ℕ) → n ≤ cfg0.N → sProp 𝕄
  | 0, _ => Pipeline.ΦA spec0 c
  | n + 1, hn => iprop(iprop(owns (c : Thread nD τ) scM0_0 fullShare (scrM m c n hn).1 ∗ owns (c : Thread nD τ) scM0_1 fullShare (scrM m c n hn).2.1 ∗ owns (c : Thread nD τ) scM0_2 fullShare (scrM m c n hn).2.2.1 ∗ owns (c : Thread nD τ) scM0_3 fullShare (scrM m c n hn).2.2.2) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (scrM m c n hn).1 ∗ owns (c : Thread nD τ) scM0_1 fullShare (scrM m c n hn).2.1 ∗ owns (c : Thread nD τ) scM0_2 fullShare (scrM m c n hn).2.2.1 ∗ owns (c : Thread nD τ) scM0_3 fullShare (scrM m c n hn).2.2.2) ∗ (∃ r, prngReg c r)) := rfl
theorem PhiS_pos (c : Dev nD) (n : ℕ) (h : n ≤ cfg0.N) (hz : n ≠ 0) :
    PhiS m c n h = iprop(iprop(owns (c : Thread nD τ) scM0_0 fullShare (scrM m c (n - 1) (by omega)).1 ∗ owns (c : Thread nD τ) scM0_1 fullShare (scrM m c (n - 1) (by omega)).2.1 ∗ owns (c : Thread nD τ) scM0_2 fullShare (scrM m c (n - 1) (by omega)).2.2.1 ∗ owns (c : Thread nD τ) scM0_3 fullShare (scrM m c (n - 1) (by omega)).2.2.2) ∗ (∃ r, prngReg c r)) := by
  cases n with
  | zero => exact absurd rfl hz
  | succ n => rfl

/-- The proof data of the call on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => KStep.outA (scrM m c t.val t.isLt)
    | ⟨4, _⟩ => KStep.outB (scrM m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = KStep.outA (scrM m c t.val t.isLt) := by dsimp only [dats]
theorem after0_4 (c : Dev nD) (t : Fin cfg0.N) : (dats m 0 c).after 4 t = KStep.outB (scrM m c t.val t.isLt) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

end Cert.Kernel.KFrame

end
-- ==== Proof.WFrameOf.lean ====
/-
  The frame of the kernel program from the run of its one pallas_call.

  The run ends with every staged array at what the call's write-backs leave and every other buffer at what the
  forty-seven host operations after the call compute from the buffers as the call found them.  None of those
  operations writes an argument array, the call stages only the fourth argument and only reads it, and the seven
  host operations before the call write no argument either: so the four arguments end as they were launched.
-/
import proofs.«126651_j14345190769122_2_alg».proof.Proof.WFrameData

set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- No host operation after the call writes an argument. -/
theorem tail_keeps_arg0 (W : Valuation τ sig (Elt F)) :
    StableHlo.after (List.flatten [hostOps1]) W (Proc.devRef .tc main_arg0) = W (Proc.devRef .tc main_arg0) :=
  StableHlo.after_of_forall_not_mem (b := Proc.devRef .tc main_arg0) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem tail_keeps_arg1 (W : Valuation τ sig (Elt F)) :
    StableHlo.after (List.flatten [hostOps1]) W (Proc.devRef .tc main_arg1) = W (Proc.devRef .tc main_arg1) :=
  StableHlo.after_of_forall_not_mem (b := Proc.devRef .tc main_arg1) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem tail_keeps_arg2 (W : Valuation τ sig (Elt F)) :
    StableHlo.after (List.flatten [hostOps1]) W (Proc.devRef .tc main_arg2) = W (Proc.devRef .tc main_arg2) :=
  StableHlo.after_of_forall_not_mem (b := Proc.devRef .tc main_arg2) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The three arguments the call does not stage are no window's array and are unscoped. -/
theorem arg0_rest : main_arg0 ∈ Pipeline.restRefs sig (cfgs 0).spec := Pipeline.mem_restRefs_of main_arg0 rfl (by decide)
theorem arg1_rest : main_arg1 ∈ Pipeline.restRefs sig (cfgs 0).spec := Pipeline.mem_restRefs_of main_arg1 rfl (by decide)
theorem arg2_rest : main_arg2 ∈ Pipeline.restRefs sig (cfgs 0).spec := Pipeline.mem_restRefs_of main_arg2 rfl (by decide)

/-- What the run leaves in each of them is what was launched. -/
theorem rest_arg0 (c : Dev nD) :
    Pipeline.afterTail₀ cfgs (dats m) 0 (V0 m) [hostOps1] c main_arg0 = m ((c.tc : Thread nD τ).loc main_arg0) := by
  unfold Pipeline.afterTail₀
  rw [tail_keeps_arg0, Pipeline.withArrays_of_ne _ c _ _ main_arg0 (by decide)]
  exact V_main_arg0 m c
theorem rest_arg1 (c : Dev nD) :
    Pipeline.afterTail₀ cfgs (dats m) 0 (V0 m) [hostOps1] c main_arg1 = m ((c.tc : Thread nD τ).loc main_arg1) := by
  unfold Pipeline.afterTail₀
  rw [tail_keeps_arg1, Pipeline.withArrays_of_ne _ c _ _ main_arg1 (by decide)]
  exact V_main_arg1 m c
theorem rest_arg2 (c : Dev nD) :
    Pipeline.afterTail₀ cfgs (dats m) 0 (V0 m) [hostOps1] c main_arg2 = m ((c.tc : Thread nD τ).loc main_arg2) := by
  unfold Pipeline.afterTail₀
  rw [tail_keeps_arg2, Pipeline.withArrays_of_ne _ c _ _ main_arg2 (by decide)]
  exact V_main_arg2 m c

/-- The frame from the run: the four arguments end unchanged. -/
theorem frame_of
    (hrun : θ_run defs (onTc (τ := τ) (main (F := F))) (s₀ m ρ) (Pipeline.FramePost cfgs (dats m) 0 (Pipeline.afterTail₀ cfgs (dats m) 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 arg0_rest).trans (rest_arg0 m c),
     ((h c).2 main_arg1 arg1_rest).trans (rest_arg1 m c),
     ((h c).2 main_arg2 arg2_rest).trans (rest_arg2 m c),
     ((h c).1 1).trans (((dats m 0 c).arrAt_in 1 rfl _).trans ((A_eq m c 1).trans (V_main_arg3 m c)))⟩) hrun

end Cert.Kernel.KFrame

end
-- ==== Proof.WFrame.lean ====
/-
  The frame run of the kernel program: the body's obligation at a generic grid point, and the run of @main.

  At a point the body is in one of three cases — first tile of a batch entry, last tile, or neither — and in each
  its run takes the four scratch rows from what the point before left (from anything, at the very first point) to
  the step of those rows (of the reset rows in the first case), which is the state the proof data names; at a last
  tile it also leaves the two output blocks the proof data names.  The invariant before the first point is what
  the launch hands over, and after the last point it gives that back.
-/
import proofs.«126651_j14345190769122_2_alg».proof.Proof.WRunC
import proofs.«126651_j14345190769122_2_alg».proof.Proof.WFrameOf

set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 16000000 in
/-- The body at any point: the input buffers hold their blocks; the point is in one of the three cases; the rows come
    in at what the point before left (anything at the first point) and go out at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h1 : t.val % 16 = 15
  · have h0 : ¬t.val % 16 = 0 := by omega
    have hz : t.val ≠ 0 := by omega
    rw [show (dats m 0 c).leavesExact 3 t = owns (c : Thread nD τ) (ms0_3 t) fullShare ((dats m 0 c).after 3 t) from by
      unfold Dat.leavesExact; rw [liveAt0_3 t ((hcond0_1 t).mpr h1), after0_3]]
    rw [show (dats m 0 c).leavesExact 4 t = owns (c : Thread nD τ) (ms0_4 t) fullShare ((dats m 0 c).after 4 t) from by
      unfold Dat.leavesExact; rw [liveAt0_4 t ((hcond0_1 t).mpr h1), after0_4]]
    rw [after0_3, after0_4, scrM_next m c t h0, PhiS_castSucc m c t, PhiS_pos m c _ _ hz]
    iintro ⟨⟨⟨HS0, HS1, HS2, HS3⟩, Hg⟩, Ho, ⟨%d0, H0⟩, ⟨%d1, H1⟩, ⟨%d2, H2⟩, ⟨%d3, H3⟩, ⟨%d4, H4⟩⟩
    iapply (kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (scrM m c (t.val - 1) (Nat.lt_of_le_of_lt (Nat.sub_le _ _) t.isLt)) Set.univ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    isplitl [HS2]; · iexact HS2
    isplitl [HS3]; · iexact HS3
    iintro ⟨H0, H1, H2, H3, H4, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    iexact H4
  · by_cases h0 : t.val % 16 = 0
    · rw [Dat.leavesExact_idle (dats m 0 c) 3 t (idleAt0_3 t (fun h => h1 ((hcond0_1 t).mp h))) (noFlush0_3 t (fun h => h1 ((hcond0_1 t).mp h)))]
      rw [Dat.leavesExact_idle (dats m 0 c) 4 t (idleAt0_4 t (fun h => h1 ((hcond0_1 t).mp h))) (noFlush0_4 t (fun h => h1 ((hcond0_1 t).mp h)))]
      rw [scrM_first m c t h0]
      by_cases hz : t.val = 0
      · rw [PhiS_castSucc m c t, PhiS_zero m c _ _ hz, PhiA0_eq]
        iintro ⟨⟨⟨HS0, HS1, HS2, HS3⟩, Hg⟩, Ho, ⟨%d0, H0⟩, ⟨%d1, H1⟩, ⟨%d2, H2⟩, ⟨%d3, H3⟩, ⟨%d4, H4⟩⟩
        iapply (kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HS3]; · iexact HS3
        iintro ⟨H0, H1, H2, H3, H4, HS0, HS1, HS2, HS3⟩
        isplitl [HS0 HS1 HS2 HS3 Hg]
        · isplitl [HS0 HS1 HS2 HS3]
          · isplitl [HS0]; · iexact HS0
            isplitl [HS1]; · iexact HS1
            isplitl [HS2]; · iexact HS2
            iexact HS3
          iexact Hg
        isplitl [Ho]; · iexact Ho
        isplitl [H0]; · iexact H0
        isplitl [H1]; · iexact H1
        isplitl [H2]; · iexact H2
        isplitl [H3]; · iexists _; iexact H3
        iexists _; iexact H4
      · rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩⟩
        iapply (kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) _ _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        isplitl [HS3]; · iexists _; iexact HS3
        iintro ⟨H0, H1, H2, H3, H4, HS0, HS1, HS2, HS3⟩
        isplitl [HS0 HS1 HS2 HS3 Hg]
        · isplitl [HS0 HS1 HS2 HS3]
          · isplitl [HS0]; · iexact HS0
            isplitl [HS1]; · iexact HS1
            isplitl [HS2]; · iexact HS2
            iexact HS3
          iexact Hg
        isplitl [Ho]; · iexact Ho
        isplitl [H0]; · iexact H0
        isplitl [H1]; · iexact H1
        isplitl [H2]; · iexact H2
        isplitl [H3]; · iexists _; iexact H3
        iexists _; iexact H4
    · have hz : t.val ≠ 0 := fun hz => h0 (by rw [hz])
      rw [Dat.leavesExact_idle (dats m 0 c) 3 t (idleAt0_3 t (fun h => h1 ((hcond0_1 t).mp h))) (noFlush0_3 t (fun h => h1 ((hcond0_1 t).mp h)))]
      rw [Dat.leavesExact_idle (dats m 0 c) 4 t (idleAt0_4 t (fun h => h1 ((hcond0_1 t).mp h))) (noFlush0_4 t (fun h => h1 ((hcond0_1 t).mp h)))]
      rw [scrM_next m c t h0, PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply (kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (scrM m c (t.val - 1) (Nat.lt_of_le_of_lt (Nat.sub_le _ _) t.isLt)) _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexists _; iexact H3
      iexists _; iexact H4

/-- The body obligation at every point. -/
theorem body_obligation (c : Dev nD) : BodyObligation (dats (F := F) m 0 c) (defs₀ (F := F)) Variants.none () Set.univ := fun t => by
  rw [bigSep_W0, bigSep_W0]
  exact sound_body m c t

/-- What the launch hands the call is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives back what the launch handed over: the rows' contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of @main terminates, nothing faulting, with every array the call stages at what the
    proof data computes and every other unscoped buffer as the operations after the call leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The kernel program runs to the end, nothing faulting, and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (run_main m ρ)

end Cert.Kernel.KFrame

end
-- ==== Proof.KFrameKit.lean ====
/-
  The kernel program's @main around its one pallas_call, and the vocabulary the per-point runs are stated in.

  @main is seven host operations (the two point clouds moved by the two transforms), the pallas_call, and
  forty-seven host operations on its two results.  The host operations before the call write only their own result
  buffers, so the call finds the four argument arrays as launched; the operations after it write neither an argument
  nor an array the call stages.  A window's block at a grid point is its array read through the block's rectangle.
  The kernel body branches on two conditions of the grid position: "first tile of a batch entry" (both tile
  coordinates zero: every sixteenth point) and "last tile of a batch entry" (both three: the point before).
-/
import proofs.«126651_j14345190769122_2_alg».proof.Proof.Gen.KernelIdeal.Launch
import proofs.«126651_j14345190769122_2_alg».proof.Proof.Gen.KernelIdeal.Skeleton
import proofs.«126651_j14345190769122_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the call -/

/-- The buffers' contents when the call is entered: after the seven host operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the call, the call, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the call touch unscoped buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 1600000 in
/-- Each writes only its own result buffer, which is no array the call stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the call writes an argument: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window w's block at point t, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "First tile of a batch entry." -/
abbrev cond0_0 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
/-- "Last tile of a batch entry." -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S1x1024x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x3 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x128 .f32 := win0_4.stage (cfg0.slots t 4)
abbrev hs0_4 (t : Fin cfg0.N) : (ms0_4 t).IsWhole := hstage0_4 ((cfg0.slots t 4).cast nbuf0_4)
/-- The four scratch rows. -/
abbrev scM0_0 : Memref sig .tc .vmem S1x4096 .f32 := Memref.whole cc0_scratch0
abbrev scM0_1 : Memref sig .tc .vmem S1x4096 .f32 := Memref.whole cc0_scratch1
abbrev scM0_2 : Memref sig .tc .vmem S1x4096 .f32 := Memref.whole cc0_scratch2
abbrev scM0_3 : Memref sig .tc .vmem S1x4096 .f32 := Memref.whole cc0_scratch3

/-- What the launch hands the call beside the windows: the four scratch rows at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- What a store through a rectangle leaves, read back: the earlier contents with the rectangle's part replaced. -/
theorem read_writes_cons_overlay {sig' : RefSig} {κ : Kind} {sp : Space} {s : Shape} {e : EltTy} {Val : EltTy → Type}
    (v : View sig' κ sp s e) (f : v.ty.Contents Val) (r : Rect s) (w : r.shape.Idx → Val e) (L : List (View.Piece Val s e)) :
    v.read Val (v.writes Val f (⟨r, w⟩ :: L)) = r.overlay (v.read Val (v.writes Val f L)) w := by
  funext j
  by_cases hj : j ∈ r.set
  · obtain ⟨x, rfl⟩ : ∃ x, r.emb x = j := r.exists_idx_of_mem hj
    rw [View.read_writes_cons_emb, Rect.overlay_emb]
  · rw [Rect.overlay_of_not_mem _ _ _ hj, View.writes_cons, View.read_slice_write_of_not_mem r _ _ _ (by rw [Rect.map_emb_univ]; exact hj)]

end Cert.KernelIdeal.KFrame

end
-- ==== Proof.KStep.lean ====
/-
  One grid point of the kernel as a pure step on its four scratch rows.

  The kernel keeps four rows of 4096 numbers between grid points: running row minima of the two
  distance matrices (rows 0 and 1) and running column minima (rows 2 and 3).  At a grid point with
  query block x₀, target block x₁ and second target block x₂ it replaces the 1024-slice of rows 0 and
  1 that belongs to the query block by the entrywise minimum of the slice and the tile's row minima,
  and the 1024-slice of rows 2 and 3 that belongs to the target block by the entrywise minimum of the
  slice and the tile's column minima.  At the first point of each batch entry (sixteen points per
  entry) the rows are first reset to +∞.  `scr` is the state of the four rows after each point, by
  recursion on the point; at the last point of a batch entry the two outputs are the means of rows
  0 and 2, and of rows 1 and 3, added.
-/
import proofs.«126651_j14345190769122_2_alg».proof.Proof.Gen.KernelIdeal.Skeleton
import Idealize.ShloMosaic.Lib.Pipeline.FrameBody

noncomputable section

namespace Cert.KernelIdeal.KStep

open Cert.KernelIdeal Cert.KernelIdeal.Gen Idealize.ShloMosaic

variable {F : FTy → Type} [FloatOps F]

/-- The slice of a scratch row that belongs to the point's query block. -/
abbrev rowRect (i : grid0.Coords) : Rect S1x4096 := Rect.unit (s := S1x4096) (k0_off1 i) S1x1024.size (k0_off1_inb i)
/-- The slice of a scratch row that belongs to the point's target block. -/
abbrev colRect (i : grid0.Coords) : Rect S1x4096 := Rect.unit (s := S1x4096) (k0_off2 i) S1x1024.size (k0_off2_inb i)

/-- Row 0 after the point: its query slice lowered by the first matrix's tile row minima. -/
def upd0 (i : grid0.Coords) (x0 x1 : Vec F S1x1024x3 .f32) (s : Vec F S1x4096 .f32) : Vec F S1x4096 .f32 :=
  (rowRect i).overlay s (k0_pay12 (k0_pay11 x0 x1) (View.ld s (rowRect i)))
/-- Row 1: the same with the second matrix. -/
def upd1 (i : grid0.Coords) (x0 x2 : Vec F S1x1024x3 .f32) (s : Vec F S1x4096 .f32) : Vec F S1x4096 .f32 :=
  (rowRect i).overlay s (k0_pay13 (k0_pay10 x0 x2) (View.ld s (rowRect i)))
/-- Row 2: its target slice lowered by the first matrix's tile column minima. -/
def upd2 (i : grid0.Coords) (x0 x1 : Vec F S1x1024x3 .f32) (s : Vec F S1x4096 .f32) : Vec F S1x4096 .f32 :=
  (colRect i).overlay s (k0_pay14 (k0_pay9 x0 x1) (View.ld s (colRect i)))
/-- Row 3: the same with the second matrix. -/
def upd3 (i : grid0.Coords) (x0 x2 : Vec F S1x1024x3 .f32) (s : Vec F S1x4096 .f32) : Vec F S1x4096 .f32 :=
  (colRect i).overlay s (k0_pay15 (k0_pay10 x0 x2) (View.ld s (colRect i)))

/-- The four rows. -/
abbrev Rows (F : FTy → Type) [FloatOps F] : Type :=
  Vec F S1x4096 .f32 × Vec F S1x4096 .f32 × Vec F S1x4096 .f32 × Vec F S1x4096 .f32

/-- The reset state: every entry +∞. -/
def reset : Rows F := (k0_pay3, k0_pay4, k0_pay5, k0_pay6)

/-- One point's step on the four rows. -/
def step (i : grid0.Coords) (x0 x1 x2 : Vec F S1x1024x3 .f32) (s : Rows F) : Rows F :=
  (upd0 i x0 x1 s.1, upd1 i x0 x2 s.2.1, upd2 i x0 x1 s.2.2.1, upd3 i x0 x2 s.2.2.2)

/-- The four rows after point t, for block families X₀, X₁, X₂ (the blocks the three input windows show at each
    point): reset at the first of every sixteen points, carried otherwise. -/
def scr (X0 X1 X2 : Fin grid0.N → Vec F S1x1024x3 .f32) : (t : ℕ) → t < grid0.N → Rows F
  | 0, h => step (grid0.coords ⟨0, h⟩) (X0 ⟨0, h⟩) (X1 ⟨0, h⟩) (X2 ⟨0, h⟩) reset
  | t + 1, h =>
    if (t + 1) % 16 = 0 then step (grid0.coords ⟨t + 1, h⟩) (X0 ⟨t + 1, h⟩) (X1 ⟨t + 1, h⟩) (X2 ⟨t + 1, h⟩) reset
    else step (grid0.coords ⟨t + 1, h⟩) (X0 ⟨t + 1, h⟩) (X1 ⟨t + 1, h⟩) (X2 ⟨t + 1, h⟩) (scr X0 X1 X2 t (Nat.lt_of_succ_lt h))

/-- The first output block at a batch entry's last point: the means of rows 0 and 2, added, on every lane. -/
def outA (s : Rows F) : Vec F S1x1x128 .f32 := k0_pay1 s.1 s.2.2.1
/-- The second output block: the means of rows 1 and 3, added. -/
def outB (s : Rows F) : Vec F S1x1x128 .f32 := k0_pay2 s.2.1 s.2.2.2

end Cert.KernelIdeal.KStep

end
-- ==== Proof.KRunA.lean ====
/-
  The kernel body at the first tile of a batch entry: it resets the four scratch rows to +∞, reads the three
  input blocks, lowers the query slice of rows 0 and 1 and the target slice of rows 2 and 3, and leaves the two
  output buffers untouched.  The rows may hold anything before; afterwards they hold the step of the reset rows.
-/
import proofs.«126651_j14345190769122_2_alg».proof.Proof.KFrameKit
import proofs.«126651_j14345190769122_2_alg».proof.Proof.KStep
import Idealize.ShloMosaic.Lib.Pipeline.Value

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- A store through the whole shape replaces everything. -/
theorem overlay_unit_zero {S : Shape} {α : Type} {off : Fin S.rank → Nat} (h : off = fun _ => 0)
    (inb : ∀ a, off a + S.size a ≤ S.size a) (X : S.Idx → α) (G : S.Idx → α) : (Rect.unit off S.size inb).overlay X G = G := by
  subst h; funext y
  have e := Rect.overlay_emb (Rect.whole S) X G y
  rw [Rect.emb_whole_apply] at e
  exact e

theorem zero2 : (![0, 0] : Fin 2 → Nat) = fun _ => 0 := by funext a; fin_cases a <;> rfl
theorem zero3 : (![0, 0, 0] : Fin 3 → Nat) = fun _ => 0 := by funext a; fin_cases a <;> rfl

set_option maxHeartbeats 8000000 in
theorem kernelRun0_A (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x3 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S1x4096 .f32) (harg11 : arg11.IsWhole) (hc0 : cond0_0 i) (hc1 : ¬cond0_1 i)
    (x0 x1 x2 : Vec F S1x1024x3 .f32) (xi3 xi4 : Vec F S1x1x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xi4
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xi4
            ∗ owns (c : Thread nD τ) arg8 fullShare (KStep.step i x0 x1 x2 KStep.reset).1 ∗ owns (c : Thread nD τ) arg9 fullShare (KStep.step i x0 x1 x2 KStep.reset).2.1 ∗ owns (c : Thread nD τ) arg10 fullShare (KStep.step i x0 x1 x2 KStep.reset).2.2.1 ∗ owns (c : Thread nD τ) arg11 fullShare (KStep.step i x0 x1 x2 KStep.reset).2.2.2) -∗ K ⟨⟩))
      ⊢ wp frame (wpE (defs₀ (F := F)) Variants.none c none) E (cc0__chamfer_kernel i arg3 harg3 arg4 harg4 arg5 harg5 arg6 harg6 arg7 harg7 arg8 harg8 arg9 harg9 arg10 harg10 arg11 harg11) K := by
  simp only [cc0__chamfer_kernel_eq_skeleton]; unfold cc0__chamfer_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
  obtain rfl := harg3.eq_unread hf0; obtain rfl := harg4.eq_unread hf1; obtain rfl := harg5.eq_unread hf2
  obtain rfl := harg6.eq_unread hf3; obtain rfl := harg7.eq_unread hf4
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HS0]
  · iexists _; isplitr; swap; · iexact HS0
    ipureintro; sl_unfold_run_names
    unfold KStep.step KStep.upd0 KStep.upd1 KStep.upd2 KStep.upd3 KStep.reset
    simp only [View.readAt_eq_ld, read_writes_cons_overlay, View.writes_nil, hf0, hf1, hf2, View.ld_unit_zero (S := S1x1024x3) zero3, View.ld_unit_zero (S := S1x4096) zero2, overlay_unit_zero (S := S1x4096) zero2, overlay_unit_zero (S := S1x1x128) zero3]
    try (with_reducible rfl)
  isplitl [HS1]
  · iexists _; isplitr; swap; · iexact HS1
    ipureintro; sl_unfold_run_names
    unfold KStep.step KStep.upd0 KStep.upd1 KStep.upd2 KStep.upd3 KStep.reset
    simp only [View.readAt_eq_ld, read_writes_cons_overlay, View.writes_nil, hf0, hf1, hf2, View.ld_unit_zero (S := S1x1024x3) zero3, View.ld_unit_zero (S := S1x4096) zero2, overlay_unit_zero (S := S1x4096) zero2, overlay_unit_zero (S := S1x1x128) zero3]
    try (with_reducible rfl)
  isplitl [HS2]
  · iexists _; isplitr; swap; · iexact HS2
    ipureintro; sl_unfold_run_names
    unfold KStep.step KStep.upd0 KStep.upd1 KStep.upd2 KStep.upd3 KStep.reset
    simp only [View.readAt_eq_ld, read_writes_cons_overlay, View.writes_nil, hf0, hf1, hf2, View.ld_unit_zero (S := S1x1024x3) zero3, View.ld_unit_zero (S := S1x4096) zero2, overlay_unit_zero (S := S1x4096) zero2, overlay_unit_zero (S := S1x1x128) zero3]
    try (with_reducible rfl)
  iexists _; isplitr; swap; · iexact HS3
  ipureintro; sl_unfold_run_names
  unfold KStep.step KStep.upd0 KStep.upd1 KStep.upd2 KStep.upd3 KStep.reset
  simp only [View.readAt_eq_ld, read_writes_cons_overlay, View.writes_nil, hf0, hf1, hf2, View.ld_unit_zero (S := S1x1024x3) zero3, View.ld_unit_zero (S := S1x4096) zero2, overlay_unit_zero (S := S1x4096) zero2, overlay_unit_zero (S := S1x1x128) zero3]
  try (with_reducible rfl)

end Cert.KernelIdeal.KFrame

end
-- ==== Proof.KRunB.lean ====
/-
  The kernel body at a middle tile of a batch entry (neither the first nor the last): it reads the three input
  blocks, lowers the query slice of scratch rows 0 and 1 and the target slice of rows 2 and 3, each from what the
  row held, and leaves the two output buffers untouched: the rows go from s to the step of s.
-/
import proofs.«126651_j14345190769122_2_alg».proof.Proof.KRunA

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 8000000 in
theorem kernelRun0_B (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x3 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S1x4096 .f32) (harg11 : arg11.IsWhole) (hc0 : ¬cond0_0 i) (hc1 : ¬cond0_1 i)
    (x0 x1 x2 : Vec F S1x1024x3 .f32) (s : KStep.Rows F) (xi3 xi4 : Vec F S1x1x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xi4
        ∗ owns (c : Thread nD τ) arg8 fullShare s.1 ∗ owns (c : Thread nD τ) arg9 fullShare s.2.1 ∗ owns (c : Thread nD τ) arg10 fullShare s.2.2.1 ∗ owns (c : Thread nD τ) arg11 fullShare s.2.2.2
        ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xi4
            ∗ owns (c : Thread nD τ) arg8 fullShare (KStep.step i x0 x1 x2 s).1 ∗ owns (c : Thread nD τ) arg9 fullShare (KStep.step i x0 x1 x2 s).2.1 ∗ owns (c : Thread nD τ) arg10 fullShare (KStep.step i x0 x1 x2 s).2.2.1 ∗ owns (c : Thread nD τ) arg11 fullShare (KStep.step i x0 x1 x2 s).2.2.2) -∗ K ⟨⟩))
      ⊢ wp frame (wpE (defs₀ (F := F)) Variants.none c none) E (cc0__chamfer_kernel i arg3 harg3 arg4 harg4 arg5 harg5 arg6 harg6 arg7 harg7 arg8 harg8 arg9 harg9 arg10 harg10 arg11 harg11) K := by
  simp only [cc0__chamfer_kernel_eq_skeleton]; unfold cc0__chamfer_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
  obtain rfl := harg3.eq_unread hf0; obtain rfl := harg4.eq_unread hf1; obtain rfl := harg5.eq_unread hf2
  obtain rfl := harg6.eq_unread hf3; obtain rfl := harg7.eq_unread hf4
  obtain rfl := harg8.eq_unread hfs0; obtain rfl := harg9.eq_unread hfs1; obtain rfl := harg10.eq_unread hfs2; obtain rfl := harg11.eq_unread hfs3
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HS0]
  · iexists _; isplitr; swap; · iexact HS0
    ipureintro; sl_unfold_run_names
    unfold KStep.step KStep.upd0 KStep.upd1 KStep.upd2 KStep.upd3
    simp only [View.readAt_eq_ld, read_writes_cons_overlay, View.writes_nil, hf0, hf1, hf2, View.ld_unit_zero (S := S1x1024x3) zero3, View.ld_unit_zero (S := S1x4096) zero2, overlay_unit_zero (S := S1x4096) zero2, overlay_unit_zero (S := S1x1x128) zero3, hfs0, hfs1, hfs2, hfs3]
    try (with_reducible rfl)
  isplitl [HS1]
  · iexists _; isplitr; swap; · iexact HS1
    ipureintro; sl_unfold_run_names
    unfold KStep.step KStep.upd0 KStep.upd1 KStep.upd2 KStep.upd3
    simp only [View.readAt_eq_ld, read_writes_cons_overlay, View.writes_nil, hf0, hf1, hf2, View.ld_unit_zero (S := S1x1024x3) zero3, View.ld_unit_zero (S := S1x4096) zero2, overlay_unit_zero (S := S1x4096) zero2, overlay_unit_zero (S := S1x1x128) zero3, hfs0, hfs1, hfs2, hfs3]
    try (with_reducible rfl)
  isplitl [HS2]
  · iexists _; isplitr; swap; · iexact HS2
    ipureintro; sl_unfold_run_names
    unfold KStep.step KStep.upd0 KStep.upd1 KStep.upd2 KStep.upd3
    simp only [View.readAt_eq_ld, read_writes_cons_overlay, View.writes_nil, hf0, hf1, hf2, View.ld_unit_zero (S := S1x1024x3) zero3, View.ld_unit_zero (S := S1x4096) zero2, overlay_unit_zero (S := S1x4096) zero2, overlay_unit_zero (S := S1x1x128) zero3, hfs0, hfs1, hfs2, hfs3]
    try (with_reducible rfl)
  iexists _; isplitr; swap; · iexact HS3
  ipureintro; sl_unfold_run_names
  unfold KStep.step KStep.upd0 KStep.upd1 KStep.upd2 KStep.upd3
  simp only [View.readAt_eq_ld, read_writes_cons_overlay, View.writes_nil, hf0, hf1, hf2, View.ld_unit_zero (S := S1x1024x3) zero3, View.ld_unit_zero (S := S1x4096) zero2, overlay_unit_zero (S := S1x4096) zero2, overlay_unit_zero (S := S1x1x128) zero3, hfs0, hfs1, hfs2, hfs3]
  try (with_reducible rfl)

end Cert.KernelIdeal.KFrame

end
-- ==== Proof.KRunC.lean ====
/-
  The kernel body at the last tile of a batch entry: it reads the three input blocks, lowers the slices of the
  four scratch rows as at a middle tile, then reads the four rows whole and stores into each output buffer the
  sum of the means of its two rows on every lane.  The output buffers may hold anything before.
-/
import proofs.«126651_j14345190769122_2_alg».proof.Proof.KRunB

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 8000000 in
theorem kernelRun0_C (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1024x3 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S1x4096 .f32) (harg11 : arg11.IsWhole) (hc0 : ¬cond0_0 i) (hc1 : cond0_1 i)
    (x0 x1 x2 : Vec F S1x1024x3 .f32) (s : KStep.Rows F) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d)
        ∗ owns (c : Thread nD τ) arg8 fullShare s.1 ∗ owns (c : Thread nD τ) arg9 fullShare s.2.1 ∗ owns (c : Thread nD τ) arg10 fullShare s.2.2.1 ∗ owns (c : Thread nD τ) arg11 fullShare s.2.2.2
        ∗ (iprop(owns (c : Thread nD τ) arg3 fullShare x0 ∗ owns (c : Thread nD τ) arg4 fullShare x1 ∗ owns (c : Thread nD τ) arg5 fullShare x2 ∗ owns (c : Thread nD τ) arg6 fullShare (KStep.outA (KStep.step i x0 x1 x2 s)) ∗ owns (c : Thread nD τ) arg7 fullShare (KStep.outB (KStep.step i x0 x1 x2 s))
            ∗ owns (c : Thread nD τ) arg8 fullShare (KStep.step i x0 x1 x2 s).1 ∗ owns (c : Thread nD τ) arg9 fullShare (KStep.step i x0 x1 x2 s).2.1 ∗ owns (c : Thread nD τ) arg10 fullShare (KStep.step i x0 x1 x2 s).2.2.1 ∗ owns (c : Thread nD τ) arg11 fullShare (KStep.step i x0 x1 x2 s).2.2.2) -∗ K ⟨⟩))
      ⊢ wp frame (wpE (defs₀ (F := F)) Variants.none c none) E (cc0__chamfer_kernel i arg3 harg3 arg4 harg4 arg5 harg5 arg6 harg6 arg7 harg7 arg8 harg8 arg9 harg9 arg10 harg10 arg11 harg11) K := by
  simp only [cc0__chamfer_kernel_eq_skeleton]; unfold cc0__chamfer_kernel_skel
  unfold owns
  iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, ⟨%fs2, %hfs2, HS2⟩, ⟨%fs3, %hfs3, HS3⟩, Hk⟩
  obtain rfl := harg3.eq_unread hf0; obtain rfl := harg4.eq_unread hf1; obtain rfl := harg5.eq_unread hf2
  obtain rfl := harg8.eq_unread hfs0; obtain rfl := harg9.eq_unread hfs1; obtain rfl := harg10.eq_unread hfs2; obtain rfl := harg11.eq_unread hfs3
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; swap; · iexact H3
    ipureintro; sl_unfold_run_names
    unfold KStep.outA KStep.step KStep.upd0 KStep.upd1 KStep.upd2 KStep.upd3
    simp only [View.readAt_eq_ld, read_writes_cons_overlay, View.writes_nil, hf0, hf1, hf2, View.ld_unit_zero (S := S1x1024x3) zero3, View.ld_unit_zero (S := S1x4096) zero2, overlay_unit_zero (S := S1x4096) zero2, overlay_unit_zero (S := S1x1x128) zero3, hfs0, hfs1, hfs2, hfs3]
    try (with_reducible rfl)
  isplitl [H4]
  · iexists _; isplitr; swap; · iexact H4
    ipureintro; sl_unfold_run_names
    unfold KStep.outB KStep.step KStep.upd0 KStep.upd1 KStep.upd2 KStep.upd3
    simp only [View.readAt_eq_ld, read_writes_cons_overlay, View.writes_nil, hf0, hf1, hf2, View.ld_unit_zero (S := S1x1024x3) zero3, View.ld_unit_zero (S := S1x4096) zero2, overlay_unit_zero (S := S1x4096) zero2, overlay_unit_zero (S := S1x1x128) zero3, hfs0, hfs1, hfs2, hfs3]
    try (with_reducible rfl)
  isplitl [HS0]
  · iexists _; isplitr; swap; · iexact HS0
    ipureintro; sl_unfold_run_names
    unfold KStep.step KStep.upd0 KStep.upd1 KStep.upd2 KStep.upd3
    simp only [View.readAt_eq_ld, read_writes_cons_overlay, View.writes_nil, hf0, hf1, hf2, View.ld_unit_zero (S := S1x1024x3) zero3, View.ld_unit_zero (S := S1x4096) zero2, overlay_unit_zero (S := S1x4096) zero2, overlay_unit_zero (S := S1x1x128) zero3, hfs0, hfs1, hfs2, hfs3]
    try (with_reducible rfl)
  isplitl [HS1]
  · iexists _; isplitr; swap; · iexact HS1
    ipureintro; sl_unfold_run_names
    unfold KStep.step KStep.upd0 KStep.upd1 KStep.upd2 KStep.upd3
    simp only [View.readAt_eq_ld, read_writes_cons_overlay, View.writes_nil, hf0, hf1, hf2, View.ld_unit_zero (S := S1x1024x3) zero3, View.ld_unit_zero (S := S1x4096) zero2, overlay_unit_zero (S := S1x4096) zero2, overlay_unit_zero (S := S1x1x128) zero3, hfs0, hfs1, hfs2, hfs3]
    try (with_reducible rfl)
  isplitl [HS2]
  · iexists _; isplitr; swap; · iexact HS2
    ipureintro; sl_unfold_run_names
    unfold KStep.step KStep.upd0 KStep.upd1 KStep.upd2 KStep.upd3
    simp only [View.readAt_eq_ld, read_writes_cons_overlay, View.writes_nil, hf0, hf1, hf2, View.ld_unit_zero (S := S1x1024x3) zero3, View.ld_unit_zero (S := S1x4096) zero2, overlay_unit_zero (S := S1x4096) zero2, overlay_unit_zero (S := S1x1x128) zero3, hfs0, hfs1, hfs2, hfs3]
    try (with_reducible rfl)
  iexists _; isplitr; swap; · iexact HS3
  ipureintro; sl_unfold_run_names
  unfold KStep.step KStep.upd0 KStep.upd1 KStep.upd2 KStep.upd3
  simp only [View.readAt_eq_ld, read_writes_cons_overlay, View.writes_nil, hf0, hf1, hf2, View.ld_unit_zero (S := S1x1024x3) zero3, View.ld_unit_zero (S := S1x4096) zero2, overlay_unit_zero (S := S1x4096) zero2, overlay_unit_zero (S := S1x1x128) zero3, hfs0, hfs1, hfs2, hfs3]
  try (with_reducible rfl)

end Cert.KernelIdeal.KFrame

end
-- ==== Proof.KStepFacts.lean ====
/-
  The scratch rows after a point, case by case: at the first point of a batch entry the step starts from the reset
  rows; at every other point from the rows the point before left.
-/
import proofs.«126651_j14345190769122_2_alg».proof.Proof.KStep

noncomputable section

namespace Cert.KernelIdeal.KStep

open Cert.KernelIdeal Cert.KernelIdeal.Gen Idealize.ShloMosaic

variable {F : FTy → Type} [FloatOps F]

theorem scr_first (X0 X1 X2 : Fin grid0.N → Vec F S1x1024x3 .f32) (t : Fin grid0.N) (h : t.val % 16 = 0) :
    scr X0 X1 X2 t.val t.isLt = step (grid0.coords t) (X0 t) (X1 t) (X2 t) reset := by
  obtain ⟨n, hn⟩ := t
  cases n with
  | zero => rfl
  | succ n => exact if_pos h

theorem scr_next (X0 X1 X2 : Fin grid0.N → Vec F S1x1024x3 .f32) (t : Fin grid0.N) (h : ¬t.val % 16 = 0) :
    scr X0 X1 X2 t.val t.isLt
      = step (grid0.coords t) (X0 t) (X1 t) (X2 t) (scr X0 X1 X2 (t.val - 1) (Nat.lt_of_le_of_lt (Nat.sub_le _ _) t.isLt)) := by
  obtain ⟨n, hn⟩ := t
  cases n with
  | zero => exact absurd (Nat.zero_mod _) h
  | succ n => exact if_neg h

end Cert.KernelIdeal.KStep

end
-- ==== Proof.KFrameData.lean ====
/-
  The proof data of the kernel program's one pallas_call: what the four scratch rows and the two output buffers
  hold after every grid point, and the invariant carried between points.

  After point t the four scratch rows hold `KStep.scr` at t over the three input windows' blocks; the two output
  buffers hold, at the last point of a batch entry, the two sums of means of those rows.  Between points the call
  keeps the four rows at exactly these contents (before the first point: anything).
-/
import proofs.«126651_j14345190769122_2_alg».proof.Proof.KFrameKit
import proofs.«126651_j14345190769122_2_alg».proof.Proof.KStepFacts

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four scratch rows after point t, over the blocks the three input windows show. -/
def scrM (c : Dev nD) (t : ℕ) (h : t < cfg0.N) : KStep.Rows F :=
  KStep.scr (fun t => iblk m c 0 t) (fun t => iblk m c 1 t) (fun t => iblk m c 2 t) t h

theorem scrM_first (c : Dev nD) (t : Fin cfg0.N) (h : t.val % 16 = 0) :
    scrM m c t.val t.isLt = KStep.step (grid0.coords t) (iblk m c 0 t) (iblk m c 1 t) (iblk m c 2 t) KStep.reset :=
  KStep.scr_first _ _ _ t h
theorem scrM_next (c : Dev nD) (t : Fin cfg0.N) (h : ¬t.val % 16 = 0) :
    scrM m c t.val t.isLt = KStep.step (grid0.coords t) (iblk m c 0 t) (iblk m c 1 t) (iblk m c 2 t)
      (scrM m c (t.val - 1) (Nat.lt_of_le_of_lt (Nat.sub_le _ _) t.isLt)) :=
  KStep.scr_next _ _ _ t h

/-- The invariant before point n: anything before the first point; afterwards the four rows at what the point before left. -/
def PhiS (c : Dev nD) : (n : ℕ) → n ≤ cfg0.N → sProp 𝕄
  | 0, _ => Pipeline.ΦA spec0 c
  | n + 1, hn => iprop(iprop(owns (c : Thread nD τ) scM0_0 fullShare (scrM m c n hn).1 ∗ owns (c : Thread nD τ) scM0_1 fullShare (scrM m c n hn).2.1 ∗ owns (c : Thread nD τ) scM0_2 fullShare (scrM m c n hn).2.2.1 ∗ owns (c : Thread nD τ) scM0_3 fullShare (scrM m c n hn).2.2.2) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (scrM m c n hn).1 ∗ owns (c : Thread nD τ) scM0_1 fullShare (scrM m c n hn).2.1 ∗ owns (c : Thread nD τ) scM0_2 fullShare (scrM m c n hn).2.2.1 ∗ owns (c : Thread nD τ) scM0_3 fullShare (scrM m c n hn).2.2.2) ∗ (∃ r, prngReg c r)) := rfl
theorem PhiS_pos (c : Dev nD) (n : ℕ) (h : n ≤ cfg0.N) (hz : n ≠ 0) :
    PhiS m c n h = iprop(iprop(owns (c : Thread nD τ) scM0_0 fullShare (scrM m c (n - 1) (by omega)).1 ∗ owns (c : Thread nD τ) scM0_1 fullShare (scrM m c (n - 1) (by omega)).2.1 ∗ owns (c : Thread nD τ) scM0_2 fullShare (scrM m c (n - 1) (by omega)).2.2.1 ∗ owns (c : Thread nD τ) scM0_3 fullShare (scrM m c (n - 1) (by omega)).2.2.2) ∗ (∃ r, prngReg c r)) := by
  cases n with
  | zero => exact absurd rfl hz
  | succ n => rfl

/-- The proof data of the call on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => KStep.outA (scrM m c t.val t.isLt)
    | ⟨4, _⟩ => KStep.outB (scrM m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = KStep.outA (scrM m c t.val t.isLt) := by dsimp only [dats]
theorem after0_4 (c : Dev nD) (t : Fin cfg0.N) : (dats m 0 c).after 4 t = KStep.outB (scrM m c t.val t.isLt) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

end Cert.KernelIdeal.KFrame

end
-- ==== Proof.KFrameOf.lean ====
/-
  The frame of the kernel program from the run of its one pallas_call.

  The run ends with every staged array at what the call's write-backs leave and every other buffer at what the
  forty-seven host operations after the call compute from the buffers as the call found them.  None of those
  operations writes an argument array, the call stages only the fourth argument and only reads it, and the seven
  host operations before the call write no argument either: so the four arguments end as they were launched.
-/
import proofs.«126651_j14345190769122_2_alg».proof.Proof.KFrameData

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- No host operation after the call writes an argument. -/
theorem tail_keeps_arg0 (W : Valuation τ sig (Elt F)) :
    StableHlo.after (List.flatten [hostOps1]) W (Proc.devRef .tc main_arg0) = W (Proc.devRef .tc main_arg0) :=
  StableHlo.after_of_forall_not_mem (b := Proc.devRef .tc main_arg0) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem tail_keeps_arg1 (W : Valuation τ sig (Elt F)) :
    StableHlo.after (List.flatten [hostOps1]) W (Proc.devRef .tc main_arg1) = W (Proc.devRef .tc main_arg1) :=
  StableHlo.after_of_forall_not_mem (b := Proc.devRef .tc main_arg1) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem tail_keeps_arg2 (W : Valuation τ sig (Elt F)) :
    StableHlo.after (List.flatten [hostOps1]) W (Proc.devRef .tc main_arg2) = W (Proc.devRef .tc main_arg2) :=
  StableHlo.after_of_forall_not_mem (b := Proc.devRef .tc main_arg2) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The three arguments the call does not stage are no window's array and are unscoped. -/
theorem arg0_rest : main_arg0 ∈ Pipeline.restRefs sig (cfgs 0).spec := Pipeline.mem_restRefs_of main_arg0 rfl (by decide)
theorem arg1_rest : main_arg1 ∈ Pipeline.restRefs sig (cfgs 0).spec := Pipeline.mem_restRefs_of main_arg1 rfl (by decide)
theorem arg2_rest : main_arg2 ∈ Pipeline.restRefs sig (cfgs 0).spec := Pipeline.mem_restRefs_of main_arg2 rfl (by decide)

/-- What the run leaves in each of them is what was launched. -/
theorem rest_arg0 (c : Dev nD) :
    Pipeline.afterTail₀ cfgs (dats m) 0 (V0 m) [hostOps1] c main_arg0 = m ((c.tc : Thread nD τ).loc main_arg0) := by
  unfold Pipeline.afterTail₀
  rw [tail_keeps_arg0, Pipeline.withArrays_of_ne _ c _ _ main_arg0 (by decide)]
  exact V_main_arg0 m c
theorem rest_arg1 (c : Dev nD) :
    Pipeline.afterTail₀ cfgs (dats m) 0 (V0 m) [hostOps1] c main_arg1 = m ((c.tc : Thread nD τ).loc main_arg1) := by
  unfold Pipeline.afterTail₀
  rw [tail_keeps_arg1, Pipeline.withArrays_of_ne _ c _ _ main_arg1 (by decide)]
  exact V_main_arg1 m c
theorem rest_arg2 (c : Dev nD) :
    Pipeline.afterTail₀ cfgs (dats m) 0 (V0 m) [hostOps1] c main_arg2 = m ((c.tc : Thread nD τ).loc main_arg2) := by
  unfold Pipeline.afterTail₀
  rw [tail_keeps_arg2, Pipeline.withArrays_of_ne _ c _ _ main_arg2 (by decide)]
  exact V_main_arg2 m c

/-- The frame from the run: the four arguments end unchanged. -/
theorem frame_of
    (hrun : θ_run defs (onTc (τ := τ) (main (F := F))) (s₀ m ρ) (Pipeline.FramePost cfgs (dats m) 0 (Pipeline.afterTail₀ cfgs (dats m) 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 arg0_rest).trans (rest_arg0 m c),
     ((h c).2 main_arg1 arg1_rest).trans (rest_arg1 m c),
     ((h c).2 main_arg2 arg2_rest).trans (rest_arg2 m c),
     ((h c).1 1).trans (((dats m 0 c).arrAt_in 1 rfl _).trans ((A_eq m c 1).trans (V_main_arg3 m c)))⟩) hrun

end Cert.KernelIdeal.KFrame

end
-- ==== Proof.KFrame.lean ====
/-
  The frame run of the kernel program: the body's obligation at a generic grid point, and the run of @main.

  At a point the body is in one of three cases — first tile of a batch entry, last tile, or neither — and in each
  its run takes the four scratch rows from what the point before left (from anything, at the very first point) to
  the step of those rows (of the reset rows in the first case), which is the state the proof data names; at a last
  tile it also leaves the two output blocks the proof data names.  The invariant before the first point is what
  the launch hands over, and after the last point it gives that back.
-/
import proofs.«126651_j14345190769122_2_alg».proof.Proof.KRunC
import proofs.«126651_j14345190769122_2_alg».proof.Proof.KFrameOf

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 16000000 in
/-- The body at any point: the input buffers hold their blocks; the point is in one of the three cases; the rows come
    in at what the point before left (anything at the first point) and go out at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h1 : t.val % 16 = 15
  · have h0 : ¬t.val % 16 = 0 := by omega
    have hz : t.val ≠ 0 := by omega
    rw [show (dats m 0 c).leavesExact 3 t = owns (c : Thread nD τ) (ms0_3 t) fullShare ((dats m 0 c).after 3 t) from by
      unfold Dat.leavesExact; rw [liveAt0_3 t ((hcond0_1 t).mpr h1), after0_3]]
    rw [show (dats m 0 c).leavesExact 4 t = owns (c : Thread nD τ) (ms0_4 t) fullShare ((dats m 0 c).after 4 t) from by
      unfold Dat.leavesExact; rw [liveAt0_4 t ((hcond0_1 t).mpr h1), after0_4]]
    rw [after0_3, after0_4, scrM_next m c t h0, PhiS_castSucc m c t, PhiS_pos m c _ _ hz]
    iintro ⟨⟨⟨HS0, HS1, HS2, HS3⟩, Hg⟩, Ho, ⟨%d0, H0⟩, ⟨%d1, H1⟩, ⟨%d2, H2⟩, ⟨%d3, H3⟩, ⟨%d4, H4⟩⟩
    iapply (kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (scrM m c (t.val - 1) (Nat.lt_of_le_of_lt (Nat.sub_le _ _) t.isLt)) Set.univ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    isplitl [HS2]; · iexact HS2
    isplitl [HS3]; · iexact HS3
    iintro ⟨H0, H1, H2, H3, H4, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    iexact H4
  · by_cases h0 : t.val % 16 = 0
    · rw [Dat.leavesExact_idle (dats m 0 c) 3 t (idleAt0_3 t (fun h => h1 ((hcond0_1 t).mp h))) (noFlush0_3 t (fun h => h1 ((hcond0_1 t).mp h)))]
      rw [Dat.leavesExact_idle (dats m 0 c) 4 t (idleAt0_4 t (fun h => h1 ((hcond0_1 t).mp h))) (noFlush0_4 t (fun h => h1 ((hcond0_1 t).mp h)))]
      rw [scrM_first m c t h0]
      by_cases hz : t.val = 0
      · rw [PhiS_castSucc m c t, PhiS_zero m c _ _ hz, PhiA0_eq]
        iintro ⟨⟨⟨HS0, HS1, HS2, HS3⟩, Hg⟩, Ho, ⟨%d0, H0⟩, ⟨%d1, H1⟩, ⟨%d2, H2⟩, ⟨%d3, H3⟩, ⟨%d4, H4⟩⟩
        iapply (kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HS3]; · iexact HS3
        iintro ⟨H0, H1, H2, H3, H4, HS0, HS1, HS2, HS3⟩
        isplitl [HS0 HS1 HS2 HS3 Hg]
        · isplitl [HS0 HS1 HS2 HS3]
          · isplitl [HS0]; · iexact HS0
            isplitl [HS1]; · iexact HS1
            isplitl [HS2]; · iexact HS2
            iexact HS3
          iexact Hg
        isplitl [Ho]; · iexact Ho
        isplitl [H0]; · iexact H0
        isplitl [H1]; · iexact H1
        isplitl [H2]; · iexact H2
        isplitl [H3]; · iexists _; iexact H3
        iexists _; iexact H4
      · rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩⟩
        iapply (kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) _ _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        isplitl [HS3]; · iexists _; iexact HS3
        iintro ⟨H0, H1, H2, H3, H4, HS0, HS1, HS2, HS3⟩
        isplitl [HS0 HS1 HS2 HS3 Hg]
        · isplitl [HS0 HS1 HS2 HS3]
          · isplitl [HS0]; · iexact HS0
            isplitl [HS1]; · iexact HS1
            isplitl [HS2]; · iexact HS2
            iexact HS3
          iexact Hg
        isplitl [Ho]; · iexact Ho
        isplitl [H0]; · iexact H0
        isplitl [H1]; · iexact H1
        isplitl [H2]; · iexact H2
        isplitl [H3]; · iexists _; iexact H3
        iexists _; iexact H4
    · have hz : t.val ≠ 0 := fun hz => h0 (by rw [hz])
      rw [Dat.leavesExact_idle (dats m 0 c) 3 t (idleAt0_3 t (fun h => h1 ((hcond0_1 t).mp h))) (noFlush0_3 t (fun h => h1 ((hcond0_1 t).mp h)))]
      rw [Dat.leavesExact_idle (dats m 0 c) 4 t (idleAt0_4 t (fun h => h1 ((hcond0_1 t).mp h))) (noFlush0_4 t (fun h => h1 ((hcond0_1 t).mp h)))]
      rw [scrM_next m c t h0, PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply (kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (scrM m c (t.val - 1) (Nat.lt_of_le_of_lt (Nat.sub_le _ _) t.isLt)) _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexists _; iexact H3
      iexists _; iexact H4

/-- The body obligation at every point. -/
theorem body_obligation (c : Dev nD) : BodyObligation (dats (F := F) m 0 c) (defs₀ (F := F)) Variants.none () Set.univ := fun t => by
  rw [bigSep_W0, bigSep_W0]
  exact sound_body m c t

/-- What the launch hands the call is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives back what the launch handed over: the rows' contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of @main terminates, nothing faulting, with every array the call stages at what the
    proof data computes and every other unscoped buffer as the operations after the call leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The kernel program runs to the end, nothing faulting, and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (run_main m ρ)

end Cert.KernelIdeal.KFrame

end
-- ==== Proof.KBlocks.lean ====
/-
  The three input windows' blocks are restrictions of their arrays.

  The grid is 8 × 4 × 4, its points numbered t = 16 b + 4 n + m.  The first window cuts its [8, 4096, 3] array
  into blocks [1, 1024, 3] and takes block (b, n, 0) at point t; the other two take block (b, m, 0).  A block's
  entry at (0, r, d) is therefore the array's entry at (b, 1024 n + r, d), respectively (b, 1024 m + r, d): on each
  axis the array coordinate is the block index times the block size plus the coordinate inside the block.
-/
import proofs.«126651_j14345190769122_2_alg».proof.Proof.KFrameKit
import Idealize.ShloMosaic.Lib.Pipeline.Value
import Idealize.ShloMosaic.Lib.ValueIdx

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The first window's block index at point t is (t / 16, (t / 4) mod 4, 0). -/
theorem blockIndex0 : ∀ t : Fin cfg0.N, win0_0.index t (0 : Fin 3) = t.val / 16 ∧ win0_0.index t (1 : Fin 3) = (t.val / 4) % 4 ∧ win0_0.index t (2 : Fin 3) = 0 :=
  (by decide +kernel : ∀ t : Fin grid0.N, win0_0.index t (0 : Fin 3) = t.val / 16 ∧ win0_0.index t (1 : Fin 3) = (t.val / 4) % 4 ∧ win0_0.index t (2 : Fin 3) = 0)
/-- The second window's block index at point t is (t / 16, t mod 4, 0). -/
theorem blockIndex1 : ∀ t : Fin cfg0.N, win0_1.index t (0 : Fin 3) = t.val / 16 ∧ win0_1.index t (1 : Fin 3) = t.val % 4 ∧ win0_1.index t (2 : Fin 3) = 0 :=
  (by decide +kernel : ∀ t : Fin grid0.N, win0_1.index t (0 : Fin 3) = t.val / 16 ∧ win0_1.index t (1 : Fin 3) = t.val % 4 ∧ win0_1.index t (2 : Fin 3) = 0)
/-- So is the third window's. -/
theorem blockIndex2 : ∀ t : Fin cfg0.N, win0_2.index t (0 : Fin 3) = t.val / 16 ∧ win0_2.index t (1 : Fin 3) = t.val % 4 ∧ win0_2.index t (2 : Fin 3) = 0 :=
  (by decide +kernel : ∀ t : Fin grid0.N, win0_2.index t (0 : Fin 3) = t.val / 16 ∧ win0_2.index t (1 : Fin 3) = t.val % 4 ∧ win0_2.index t (2 : Fin 3) = 0)

/-- The first window's block at point t, at (0, r, d), is its array at (t / 16, 1024 ((t / 4) mod 4) + r, d). -/
theorem iblk0_apply (c : Dev nD) (t : Fin cfg0.N) (r : Fin 1024) (d : Fin 3) (b : Fin 8) (q : Fin 4096)
    (hb : b.val = t.val / 16) (hq : q.val = 1024 * ((t.val / 4) % 4) + r.val) :
    (iblk m c 0 t : Vec F S1x1024x3 .f32) (ix3 (0 : Fin 1) r d) = (V m c main_v3 : S8x4096x3.Idx → Elt F .f32) (ix3 b q d) := by
  obtain ⟨e0, e1, e2⟩ := blockIndex0 t
  unfold iblk
  rw [View.read_apply]
  show V m c main_v3 _ = V m c main_v3 _
  congr 1
  funext a
  apply Fin.ext
  match a with
  | ⟨0, _⟩ => show win0_0.index t 0 * 1 + 1 * (0 : Fin 1).val = b.val; rw [e0, hb]; simp
  | ⟨1, _⟩ => show win0_0.index t 1 * 1024 + 1 * r.val = q.val; rw [e1, hq]; omega
  | ⟨2, _⟩ => show win0_0.index t 2 * 3 + 1 * d.val = d.val; rw [e2]; omega

/-- The second window's block at point t, at (0, r, d), is its array at (t / 16, 1024 (t mod 4) + r, d). -/
theorem iblk1_apply (c : Dev nD) (t : Fin cfg0.N) (r : Fin 1024) (d : Fin 3) (b : Fin 8) (q : Fin 4096)
    (hb : b.val = t.val / 16) (hq : q.val = 1024 * (t.val % 4) + r.val) :
    (iblk m c 1 t : Vec F S1x1024x3 .f32) (ix3 (0 : Fin 1) r d) = (V m c main_arg3 : S8x4096x3.Idx → Elt F .f32) (ix3 b q d) := by
  obtain ⟨e0, e1, e2⟩ := blockIndex1 t
  unfold iblk
  rw [View.read_apply]
  show V m c main_arg3 _ = V m c main_arg3 _
  congr 1
  funext a
  apply Fin.ext
  match a with
  | ⟨0, _⟩ => show win0_1.index t 0 * 1 + 1 * (0 : Fin 1).val = b.val; rw [e0, hb]; simp
  | ⟨1, _⟩ => show win0_1.index t 1 * 1024 + 1 * r.val = q.val; rw [e1, hq]; omega
  | ⟨2, _⟩ => show win0_1.index t 2 * 3 + 1 * d.val = d.val; rw [e2]; omega

/-- The third window's block at point t, at (0, r, d), is its array at (t / 16, 1024 (t mod 4) + r, d). -/
theorem iblk2_apply (c : Dev nD) (t : Fin cfg0.N) (r : Fin 1024) (d : Fin 3) (b : Fin 8) (q : Fin 4096)
    (hb : b.val = t.val / 16) (hq : q.val = 1024 * (t.val % 4) + r.val) :
    (iblk m c 2 t : Vec F S1x1024x3 .f32) (ix3 (0 : Fin 1) r d) = (V m c main_v5 : S8x4096x3.Idx → Elt F .f32) (ix3 b q d) := by
  obtain ⟨e0, e1, e2⟩ := blockIndex2 t
  unfold iblk
  rw [View.read_apply]
  show V m c main_v5 _ = V m c main_v5 _
  congr 1
  funext a
  apply Fin.ext
  match a with
  | ⟨0, _⟩ => show win0_2.index t 0 * 1 + 1 * (0 : Fin 1).val = b.val; rw [e0, hb]; simp
  | ⟨1, _⟩ => show win0_2.index t 1 * 1024 + 1 * r.val = q.val; rw [e1, hq]; omega
  | ⟨2, _⟩ => show win0_2.index t 2 * 3 + 1 * d.val = d.val; rw [e2]; omega

end Cert.KernelIdeal.KFrame

end
-- ==== Proof.KOutArr.lean ====
/-
  An output array of the pipelined call, from what the body leaves at the write-back points.

  Each of the two results is an [8, 1, 128] array cut into eight blocks [1, 1, 128]; block b is written back
  exactly once, at the last point 16 b + 15 of batch entry b, and the eight blocks tile the array.  So if at every
  such point the body leaves the row O b in the window's staging buffer, the array ends holding O b in its row b:
  entry (b, 0, l) of the array is entry (0, 0, l) of O b.
-/
import proofs.«126651_j14345190769122_2_alg».proof.Proof.KFrameKit
import Idealize.ShloMosaic.Lib.Pipeline.Value
import Idealize.ShloMosaic.Lib.ValueIdx

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Both output windows' block index at point t is (t / 16, 0, 0). -/
theorem blockIndex3 : ∀ t : Fin cfg0.N, win0_3.index t (0 : Fin 3) = t.val / 16 ∧ win0_3.index t (1 : Fin 3) = 0 ∧ win0_3.index t (2 : Fin 3) = 0 :=
  (by decide +kernel : ∀ t : Fin grid0.N, win0_3.index t (0 : Fin 3) = t.val / 16 ∧ win0_3.index t (1 : Fin 3) = 0 ∧ win0_3.index t (2 : Fin 3) = 0)
theorem blockIndex4 : ∀ t : Fin cfg0.N, win0_4.index t (0 : Fin 3) = t.val / 16 ∧ win0_4.index t (1 : Fin 3) = 0 ∧ win0_4.index t (2 : Fin 3) = 0 :=
  (by decide +kernel : ∀ t : Fin grid0.N, win0_4.index t (0 : Fin 3) = t.val / 16 ∧ win0_4.index t (1 : Fin 3) = 0 ∧ win0_4.index t (2 : Fin 3) = 0)

/-- The array whose row b is O b. -/
abbrev rowsArr (O : Fin 8 → Vec F S1x1x128 .f32) : S8x1x128.Idx → Elt F .f32 := fun j => O (j 0) (ix3 (0 : Fin 1) (0 : Fin 1) (j 2))

/-- What a write-back point writes is its block of that array. -/
theorem flushed3_eq {c : Dev nD} (dat : Dat τ (Elt F) Unit ℕ (UR sig nD τ) ℕ cfg0 c) (O : Fin 8 → Vec F S1x1x128 .f32)
    (hO : ∀ t : Fin cfg0.N, t.val % 16 = 15 → ∀ b : Fin 8, b.val = t.val / 16 → dat.after 3 t = O b)
    (t : Fin cfg0.N) (hf : (cfg0.win 3).flush t = true) :
    dat.flushed 3 t = ((cfg0.win 3).blk t).view.read (Elt F) (rowsArr O) := by
  have h15 : t.val % 16 = 15 := (flush0_3 t).mp hf
  have hN : cfg0.N = 128 := N_0
  have hb : t.val / 16 < 8 := by have := t.isLt; omega
  obtain ⟨e0, e1, e2⟩ := blockIndex3 t
  show (cfg0.win 3).cut (grid0.coords t) (dat.after 3 t) = _
  rw [hO t h15 ⟨t.val / 16, hb⟩ rfl]
  funext j
  rw [View.read_apply]
  have j0 : (j 0).val < 1 := (j 0).isLt
  have j1 : (j 1).val < 1 := (j 1).isLt
  have hb0 : (((cfg0.win 3).blk t).view.emb j) 0 = (⟨t.val / 16, hb⟩ : Fin 8) :=
    Fin.ext (by show win0_3.index t 0 * 1 + 1 * (j 0).val = t.val / 16; rw [e0]; omega)
  have hb2 : (((cfg0.win 3).blk t).view.emb j) 2 = (⟨(j 2).val, (j 2).isLt⟩ : Fin 128) :=
    Fin.ext (by show win0_3.index t 2 * 128 + 1 * (j 2).val = (j 2).val; rw [e2]; omega)
  show O ⟨t.val / 16, hb⟩ _ = O ((((cfg0.win 3).blk t).view.emb j) 0) (ix3 (0 : Fin 1) (0 : Fin 1) ((((cfg0.win 3).blk t).view.emb j) 2))
  rw [hb0, hb2]
  congr 1
  funext a
  apply Fin.ext
  match a with
  | ⟨0, _⟩ => show (j 0).val = 0; omega
  | ⟨1, _⟩ => show (j 1).val = 0; omega
  | ⟨2, _⟩ => rfl

/-- Every entry of the array lies in the block of the last point of its batch entry. -/
theorem cover3 (i : S8x1x128.Idx) : ∃ t : Fin cfg0.N, (cfg0.win 3).flush t = true ∧ i ∈ ((cfg0.win 3).blk t).view.set := by
  have hN : cfg0.N = 128 := N_0
  have h0 : (i 0).val < 8 := (i 0).isLt
  have h1 : (i 1).val < 1 := (i 1).isLt
  have h2 : (i 2).val < 128 := (i 2).isLt
  have ht : 16 * (i 0).val + 15 < cfg0.N := by omega
  obtain ⟨e0, e1, e2⟩ := blockIndex3 ⟨16 * (i 0).val + 15, ht⟩
  refine ⟨⟨16 * (i 0).val + 15, ht⟩, (flush0_3 _).mpr (by show (16 * (i 0).val + 15) % 16 = 15; omega), ?_⟩
  show i ∈ ((View.whole main_v6_0).slice (win0_3.rect ⟨16 * (i 0).val + 15, ht⟩)).set
  rw [View.set_slice_whole, Rect.mem_set_unit]
  intro a
  match a with
  | ⟨0, _⟩ => show win0_3.index ⟨16 * (i 0).val + 15, ht⟩ 0 * 1 ≤ (i 0).val ∧ (i 0).val < win0_3.index ⟨16 * (i 0).val + 15, ht⟩ 0 * 1 + 1
              rw [e0]; show (16 * (i 0).val + 15) / 16 * 1 ≤ (i 0).val ∧ (i 0).val < (16 * (i 0).val + 15) / 16 * 1 + 1; omega
  | ⟨1, _⟩ => show win0_3.index ⟨16 * (i 0).val + 15, ht⟩ 1 * 1 ≤ (i 1).val ∧ (i 1).val < win0_3.index ⟨16 * (i 0).val + 15, ht⟩ 1 * 1 + 1
              rw [e1]; omega
  | ⟨2, _⟩ => show win0_3.index ⟨16 * (i 0).val + 15, ht⟩ 2 * 128 ≤ (i 2).val ∧ (i 2).val < win0_3.index ⟨16 * (i 0).val + 15, ht⟩ 2 * 128 + 128
              rw [e2]; omega

/-- The first result array after the call: row b is what the body left at the last point of batch entry b. -/
theorem arrAt3_apply {c : Dev nD} (dat : Dat τ (Elt F) Unit ℕ (UR sig nD τ) ℕ cfg0 c) (O : Fin 8 → Vec F S1x1x128 .f32)
    (hO : ∀ t : Fin cfg0.N, t.val % 16 = 15 → ∀ b : Fin 8, b.val = t.val / 16 → dat.after 3 t = O b)
    (b : Fin 8) (l : Fin 128) :
    (dat.arrAt 3 cfg0.N : S8x1x128.Idx → Elt F .f32) (ix3 b (0 : Fin 1) l) = O b (ix3 (0 : Fin 1) (0 : Fin 1) l) := by
  rw [dat.arrAt_eq_of_cover 3 (rowsArr O) (flushed3_eq dat O hO) cover3]

/-- The same for the second result. -/
theorem flushed4_eq {c : Dev nD} (dat : Dat τ (Elt F) Unit ℕ (UR sig nD τ) ℕ cfg0 c) (O : Fin 8 → Vec F S1x1x128 .f32)
    (hO : ∀ t : Fin cfg0.N, t.val % 16 = 15 → ∀ b : Fin 8, b.val = t.val / 16 → dat.after 4 t = O b)
    (t : Fin cfg0.N) (hf : (cfg0.win 4).flush t = true) :
    dat.flushed 4 t = ((cfg0.win 4).blk t).view.read (Elt F) (rowsArr O) := by
  have h15 : t.val % 16 = 15 := (flush0_4 t).mp hf
  have hN : cfg0.N = 128 := N_0
  have hb : t.val / 16 < 8 := by have := t.isLt; omega
  obtain ⟨e0, e1, e2⟩ := blockIndex4 t
  show (cfg0.win 4).cut (grid0.coords t) (dat.after 4 t) = _
  rw [hO t h15 ⟨t.val / 16, hb⟩ rfl]
  funext j
  rw [View.read_apply]
  have j0 : (j 0).val < 1 := (j 0).isLt
  have j1 : (j 1).val < 1 := (j 1).isLt
  have hb0 : (((cfg0.win 4).blk t).view.emb j) 0 = (⟨t.val / 16, hb⟩ : Fin 8) :=
    Fin.ext (by show win0_4.index t 0 * 1 + 1 * (j 0).val = t.val / 16; rw [e0]; omega)
  have hb2 : (((cfg0.win 4).blk t).view.emb j) 2 = (⟨(j 2).val, (j 2).isLt⟩ : Fin 128) :=
    Fin.ext (by show win0_4.index t 2 * 128 + 1 * (j 2).val = (j 2).val; rw [e2]; omega)
  show O ⟨t.val / 16, hb⟩ _ = O ((((cfg0.win 4).blk t).view.emb j) 0) (ix3 (0 : Fin 1) (0 : Fin 1) ((((cfg0.win 4).blk t).view.emb j) 2))
  rw [hb0, hb2]
  congr 1
  funext a
  apply Fin.ext
  match a with
  | ⟨0, _⟩ => show (j 0).val = 0; omega
  | ⟨1, _⟩ => show (j 1).val = 0; omega
  | ⟨2, _⟩ => rfl

theorem cover4 (i : S8x1x128.Idx) : ∃ t : Fin cfg0.N, (cfg0.win 4).flush t = true ∧ i ∈ ((cfg0.win 4).blk t).view.set := by
  have hN : cfg0.N = 128 := N_0
  have h0 : (i 0).val < 8 := (i 0).isLt
  have h1 : (i 1).val < 1 := (i 1).isLt
  have h2 : (i 2).val < 128 := (i 2).isLt
  have ht : 16 * (i 0).val + 15 < cfg0.N := by omega
  obtain ⟨e0, e1, e2⟩ := blockIndex4 ⟨16 * (i 0).val + 15, ht⟩
  refine ⟨⟨16 * (i 0).val + 15, ht⟩, (flush0_4 _).mpr (by show (16 * (i 0).val + 15) % 16 = 15; omega), ?_⟩
  show i ∈ ((View.whole main_v6_1).slice (win0_4.rect ⟨16 * (i 0).val + 15, ht⟩)).set
  rw [View.set_slice_whole, Rect.mem_set_unit]
  intro a
  match a with
  | ⟨0, _⟩ => show win0_4.index ⟨16 * (i 0).val + 15, ht⟩ 0 * 1 ≤ (i 0).val ∧ (i 0).val < win0_4.index ⟨16 * (i 0).val + 15, ht⟩ 0 * 1 + 1
              rw [e0]; show (16 * (i 0).val + 15) / 16 * 1 ≤ (i 0).val ∧ (i 0).val < (16 * (i 0).val + 15) / 16 * 1 + 1; omega
  | ⟨1, _⟩ => show win0_4.index ⟨16 * (i 0).val + 15, ht⟩ 1 * 1 ≤ (i 1).val ∧ (i 1).val < win0_4.index ⟨16 * (i 0).val + 15, ht⟩ 1 * 1 + 1
              rw [e1]; omega
  | ⟨2, _⟩ => show win0_4.index ⟨16 * (i 0).val + 15, ht⟩ 2 * 128 ≤ (i 2).val ∧ (i 2).val < win0_4.index ⟨16 * (i 0).val + 15, ht⟩ 2 * 128 + 128
              rw [e2]; omega

/-- The second result array after the call: row b is what the body left at the last point of batch entry b. -/
theorem arrAt4_apply {c : Dev nD} (dat : Dat τ (Elt F) Unit ℕ (UR sig nD τ) ℕ cfg0 c) (O : Fin 8 → Vec F S1x1x128 .f32)
    (hO : ∀ t : Fin cfg0.N, t.val % 16 = 15 → ∀ b : Fin 8, b.val = t.val / 16 → dat.after 4 t = O b)
    (b : Fin 8) (l : Fin 128) :
    (dat.arrAt 4 cfg0.N : S8x1x128.Idx → Elt F .f32) (ix3 b (0 : Fin 1) l) = O b (ix3 (0 : Fin 1) (0 : Fin 1) l) := by
  rw [dat.arrAt_eq_of_cover 4 (rowsArr O) (flushed4_eq dat O hO) cover4]

end Cert.KernelIdeal.KFrame

end
-- ==== Proof.TileMin.lean ====
/-
  Running minima over a 4096 × 4096 matrix visited tile by tile.

  The matrix D is cut into 4 × 4 tiles of 1024 × 1024 entries.  A row of 4096 running row minima R
  and a row of 4096 running column minima C start at +∞ (the top of the extended reals).  Visiting
  tile (n, m) replaces, for every row j of row-block n, R j by the smaller of R j and the least
  entry of row j inside column-block m; and for every column j of column-block m, C j by the
  smaller of C j and the least entry of column j inside row-block n.  After the sixteen tiles,
  visited row-block by row-block (tile number k = 4 n + m), R j is the least entry of row j and
  C j the least entry of column j: every entry of the matrix lies in exactly one tile, and the meet
  of the order is associative, commutative and idempotent with +∞ neutral, so no finiteness is needed.
-/
import Mathlib.Data.EReal.Basic
import Mathlib.Order.CompleteLattice.Finset
import Mathlib.Data.Finset.Lattice.Fold
import Mathlib.Data.Fintype.Basic

noncomputable section

namespace TileMin

/-- Entry r of block k of a row of 4096. -/
def cell (k : Fin 4) (r : Fin 1024) : Fin 4096 := ⟨1024 * k.val + r.val, by omega⟩

/-- Tile (n, m) folded into the running row minima. -/
def stepRow (D : Fin 4096 → Fin 4096 → EReal) (n m : Fin 4) (R : Fin 4096 → EReal) : Fin 4096 → EReal :=
  fun j => if j.val / 1024 = n.val then min (R j) (Finset.univ.inf fun c : Fin 1024 => D j (cell m c)) else R j

/-- Tile (n, m) folded into the running column minima. -/
def stepCol (D : Fin 4096 → Fin 4096 → EReal) (n m : Fin 4) (C : Fin 4096 → EReal) : Fin 4096 → EReal :=
  fun j => if j.val / 1024 = m.val then min (C j) (Finset.univ.inf fun r : Fin 1024 => D (cell n r) j) else C j

/-- The row-block and column-block of tile number k (k = 4 n + m). -/
def tileRow (k : ℕ) : Fin 4 := ⟨(k / 4) % 4, Nat.mod_lt _ (by norm_num)⟩
def tileCol (k : ℕ) : Fin 4 := ⟨k % 4, Nat.mod_lt _ (by norm_num)⟩

/-- The running (row, column) minima after tiles 0 … k, from +∞. -/
def run (D : Fin 4096 → Fin 4096 → EReal) : ℕ → (Fin 4096 → EReal) × (Fin 4096 → EReal)
  | 0 => (stepRow D (tileRow 0) (tileCol 0) (fun _ => ⊤), stepCol D (tileRow 0) (tileCol 0) (fun _ => ⊤))
  | k + 1 => (stepRow D (tileRow (k + 1)) (tileCol (k + 1)) (run D k).1, stepCol D (tileRow (k + 1)) (tileCol (k + 1)) (run D k).2)

end TileMin

end
-- ==== Proof.TileMinFacts.lean ====
/-
  Closed form of the running minima over a 4096 × 4096 matrix visited tile by tile.

  Number the sixteen 1024 × 1024 tiles row-block by row-block: the entry (j, m) lies in tile
  4 (j / 1024) + m / 1024.  After tiles 0 … k have been visited, the running row minimum at row j
  is the meet of the entries (j, m) whose tile number is at most k, and the running column minimum
  at column j is the meet of the entries (n, j) whose tile number is at most k.  The proof is by
  induction on k: the entries of row j inside column-block m are exactly the images of the
  1024 offsets under (m, c) ↦ 1024 m + c, so the meet over one block is the meet the step folds in;
  passing from k to k + 1 adds exactly that block to the set when the row (column) lies in the
  visited tile's row-block (column-block) and adds nothing otherwise; and the meet of a union is the
  meet of the meets, with +∞ the meet of the empty set.  At k = 15 every entry qualifies.
-/
import proofs.«126651_j14345190769122_2_alg».proof.Proof.TileMin

noncomputable section

namespace TileMin

/-- The indices of block m of a row of 4096. -/
def block (m : Fin 4) : Finset (Fin 4096) := Finset.univ.filter fun x : Fin 4096 => x.val / 1024 = m.val

theorem mem_block (m : Fin 4) (x : Fin 4096) : x ∈ block m ↔ x.val / 1024 = m.val := by
  unfold block
  rw [Finset.mem_filter]
  exact ⟨fun h => h.2, fun h => ⟨Finset.mem_univ _, h⟩⟩

/-- The indices of block m are the images of the 1024 offsets. -/
theorem block_eq_image (m : Fin 4) : block m = Finset.univ.image (cell m) := by
  ext x
  rw [mem_block, Finset.mem_image]
  constructor
  · intro h
    refine ⟨⟨x.val % 1024, Nat.mod_lt _ (by norm_num)⟩, Finset.mem_univ _, ?_⟩
    apply Fin.ext
    simp only [cell]
    omega
  · rintro ⟨c, _, rfl⟩
    simp only [cell]
    omega

/-- The meet over block m is the meet over the 1024 offsets. -/
theorem inf_block (m : Fin 4) (f : Fin 4096 → EReal) :
    (block m).inf f = Finset.univ.inf fun c : Fin 1024 => f (cell m c) := by
  rw [block_eq_image, Finset.inf_image]
  rfl

/-- The columns m of row j whose tile has number at most k. -/
def rowSet (k : ℕ) (j : Fin 4096) : Finset (Fin 4096) :=
  Finset.univ.filter fun m : Fin 4096 => 4 * (j.val / 1024) + m.val / 1024 ≤ k

/-- The rows n of column j whose tile has number at most k. -/
def colSet (k : ℕ) (j : Fin 4096) : Finset (Fin 4096) :=
  Finset.univ.filter fun n : Fin 4096 => 4 * (n.val / 1024) + j.val / 1024 ≤ k

theorem mem_rowSet (k : ℕ) (j x : Fin 4096) :
    x ∈ rowSet k j ↔ 4 * (j.val / 1024) + x.val / 1024 ≤ k := by
  unfold rowSet
  rw [Finset.mem_filter]
  exact ⟨fun h => h.2, fun h => ⟨Finset.mem_univ _, h⟩⟩

theorem mem_colSet (k : ℕ) (j x : Fin 4096) :
    x ∈ colSet k j ↔ 4 * (x.val / 1024) + j.val / 1024 ≤ k := by
  unfold colSet
  rw [Finset.mem_filter]
  exact ⟨fun h => h.2, fun h => ⟨Finset.mem_univ _, h⟩⟩

theorem tileRow_val (k : ℕ) : (tileRow k).val = (k / 4) % 4 := rfl
theorem tileCol_val (k : ℕ) : (tileCol k).val = k % 4 := rfl

theorem rowSet_zero_hit (j : Fin 4096) (h : j.val / 1024 = (tileRow 0).val) :
    rowSet 0 j = block (tileCol 0) := by
  ext x
  rw [mem_rowSet, mem_block, tileCol_val]
  rw [tileRow_val] at h
  omega

theorem rowSet_zero_miss (j : Fin 4096) (h : ¬ j.val / 1024 = (tileRow 0).val) :
    rowSet 0 j = ∅ := by
  ext x
  rw [mem_rowSet]
  rw [tileRow_val] at h
  simp only [Finset.notMem_empty, iff_false]
  omega

theorem rowSet_succ_hit (k : ℕ) (hk : k + 1 < 16) (j : Fin 4096)
    (h : j.val / 1024 = (tileRow (k + 1)).val) :
    rowSet (k + 1) j = rowSet k j ∪ block (tileCol (k + 1)) := by
  ext x
  rw [Finset.mem_union, mem_rowSet, mem_rowSet, mem_block, tileCol_val]
  rw [tileRow_val] at h
  omega

theorem rowSet_succ_miss (k : ℕ) (hk : k + 1 < 16) (j : Fin 4096)
    (h : ¬ j.val / 1024 = (tileRow (k + 1)).val) :
    rowSet (k + 1) j = rowSet k j := by
  ext x
  rw [mem_rowSet, mem_rowSet]
  rw [tileRow_val] at h
  omega

theorem colSet_zero_hit (j : Fin 4096) (h : j.val / 1024 = (tileCol 0).val) :
    colSet 0 j = block (tileRow 0) := by
  ext x
  rw [mem_colSet, mem_block, tileRow_val]
  rw [tileCol_val] at h
  omega

theorem colSet_zero_miss (j : Fin 4096) (h : ¬ j.val / 1024 = (tileCol 0).val) :
    colSet 0 j = ∅ := by
  ext x
  rw [mem_colSet]
  rw [tileCol_val] at h
  simp only [Finset.notMem_empty, iff_false]
  omega

theorem colSet_succ_hit (k : ℕ) (hk : k + 1 < 16) (j : Fin 4096)
    (h : j.val / 1024 = (tileCol (k + 1)).val) :
    colSet (k + 1) j = colSet k j ∪ block (tileRow (k + 1)) := by
  ext x
  rw [Finset.mem_union, mem_colSet, mem_colSet, mem_block, tileRow_val]
  rw [tileCol_val] at h
  omega

theorem colSet_succ_miss (k : ℕ) (hk : k + 1 < 16) (j : Fin 4096)
    (h : ¬ j.val / 1024 = (tileCol (k + 1)).val) :
    colSet (k + 1) j = colSet k j := by
  ext x
  rw [mem_colSet, mem_colSet]
  rw [tileCol_val] at h
  omega

/-- After tiles 0 … k the running row minimum at row j is the meet over the visited part of row j. -/
theorem run_rows_at (D : Fin 4096 → Fin 4096 → EReal) (k : ℕ) (hk : k < 16) (j : Fin 4096) :
    (run D k).1 j = (rowSet k j).inf fun m => D j m := by
  induction k with
  | zero =>
    simp only [run, stepRow]
    split_ifs with h
    · rw [rowSet_zero_hit j h, inf_block, min_eq_right le_top]
    · rw [rowSet_zero_miss j h, Finset.inf_empty]
  | succ k ih =>
    simp only [run, stepRow]
    split_ifs with h
    · rw [ih (by omega), rowSet_succ_hit k hk j h, Finset.inf_union, inf_block]
    · rw [ih (by omega), rowSet_succ_miss k hk j h]

/-- After tiles 0 … k the running column minimum at column j is the meet over the visited part of column j. -/
theorem run_cols_at (D : Fin 4096 → Fin 4096 → EReal) (k : ℕ) (hk : k < 16) (j : Fin 4096) :
    (run D k).2 j = (colSet k j).inf fun n => D n j := by
  induction k with
  | zero =>
    simp only [run, stepCol]
    split_ifs with h
    · rw [colSet_zero_hit j h, inf_block, min_eq_right le_top]
    · rw [colSet_zero_miss j h, Finset.inf_empty]
  | succ k ih =>
    simp only [run, stepCol]
    split_ifs with h
    · rw [ih (by omega), colSet_succ_hit k hk j h, Finset.inf_union, inf_block]
    · rw [ih (by omega), colSet_succ_miss k hk j h]

theorem rowSet_last (j : Fin 4096) : rowSet 15 j = Finset.univ := by
  ext x
  rw [mem_rowSet]
  simp only [Finset.mem_univ, iff_true]
  omega

theorem colSet_last (j : Fin 4096) : colSet 15 j = Finset.univ := by
  ext x
  rw [mem_colSet]
  simp only [Finset.mem_univ, iff_true]
  omega

/-- After the sixteen tiles the running row minima are the row minima of the whole matrix. -/
theorem run_rows (D : Fin 4096 → Fin 4096 → EReal) :
    (run D 15).1 = fun j => Finset.univ.inf fun m : Fin 4096 => D j m := by
  funext j
  rw [run_rows_at D 15 (by norm_num) j, rowSet_last]

/-- After the sixteen tiles the running column minima are the column minima of the whole matrix. -/
theorem run_cols (D : Fin 4096 → Fin 4096 → EReal) :
    (run D 15).2 = fun j => Finset.univ.inf fun n : Fin 4096 => D n j := by
  funext j
  rw [run_cols_at D 15 (by norm_num) j, colSet_last]

end TileMin

end
-- ==== Proof.KValLayout.lean ====
/-
  Reading the layout operations and reductions of a tile at an index.

  A vector of a entries viewed as a column [a, 1] reads its entry i at (i, 0); a column [a, 1] spread over b columns
  reads, at (p, c), its entry p; a single entry [1, 1] spread over b lanes reads that entry everywhere.  The product of an
  [m, k] matrix with the transpose of an [n, k] matrix reads, at (a, b), the sum over the k coordinates of the products of
  row a of the first with row b of the second.  A reduction of a matrix along its rows or its columns ranges over the
  entries of that row or column, and a minimum taken from +∞ over a finite range is the meet of the range.
-/
import Idealize.ShloMosaic.PureOps.Ideal
import Idealize.ShloMosaic.PureOps.Ideal.Laws
import Idealize.ShloMosaic.PureOps.Reduce
import Idealize.ShloMosaic.Lib.ValueIdx
import Idealize.ShloMosaic.Lib.ValueLayout

noncomputable section

open scoped BigOperators

namespace Cert.KernelIdeal.KVal

open Idealize.ShloMosaic Idealize.ShloMosaic.ValueIdx

variable {α : Type}

/-- An [a] vector cast to a column [a, 1] reads, at (i, u), entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product of an [m, k] matrix with the transpose of an [n, k] matrix, accumulated into zero, reads at (a, b) the
    sum over the contracted coordinate of the products of the two rows' entries. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims _ _ _) prec A B (constant ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- Along the rows of an [m, n] matrix: the reduced index r with column k put back is (r, k). -/
theorem lift_row_ix2 {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Along the columns of an [m, n] matrix: the reduced index c with row k put back is (k, c). -/
theorem lift_col_ix2 {m n : ℕ} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl

/-- The float word 0x7F800000 is +∞, the top of the extended reals. -/
theorem ofBits_inf_f32 : (Ideal.ofBits .f32 0x7F800000#32 : EReal) = ⊤ := by
  simp [Ideal.ofBits, Ideal.ieee]

/-- A fold of min from +∞ over a finite range is the meet of the range. -/
theorem fold_min_top_eq_inf {ι : Type} (s : Finset ι) (f : ι → EReal) : s.fold min (⊤ : EReal) f = s.inf f := rfl

/-- The sum of a row: a reduction with add along the rows of an [m, n] matrix, at r, is the sum of row r. -/
theorem reduce_add_row_apply {m n : ℕ} (src : FVec Ideal ⟨2, ![m, n]⟩ .f32)
    (h : (⟨2, ![m, n]⟩ : Shape).Reduces [1] (⟨1, ![m]⟩ : Shape)) (hφ : FKind.Formats .f32)
    (hacc : (0x00000000#32 : BitVec 32) = FKind.add.neutral .f32 hφ) (r : Fin m) :
    multiReduction (F := Ideal) .add [1] ⟨1, ![m]⟩ src 0x00000000#32 h hφ hacc (ix1 r) = ∑ k : Fin n, src (ix2 r k) := by
  refine (Ideal.multiReduction_add_single src 0x00000000#32 h hφ hacc (ix1 r)).trans ?_
  exact Finset.sum_congr rfl fun k _ => congrArg src (lift_row_ix2 h r k)

/-- The least entry of a row: a reduction with min from +∞ along the rows of an [m, n] matrix, at r. -/
theorem reduce_min_row_apply {m n : ℕ} (src : FVec Ideal ⟨2, ![m, n]⟩ .f32)
    (h : (⟨2, ![m, n]⟩ : Shape).Reduces [1] (⟨1, ![m]⟩ : Shape)) (hφ : FKind.Formats .f32)
    (hacc : (0x7F800000#32 : BitVec 32) = FKind.minimumf.neutral .f32 hφ) (r : Fin m) :
    multiReduction (F := Ideal) .minimumf [1] ⟨1, ![m]⟩ src 0x7F800000#32 h hφ hacc (ix1 r)
      = Finset.univ.inf fun k : Fin n => src (ix2 r k) := by
  refine (multiReduction_minimumf_eq_fold src 0x7F800000#32 h hφ hacc (ix1 r)).trans ?_
  refine (h.fold_filter_drop_single _ _ src (ix1 r)).trans ?_
  have hf : (src ∘ h.lift (ix1 r)) = fun k : Fin n => src (ix2 r k) := funext fun k => congrArg src (lift_row_ix2 h r k)
  show Finset.fold min (Ideal.ofBits .f32 0x7F800000#32) (src ∘ h.lift (ix1 r)) (Finset.univ : Finset (Fin n)) = _
  rw [hf, ofBits_inf_f32]
  rfl

/-- The least entry of a column: a reduction with min from +∞ along the columns of an [m, n] matrix, at c. -/
theorem reduce_min_col_apply {m n : ℕ} (src : FVec Ideal ⟨2, ![m, n]⟩ .f32)
    (h : (⟨2, ![m, n]⟩ : Shape).Reduces [0] (⟨1, ![n]⟩ : Shape)) (hφ : FKind.Formats .f32)
    (hacc : (0x7F800000#32 : BitVec 32) = FKind.minimumf.neutral .f32 hφ) (c : Fin n) :
    multiReduction (F := Ideal) .minimumf [0] ⟨1, ![n]⟩ src 0x7F800000#32 h hφ hacc (ix1 c)
      = Finset.univ.inf fun k : Fin m => src (ix2 k c) := by
  refine (multiReduction_minimumf_eq_fold src 0x7F800000#32 h hφ hacc (ix1 c)).trans ?_
  refine (h.fold_filter_drop_single _ _ src (ix1 c)).trans ?_
  have hf : (src ∘ h.lift (ix1 c)) = fun k : Fin m => src (ix2 k c) := funext fun k => congrArg src (lift_col_ix2 h c k)
  show Finset.fold min (Ideal.ofBits .f32 0x7F800000#32) (src ∘ h.lift (ix1 c)) (Finset.univ : Finset (Fin m)) = _
  rw [hf, ofBits_inf_f32]
  rfl

end Cert.KernelIdeal.KVal

end
-- ==== Proof.KValTile.lean ====
/-
  The tile's arithmetic at an index.

  For a query block x₀ and a target block x₁ of 1024 points with three coordinates each, the tile's matrix at
  (r, c) is (|x₀ r|² + |x₁ c|²) − 2 · (x₀ r · x₁ c): the squared norms are sums over the three coordinates of
  the squares, spread along the rows and along the columns, and the inner products are the matrix product of x₀
  with the transpose of x₁.  The tile's row minima are, for each row, the meet of that row's entries; the updates of
  a slice of running minima take, entry by entry, the smaller of the slice's entry and the tile's row minimum (for the
  row slices) or the tile's column minimum (for the column slices).
-/
import proofs.«126651_j14345190769122_2_alg».proof.Proof.Gen.KernelIdeal.Skeleton
import proofs.«126651_j14345190769122_2_alg».proof.Proof.Spec
import proofs.«126651_j14345190769122_2_alg».proof.Proof.KValLayout

noncomputable section

open scoped BigOperators

namespace Cert.KernelIdeal.KVal

open Cert.KernelIdeal Cert.KernelIdeal.Gen Idealize.ShloMosaic Idealize.ShloMosaic.ValueIdx

/-- |x r|²: the sum of the squared coordinates of point r of a block. -/
def sqb (x : Vec Ideal S1x1024x3 .f32) (r : Fin 1024) : EReal :=
  ∑ d : Fin 3, (x (ix3 (0 : Fin 1) r d) : EReal) * x (ix3 (0 : Fin 1) r d)

/-- x₀ r · x₁ c: the sum of the products of the coordinates of point r of one block and point c of another. -/
def dotb (x0 x1 : Vec Ideal S1x1024x3 .f32) (r c : Fin 1024) : EReal :=
  ∑ d : Fin 3, (x0 (ix3 (0 : Fin 1) r d) : EReal) * x1 (ix3 (0 : Fin 1) c d)

/-- The tile's matrix entry. -/
def tileD (x0 x1 : Vec Ideal S1x1024x3 .f32) (r c : Fin 1024) : EReal :=
  (sqb x0 r + sqb x1 c) - ChamferSpec.two * dotb x0 x1 r c

/-- A block with its unit axis dropped reads, at (r, d), the block at (0, r, d). -/
theorem pay7_apply (x : Vec Ideal S1x1024x3 .f32) (r : Fin 1024) (d : Fin 3) :
    k0_pay7 (F := Ideal) x (ix2 r d) = x (ix3 (0 : Fin 1) r d) := by
  unfold k0_pay7
  exact shapeCast_1ab_ab_apply x _ r d

/-- The squared norms of a block's points. -/
theorem pay8_apply (x : Vec Ideal S1x1024x3 .f32) (r : Fin 1024) :
    k0_pay8 (F := Ideal) x (ix1 r) = sqb x r := by
  unfold k0_pay8
  refine (reduce_add_row_apply _ _ _ _ r).trans ?_
  unfold sqb
  refine Finset.sum_congr rfl fun d _ => ?_
  rw [mulf_apply, pay7_apply]

/-- The first matrix of a tile at (r, c). -/
theorem pay9_apply (x0 x1 : Vec Ideal S1x1024x3 .f32) (r c : Fin 1024) :
    k0_pay9 (F := Ideal) x0 x1 (ix2 r c) = tileD x0 x1 r c := by
  unfold k0_pay9 tileD
  try dsimp only
  rw [subf_apply, addf_apply, mulf_apply, broadcast_apply]
  refine congrArg₂ (fun a b : EReal => a - b) (congrArg₂ (fun a b : EReal => a + b) ?_ ?_)
    (congrArg (fun a : EReal => ChamferSpec.two * a) ?_)
  · exact (broadcastTo_a1_ab_apply _ _ r c).trans ((shapeCast_a_a1_apply _ _ r 0).trans (pay8_apply x0 r))
  · exact (broadcastTo_1b_ab_apply _ _ r c).trans ((shapeCast_a_1a_apply _ _ 0 c).trans (pay8_apply x1 c))
  · refine (matmul_nt_apply _ _ _ _ r c).trans ?_
    unfold dotb
    refine Finset.sum_congr rfl fun d _ => ?_
    exact congrArg₂ (fun a b : EReal => a * b) (pay7_apply x0 r d) (pay7_apply x1 c d)

/-- The second matrix of a tile at (r, c): the same with the other target block. -/
theorem pay10_apply (x0 x2 : Vec Ideal S1x1024x3 .f32) (r c : Fin 1024) :
    k0_pay10 (F := Ideal) x0 x2 (ix2 r c) = tileD x0 x2 r c := by
  unfold k0_pay10 tileD
  try dsimp only
  rw [subf_apply, addf_apply, mulf_apply, broadcast_apply]
  refine congrArg₂ (fun a b : EReal => a - b) (congrArg₂ (fun a b : EReal => a + b) ?_ ?_)
    (congrArg (fun a : EReal => ChamferSpec.two * a) ?_)
  · exact (broadcastTo_a1_ab_apply _ _ r c).trans ((shapeCast_a_a1_apply _ _ r 0).trans (pay8_apply x0 r))
  · exact (broadcastTo_1b_ab_apply _ _ r c).trans ((shapeCast_a_1a_apply _ _ 0 c).trans (pay8_apply x2 c))
  · refine (matmul_nt_apply _ _ _ _ r c).trans ?_
    unfold dotb
    refine Finset.sum_congr rfl fun d _ => ?_
    exact congrArg₂ (fun a b : EReal => a * b) (pay7_apply x0 r d) (pay7_apply x2 c d)

/-- The first matrix's row minima: at r, the meet of row r of the tile. -/
theorem pay11_apply (x0 x1 : Vec Ideal S1x1024x3 .f32) (r : Fin 1024) :
    k0_pay11 (F := Ideal) x0 x1 (ix1 r) = Finset.univ.inf fun c : Fin 1024 => tileD x0 x1 r c := by
  unfold k0_pay11
  refine (reduce_min_row_apply _ _ _ _ r).trans ?_
  exact congrArg (Finset.univ.inf) (funext fun c => pay9_apply x0 x1 r c)

/-- A row slice lowered by given row minima: entrywise the smaller of the two. -/
theorem pay12_apply (v35 : FVec Ideal S1024 .f32) (v44 : Vec Ideal S1x1024 .f32) (u : Fin 1) (j : Fin 1024) :
    k0_pay12 (F := Ideal) v35 v44 (ix2 u j) = min (v44 (ix2 u j) : EReal) (v35 (ix1 j)) := by
  unfold k0_pay12
  try dsimp only
  rw [shapeCast_self, minimumf_apply]
  exact congrArg (fun a : EReal => min (v44 (ix2 u j) : EReal) a) (shapeCast_a_1a_apply _ _ u j)

/-- A row slice lowered by a matrix's row minima. -/
theorem pay13_apply (v34 : FVec Ideal S1024x1024 .f32) (v52 : Vec Ideal S1x1024 .f32) (u : Fin 1) (j : Fin 1024) :
    k0_pay13 (F := Ideal) v34 v52 (ix2 u j) = min (v52 (ix2 u j) : EReal) (Finset.univ.inf fun c : Fin 1024 => (v34 (ix2 j c) : EReal)) := by
  unfold k0_pay13
  try dsimp only
  rw [shapeCast_self, minimumf_apply]
  exact congrArg (fun a : EReal => min (v52 (ix2 u j) : EReal) a)
    ((shapeCast_a_1a_apply _ _ u j).trans (reduce_min_row_apply v34 _ _ _ j))

/-- A column slice lowered by a matrix's column minima. -/
theorem pay14_apply (v25 : FVec Ideal S1024x1024 .f32) (v60 : Vec Ideal S1x1024 .f32) (u : Fin 1) (j : Fin 1024) :
    k0_pay14 (F := Ideal) v25 v60 (ix2 u j) = min (v60 (ix2 u j) : EReal) (Finset.univ.inf fun r : Fin 1024 => (v25 (ix2 r j) : EReal)) := by
  unfold k0_pay14
  try dsimp only
  rw [shapeCast_self, minimumf_apply]
  exact congrArg (fun a : EReal => min (v60 (ix2 u j) : EReal) a)
    ((shapeCast_a_1a_apply _ _ u j).trans (reduce_min_col_apply v25 _ _ _ j))

/-- The same for the second matrix. -/
theorem pay15_apply (v34 : FVec Ideal S1024x1024 .f32) (v68 : Vec Ideal S1x1024 .f32) (u : Fin 1) (j : Fin 1024) :
    k0_pay15 (F := Ideal) v34 v68 (ix2 u j) = min (v68 (ix2 u j) : EReal) (Finset.univ.inf fun r : Fin 1024 => (v34 (ix2 r j) : EReal)) := by
  unfold k0_pay15
  try dsimp only
  rw [shapeCast_self, minimumf_apply]
  exact congrArg (fun a : EReal => min (v68 (ix2 u j) : EReal) a)
    ((shapeCast_a_1a_apply _ _ u j).trans (reduce_min_col_apply v34 _ _ _ j))

/-- The reset rows are +∞ everywhere. -/
theorem pay3_apply (y : S1x4096.Idx) : (k0_pay3 (F := Ideal) y : EReal) = ⊤ := by
  unfold k0_pay3
  try dsimp only
  rw [shapeCast_self, broadcast_apply]
  exact ofBits_inf_f32
theorem pay4_apply (y : S1x4096.Idx) : (k0_pay4 (F := Ideal) y : EReal) = ⊤ := by
  unfold k0_pay4
  try dsimp only
  rw [shapeCast_self, broadcast_apply]
  exact ofBits_inf_f32
theorem pay5_apply (y : S1x4096.Idx) : (k0_pay5 (F := Ideal) y : EReal) = ⊤ := by
  unfold k0_pay5
  try dsimp only
  rw [shapeCast_self, broadcast_apply]
  exact ofBits_inf_f32
theorem pay6_apply (y : S1x4096.Idx) : (k0_pay6 (F := Ideal) y : EReal) = ⊤ := by
  unfold k0_pay6
  try dsimp only
  rw [shapeCast_self, broadcast_apply]
  exact ofBits_inf_f32

end Cert.KernelIdeal.KVal

end
-- ==== Proof.KValStep.lean ====
/-
  One point's update of a scratch row, read entry by entry, is one tile's fold into the running minima.

  A row of 4096 running minima whose 1024-slice from offset o is replaced by the entrywise minimum of the slice and
  1024 given numbers reads, at entry q, the smaller of the old entry and the given number q − o when o ≤ q < o + 1024,
  and the old entry otherwise.  When the query block holds the points 1024·n … 1024·n + 1023 of a cloud X and the target
  block the points 1024·m … 1024·m + 1023 of a cloud Y, the tile's matrix is the (n, m) tile of dist X Y, so the
  update of the row minima is the fold of tile (n, m) into them, and likewise for the column minima.
-/
import proofs.«126651_j14345190769122_2_alg».proof.Proof.KStep
import proofs.«126651_j14345190769122_2_alg».proof.Proof.TileMin
import proofs.«126651_j14345190769122_2_alg».proof.Proof.KValTile

noncomputable section

open scoped BigOperators

namespace Cert.KernelIdeal.KVal

open Cert.KernelIdeal Cert.KernelIdeal.Gen Idealize.ShloMosaic Idealize.ShloMosaic.ValueIdx

/-- The offsets of the query slice at every point: column 1024 · (second grid coordinate). -/
theorem off1_eq : ∀ t : Fin grid0.N, k0_off1 (grid0.coords t) = ![0, 1024 * ((t.val / 4) % 4)] := by decide +kernel
/-- The offsets of the target slice at every point: column 1024 · (third grid coordinate). -/
theorem off2_eq : ∀ t : Fin grid0.N, k0_off2 (grid0.coords t) = ![0, 1024 * (t.val % 4)] := by decide +kernel

section Slice
variable {α : Type}

/-- Entry q − o of the slice from offset o sits at entry q of the row. -/
theorem slice_idx (off : Fin 2 → ℕ) (inb : ∀ a, off a + S1x1024.size a ≤ S1x4096.size a) (o : ℕ) (hoff : off = ![0, o])
    (q : Fin 4096) (h : o ≤ q.val ∧ q.val < o + 1024) :
    (Rect.unit (s := S1x4096) off S1x1024.size inb).idx (ix2 (0 : Fin 1) (⟨q.val - o, by omega⟩ : Fin 1024)) = ix2 (0 : Fin 1) q := by
  subst hoff
  funext a; apply Fin.ext
  match a with
  | ⟨0, _⟩ => rfl
  | ⟨1, _⟩ => show o + 1 * (q.val - o) = q.val; omega

/-- A row with its slice from offset o replaced, read at entry q. -/
theorem overlay_slice_apply (off : Fin 2 → ℕ) (inb : ∀ a, off a + S1x1024.size a ≤ S1x4096.size a) (o : ℕ) (hoff : off = ![0, o])
    (X : S1x4096.Idx → α) (G : S1x1024.Idx → α) (q : Fin 4096) :
    (Rect.unit (s := S1x4096) off S1x1024.size inb).overlay X G (ix2 (0 : Fin 1) q)
      = if h : o ≤ q.val ∧ q.val < o + 1024 then G (ix2 (0 : Fin 1) (⟨q.val - o, by omega⟩ : Fin 1024)) else X (ix2 (0 : Fin 1) q) := by
  by_cases h : o ≤ q.val ∧ q.val < o + 1024
  · rw [dif_pos h]
    have e := slice_idx off inb o hoff q h
    exact (congrArg ((Rect.unit (s := S1x4096) off S1x1024.size inb).overlay X G) e.symm).trans
      (Rect.overlay_emb (Rect.unit (s := S1x4096) off S1x1024.size inb) X G _)
  · rw [dif_neg h]
    have hnm : ix2 (0 : Fin 1) q ∉ (Rect.unit (s := S1x4096) off S1x1024.size inb).set := by
      rw [Rect.mem_set_unit]
      intro hm
      have h1 := hm 1
      rw [hoff] at h1
      exact h h1
    exact Rect.overlay_of_not_mem (Rect.unit (s := S1x4096) off S1x1024.size inb) X G hnm

end Slice

section Tile
variable (x0 x1 : Vec Ideal S1x1024x3 .f32)

/-- When the two blocks hold the points of row-block n of X and of column-block m of Y, the tile's matrix is the
    (n, m) tile of dist X Y. -/
theorem tileD_eq (X Y : ChamferSpec.Cloud) (n m : Fin 4)
    (h0 : ∀ (r : Fin 1024) (d : Fin 3), (x0 (ix3 (0 : Fin 1) r d) : EReal) = X (TileMin.cell n r) d)
    (h1 : ∀ (c : Fin 1024) (d : Fin 3), (x1 (ix3 (0 : Fin 1) c d) : EReal) = Y (TileMin.cell m c) d) (r c : Fin 1024) :
    tileD x0 x1 r c = ChamferSpec.dist X Y (TileMin.cell n r) (TileMin.cell m c) := by
  unfold tileD ChamferSpec.dist sqb dotb ChamferSpec.sq ChamferSpec.dot
  simp only [h0, h1]

/-- Row 0 after a point, entry by entry. -/
theorem upd0_apply (i : grid0.Coords) (o : ℕ) (hoff : k0_off1 i = ![0, o]) (s : Vec Ideal S1x4096 .f32) (q : Fin 4096) :
    (KStep.upd0 i x0 x1 s (ix2 (0 : Fin 1) q) : EReal)
      = if h : o ≤ q.val ∧ q.val < o + 1024 then
          min (s (ix2 (0 : Fin 1) q) : EReal) (Finset.univ.inf fun c : Fin 1024 => tileD x0 x1 ⟨q.val - o, by omega⟩ c)
        else s (ix2 (0 : Fin 1) q) := by
  unfold KStep.upd0
  refine (overlay_slice_apply (k0_off1 i) (k0_off1_inb i) o hoff s _ q).trans ?_
  by_cases h : o ≤ q.val ∧ q.val < o + 1024
  · rw [dif_pos h, dif_pos h]
    refine (pay12_apply _ _ 0 _).trans ?_
    exact congrArg₂ (fun a b : EReal => min a b) (congrArg s (slice_idx (k0_off1 i) (k0_off1_inb i) o hoff q h))
      (pay11_apply x0 x1 _)
  · rw [dif_neg h, dif_neg h]

/-- Row 1 after a point. -/
theorem upd1_apply (i : grid0.Coords) (o : ℕ) (hoff : k0_off1 i = ![0, o]) (s : Vec Ideal S1x4096 .f32) (q : Fin 4096) :
    (KStep.upd1 i x0 x1 s (ix2 (0 : Fin 1) q) : EReal)
      = if h : o ≤ q.val ∧ q.val < o + 1024 then
          min (s (ix2 (0 : Fin 1) q) : EReal) (Finset.univ.inf fun c : Fin 1024 => tileD x0 x1 ⟨q.val - o, by omega⟩ c)
        else s (ix2 (0 : Fin 1) q) := by
  unfold KStep.upd1
  refine (overlay_slice_apply (k0_off1 i) (k0_off1_inb i) o hoff s _ q).trans ?_
  by_cases h : o ≤ q.val ∧ q.val < o + 1024
  · rw [dif_pos h, dif_pos h]
    refine (pay13_apply _ _ 0 _).trans ?_
    exact congrArg₂ (fun a b : EReal => min a b) (congrArg s (slice_idx (k0_off1 i) (k0_off1_inb i) o hoff q h))
      (congrArg Finset.univ.inf (funext fun c => pay10_apply x0 x1 _ c))
  · rw [dif_neg h, dif_neg h]

/-- Row 2 after a point. -/
theorem upd2_apply (i : grid0.Coords) (o : ℕ) (hoff : k0_off2 i = ![0, o]) (s : Vec Ideal S1x4096 .f32) (q : Fin 4096) :
    (KStep.upd2 i x0 x1 s (ix2 (0 : Fin 1) q) : EReal)
      = if h : o ≤ q.val ∧ q.val < o + 1024 then
          min (s (ix2 (0 : Fin 1) q) : EReal) (Finset.univ.inf fun r : Fin 1024 => tileD x0 x1 r ⟨q.val - o, by omega⟩)
        else s (ix2 (0 : Fin 1) q) := by
  unfold KStep.upd2
  refine (overlay_slice_apply (k0_off2 i) (k0_off2_inb i) o hoff s _ q).trans ?_
  by_cases h : o ≤ q.val ∧ q.val < o + 1024
  · rw [dif_pos h, dif_pos h]
    refine (pay14_apply _ _ 0 _).trans ?_
    exact congrArg₂ (fun a b : EReal => min a b) (congrArg s (slice_idx (k0_off2 i) (k0_off2_inb i) o hoff q h))
      (congrArg Finset.univ.inf (funext fun r => pay9_apply x0 x1 r _))
  · rw [dif_neg h, dif_neg h]

/-- Row 3 after a point. -/
theorem upd3_apply (i : grid0.Coords) (o : ℕ) (hoff : k0_off2 i = ![0, o]) (s : Vec Ideal S1x4096 .f32) (q : Fin 4096) :
    (KStep.upd3 i x0 x1 s (ix2 (0 : Fin 1) q) : EReal)
      = if h : o ≤ q.val ∧ q.val < o + 1024 then
          min (s (ix2 (0 : Fin 1) q) : EReal) (Finset.univ.inf fun r : Fin 1024 => tileD x0 x1 r ⟨q.val - o, by omega⟩)
        else s (ix2 (0 : Fin 1) q) := by
  unfold KStep.upd3
  refine (overlay_slice_apply (k0_off2 i) (k0_off2_inb i) o hoff s _ q).trans ?_
  by_cases h : o ≤ q.val ∧ q.val < o + 1024
  · rw [dif_pos h, dif_pos h]
    refine (pay15_apply _ _ 0 _).trans ?_
    exact congrArg₂ (fun a b : EReal => min a b) (congrArg s (slice_idx (k0_off2 i) (k0_off2_inb i) o hoff q h))
      (congrArg Finset.univ.inf (funext fun r => pay10_apply x0 x1 r _))
  · rw [dif_neg h, dif_neg h]

end Tile

/-- The entrywise update of the row minima by a tile that is the (n, m) tile of D is the fold of that tile. -/
theorem row_eq_stepRow (D : Fin 4096 → Fin 4096 → EReal) (n m : Fin 4) (T : Fin 1024 → Fin 1024 → EReal)
    (hT : ∀ r c, T r c = D (TileMin.cell n r) (TileMin.cell m c)) (R : Fin 4096 → EReal) :
    (fun q : Fin 4096 => if h : 1024 * n.val ≤ q.val ∧ q.val < 1024 * n.val + 1024 then
        min (R q) (Finset.univ.inf fun c : Fin 1024 => T ⟨q.val - 1024 * n.val, by omega⟩ c) else R q)
      = TileMin.stepRow D n m R := by
  funext q
  unfold TileMin.stepRow
  have hn := n.isLt
  by_cases hq : q.val / 1024 = n.val
  · have h : 1024 * n.val ≤ q.val ∧ q.val < 1024 * n.val + 1024 := by omega
    rw [dif_pos h, if_pos hq]
    refine congrArg (fun a : EReal => min (R q) a) (congrArg Finset.univ.inf (funext fun c => ?_))
    rw [hT]
    exact congrArg (fun j => D j (TileMin.cell m c))
      (Fin.ext (by show 1024 * n.val + (q.val - 1024 * n.val) = q.val; omega))
  · have h : ¬ (1024 * n.val ≤ q.val ∧ q.val < 1024 * n.val + 1024) := by omega
    rw [dif_neg h, if_neg hq]

/-- The entrywise update of the column minima likewise. -/
theorem col_eq_stepCol (D : Fin 4096 → Fin 4096 → EReal) (n m : Fin 4) (T : Fin 1024 → Fin 1024 → EReal)
    (hT : ∀ r c, T r c = D (TileMin.cell n r) (TileMin.cell m c)) (C : Fin 4096 → EReal) :
    (fun q : Fin 4096 => if h : 1024 * m.val ≤ q.val ∧ q.val < 1024 * m.val + 1024 then
        min (C q) (Finset.univ.inf fun r : Fin 1024 => T r ⟨q.val - 1024 * m.val, by omega⟩) else C q)
      = TileMin.stepCol D n m C := by
  funext q
  unfold TileMin.stepCol
  have hm := m.isLt
  by_cases hq : q.val / 1024 = m.val
  · have h : 1024 * m.val ≤ q.val ∧ q.val < 1024 * m.val + 1024 := by omega
    rw [dif_pos h, if_pos hq]
    refine congrArg (fun a : EReal => min (C q) a) (congrArg Finset.univ.inf (funext fun r => ?_))
    rw [hT]
    exact congrArg (fun j => D (TileMin.cell n r) j)
      (Fin.ext (by show 1024 * m.val + (q.val - 1024 * m.val) = q.val; omega))
  · have h : ¬ (1024 * m.val ≤ q.val ∧ q.val < 1024 * m.val + 1024) := by omega
    rw [dif_neg h, if_neg hq]

end Cert.KernelIdeal.KVal

end
-- ==== Proof.KValOut.lean ====
/-
  The output block at an index: the mean of one row of running minima plus the mean of another.

  The sum of a row of 4096 numbers divided by the count, for two rows, added; the result is spread over the 128 lanes of
  the output block, so every lane reads the same value.
-/
import proofs.«126651_j14345190769122_2_alg».proof.Proof.KValTile

noncomputable section

open scoped BigOperators

namespace Cert.KernelIdeal.KVal

open Cert.KernelIdeal Cert.KernelIdeal.Gen Idealize.ShloMosaic Idealize.ShloMosaic.ValueIdx

/-- The first output block at any lane. -/
theorem pay1_apply (v80 v85 : Vec Ideal S1x4096 .f32) (y : S1x1x128.Idx) :
    (k0_pay1 (F := Ideal) v80 v85 y : EReal)
      = Ideal.div (∑ j : Fin 4096, (v80 (ix2 (0 : Fin 1) j) : EReal)) ChamferSpec.count
        + Ideal.div (∑ j : Fin 4096, (v85 (ix2 (0 : Fin 1) j) : EReal)) ChamferSpec.count := by
  obtain ⟨u0, u1, l, rfl⟩ : ∃ (u0 : Fin 1) (u1 : Fin 1) (l : Fin 128), y = ix3 u0 u1 l := ⟨y 0, y 1, y 2, eq_ix3 y⟩
  obtain rfl : u1 = 0 := Subsingleton.elim _ _
  unfold k0_pay1
  try dsimp only
  refine (shapeCast_ab_1ab_apply _ _ u0 0 l).trans ?_
  refine (broadcastTo_a1_ab_apply _ _ 0 l).trans ?_
  rw [shapeCast_self, addf_apply, divf_apply, divf_apply, broadcast_apply]
  refine congrArg₂ (fun a b : EReal => a + b) (congrArg (fun a : EReal => Ideal.div a ChamferSpec.count) ?_)
    (congrArg (fun a : EReal => Ideal.div a ChamferSpec.count) ?_)
  · exact (shapeCast_a_a1_apply _ _ 0 0).trans (reduce_add_row_apply v80 _ _ _ 0)
  · exact (shapeCast_a_a1_apply _ _ 0 0).trans (reduce_add_row_apply v85 _ _ _ 0)

/-- The second output block at any lane. -/
theorem pay2_apply (v91 v96 : Vec Ideal S1x4096 .f32) (y : S1x1x128.Idx) :
    (k0_pay2 (F := Ideal) v91 v96 y : EReal)
      = Ideal.div (∑ j : Fin 4096, (v91 (ix2 (0 : Fin 1) j) : EReal)) ChamferSpec.count
        + Ideal.div (∑ j : Fin 4096, (v96 (ix2 (0 : Fin 1) j) : EReal)) ChamferSpec.count := by
  obtain ⟨u0, u1, l, rfl⟩ : ∃ (u0 : Fin 1) (u1 : Fin 1) (l : Fin 128), y = ix3 u0 u1 l := ⟨y 0, y 1, y 2, eq_ix3 y⟩
  obtain rfl : u1 = 0 := Subsingleton.elim _ _
  unfold k0_pay2
  try dsimp only
  refine (shapeCast_ab_1ab_apply _ _ u0 0 l).trans ?_
  refine (broadcastTo_a1_ab_apply _ _ 0 l).trans ?_
  rw [shapeCast_self, addf_apply, divf_apply, divf_apply, broadcast_apply]
  refine congrArg₂ (fun a b : EReal => a + b) (congrArg (fun a : EReal => Ideal.div a ChamferSpec.count) ?_)
    (congrArg (fun a : EReal => Ideal.div a ChamferSpec.count) ?_)
  · exact (shapeCast_a_a1_apply _ _ 0 0).trans (reduce_add_row_apply v91 _ _ _ 0)
  · exact (shapeCast_a_a1_apply _ _ 0 0).trans (reduce_add_row_apply v96 _ _ _ 0)

end Cert.KernelIdeal.KVal

end
-- ==== Proof.KVal.lean ====
/-
  The kernel's arithmetic over one batch entry is the chamfer distance.

  Over the sixteen points of batch entry b the query blocks run through the four row-blocks of the moved source cloud
  and the target blocks through the four column-blocks of a target cloud, tile number k = 4 n + m at point 16 b + k.
  By induction on k the four scratch rows after point 16 b + k are the running row and column minima of the two distance
  matrices after tiles 0 … k, started from +∞ at k = 0.  After the sixteenth tile they are the row minima and the column
  minima of the whole matrices, and the output block is the sum of the row minima over the count plus the sum of the
  column minima over the count: the chamfer distance of the two clouds.
-/
import proofs.«126651_j14345190769122_2_alg».proof.Proof.KStepFacts
import proofs.«126651_j14345190769122_2_alg».proof.Proof.TileMinFacts
import proofs.«126651_j14345190769122_2_alg».proof.Proof.KValStep
import proofs.«126651_j14345190769122_2_alg».proof.Proof.KValOut

noncomputable section

open scoped BigOperators

namespace Cert.KernelIdeal.KVal

open Cert.KernelIdeal Cert.KernelIdeal.Gen Idealize.ShloMosaic Idealize.ShloMosaic.ValueIdx

/-- A scratch row as 4096 extended reals. -/
abbrev row (s : Vec Ideal S1x4096 .f32) : Fin 4096 → EReal := fun j => s (ix2 (0 : Fin 1) j)

/-- The four rows are the running minima of the two matrices. -/
def RowsAre (s : KStep.Rows Ideal) (p p' : (Fin 4096 → EReal) × (Fin 4096 → EReal)) : Prop :=
  row s.1 = p.1 ∧ row s.2.1 = p'.1 ∧ row s.2.2.1 = p.2 ∧ row s.2.2.2 = p'.2

section Entry
variable (A0 A1 A2 : S8x4096x3.Idx → EReal) (X0 X1 X2 : Fin grid0.N → Vec Ideal S1x1024x3 .f32)
  (hX0 : ∀ (t : Fin grid0.N) (r : Fin 1024) (d : Fin 3) (b : Fin 8) (q : Fin 4096), b.val = t.val / 16 →
    q.val = 1024 * ((t.val / 4) % 4) + r.val → X0 t (ix3 (0 : Fin 1) r d) = A0 (ix3 b q d))
  (hX1 : ∀ (t : Fin grid0.N) (r : Fin 1024) (d : Fin 3) (b : Fin 8) (q : Fin 4096), b.val = t.val / 16 →
    q.val = 1024 * (t.val % 4) + r.val → X1 t (ix3 (0 : Fin 1) r d) = A1 (ix3 b q d))
  (hX2 : ∀ (t : Fin grid0.N) (r : Fin 1024) (d : Fin 3) (b : Fin 8) (q : Fin 4096), b.val = t.val / 16 →
    q.val = 1024 * (t.val % 4) + r.val → X2 t (ix3 (0 : Fin 1) r d) = A2 (ix3 b q d))

include hX0 hX1 hX2

/-- One point folds one tile of each matrix into the four rows. -/
theorem step_rows (t : Fin grid0.N) (b : Fin 8) (k : ℕ) (hk : k < 16) (ht : t.val = 16 * b.val + k)
    (s0 s1 s2 s3 : Vec Ideal S1x4096 .f32) :
    row (KStep.upd0 (grid0.coords t) (X0 t) (X1 t) s0)
        = TileMin.stepRow (ChamferSpec.dist (ChamferSpec.cloud A0 b) (ChamferSpec.cloud A1 b)) (TileMin.tileRow k) (TileMin.tileCol k) (row s0)
    ∧ row (KStep.upd1 (grid0.coords t) (X0 t) (X2 t) s1)
        = TileMin.stepRow (ChamferSpec.dist (ChamferSpec.cloud A0 b) (ChamferSpec.cloud A2 b)) (TileMin.tileRow k) (TileMin.tileCol k) (row s1)
    ∧ row (KStep.upd2 (grid0.coords t) (X0 t) (X1 t) s2)
        = TileMin.stepCol (ChamferSpec.dist (ChamferSpec.cloud A0 b) (ChamferSpec.cloud A1 b)) (TileMin.tileRow k) (TileMin.tileCol k) (row s2)
    ∧ row (KStep.upd3 (grid0.coords t) (X0 t) (X2 t) s3)
        = TileMin.stepCol (ChamferSpec.dist (ChamferSpec.cloud A0 b) (ChamferSpec.cloud A2 b)) (TileMin.tileRow k) (TileMin.tileCol k) (row s3) := by
  have hoff1 : k0_off1 (grid0.coords t) = ![0, 1024 * (TileMin.tileRow k).val] := by
    rw [off1_eq t]
    show ![0, 1024 * ((t.val / 4) % 4)] = ![0, 1024 * ((k / 4) % 4)]
    rw [show (t.val / 4) % 4 = (k / 4) % 4 by omega]
  have hoff2 : k0_off2 (grid0.coords t) = ![0, 1024 * (TileMin.tileCol k).val] := by
    rw [off2_eq t]
    show ![0, 1024 * (t.val % 4)] = ![0, 1024 * (k % 4)]
    rw [show t.val % 4 = k % 4 by omega]
  have h0 : ∀ (r : Fin 1024) (d : Fin 3), (X0 t (ix3 (0 : Fin 1) r d) : EReal) = ChamferSpec.cloud A0 b (TileMin.cell (TileMin.tileRow k) r) d :=
    fun r d => hX0 t r d b (TileMin.cell (TileMin.tileRow k) r) (by omega)
      (by show 1024 * ((k / 4) % 4) + r.val = 1024 * ((t.val / 4) % 4) + r.val; omega)
  have h1 : ∀ (c : Fin 1024) (d : Fin 3), (X1 t (ix3 (0 : Fin 1) c d) : EReal) = ChamferSpec.cloud A1 b (TileMin.cell (TileMin.tileCol k) c) d :=
    fun c d => hX1 t c d b (TileMin.cell (TileMin.tileCol k) c) (by omega)
      (by show 1024 * (k % 4) + c.val = 1024 * (t.val % 4) + c.val; omega)
  have h2 : ∀ (c : Fin 1024) (d : Fin 3), (X2 t (ix3 (0 : Fin 1) c d) : EReal) = ChamferSpec.cloud A2 b (TileMin.cell (TileMin.tileCol k) c) d :=
    fun c d => hX2 t c d b (TileMin.cell (TileMin.tileCol k) c) (by omega)
      (by show 1024 * (k % 4) + c.val = 1024 * (t.val % 4) + c.val; omega)
  have hT := tileD_eq (X0 t) (X1 t) _ _ (TileMin.tileRow k) (TileMin.tileCol k) h0 h1
  have hT' := tileD_eq (X0 t) (X2 t) _ _ (TileMin.tileRow k) (TileMin.tileCol k) h0 h2
  refine ⟨?_, ?_, ?_, ?_⟩
  · exact (funext fun q => upd0_apply (X0 t) (X1 t) (grid0.coords t) _ hoff1 s0 q).trans
      (row_eq_stepRow _ _ _ (tileD (X0 t) (X1 t)) hT (row s0))
  · exact (funext fun q => upd1_apply (X0 t) (X2 t) (grid0.coords t) _ hoff1 s1 q).trans
      (row_eq_stepRow _ _ _ (tileD (X0 t) (X2 t)) hT' (row s1))
  · exact (funext fun q => upd2_apply (X0 t) (X1 t) (grid0.coords t) _ hoff2 s2 q).trans
      (col_eq_stepCol _ _ _ (tileD (X0 t) (X1 t)) hT (row s2))
  · exact (funext fun q => upd3_apply (X0 t) (X2 t) (grid0.coords t) _ hoff2 s3 q).trans
      (col_eq_stepCol _ _ _ (tileD (X0 t) (X2 t)) hT' (row s3))

/-- After point 16 b + k the four rows are the running minima after tiles 0 … k. -/
theorem scr_rows (b : Fin 8) (k : ℕ) : ∀ (t : ℕ) (ht : t < grid0.N), k < 16 → t = 16 * b.val + k →
    RowsAre (KStep.scr X0 X1 X2 t ht)
      (TileMin.run (ChamferSpec.dist (ChamferSpec.cloud A0 b) (ChamferSpec.cloud A1 b)) k)
      (TileMin.run (ChamferSpec.dist (ChamferSpec.cloud A0 b) (ChamferSpec.cloud A2 b)) k) := by
  induction k with
  | zero =>
    intro t ht hk e
    have h := KStep.scr_first X0 X1 X2 ⟨t, ht⟩ (by show t % 16 = 0; omega)
    obtain ⟨a0, a1, a2, a3⟩ := step_rows A0 A1 A2 X0 X1 X2 hX0 hX1 hX2 ⟨t, ht⟩ b 0 hk e
      (k0_pay3 (F := Ideal)) (k0_pay4 (F := Ideal)) (k0_pay5 (F := Ideal)) (k0_pay6 (F := Ideal))
    have r1 : row (k0_pay3 (F := Ideal)) = fun _ => (⊤ : EReal) := funext fun j => pay3_apply (ix2 (0 : Fin 1) j)
    have r2 : row (k0_pay4 (F := Ideal)) = fun _ => (⊤ : EReal) := funext fun j => pay4_apply (ix2 (0 : Fin 1) j)
    have r3 : row (k0_pay5 (F := Ideal)) = fun _ => (⊤ : EReal) := funext fun j => pay5_apply (ix2 (0 : Fin 1) j)
    have r4 : row (k0_pay6 (F := Ideal)) = fun _ => (⊤ : EReal) := funext fun j => pay6_apply (ix2 (0 : Fin 1) j)
    rw [r1] at a0
    rw [r2] at a1
    rw [r3] at a2
    rw [r4] at a3
    unfold RowsAre
    rw [show KStep.scr X0 X1 X2 t ht = _ from h]
    unfold KStep.step KStep.reset
    dsimp only
    refine ⟨?_, ?_, ?_, ?_⟩
    · exact a0
    · exact a1
    · exact a2
    · exact a3
  | succ k ih =>
    intro t ht hk e
    have h := KStep.scr_next X0 X1 X2 ⟨t, ht⟩ (by show ¬ t % 16 = 0; omega)
    have ihh := ih (t - 1) (Nat.lt_of_le_of_lt (Nat.sub_le _ _) ht) (by omega) (by omega)
    unfold RowsAre at ihh
    obtain ⟨a0, a1, a2, a3⟩ := step_rows A0 A1 A2 X0 X1 X2 hX0 hX1 hX2 ⟨t, ht⟩ b (k + 1) hk e
      (KStep.scr X0 X1 X2 (t - 1) (Nat.lt_of_le_of_lt (Nat.sub_le _ _) ht)).1
      (KStep.scr X0 X1 X2 (t - 1) (Nat.lt_of_le_of_lt (Nat.sub_le _ _) ht)).2.1
      (KStep.scr X0 X1 X2 (t - 1) (Nat.lt_of_le_of_lt (Nat.sub_le _ _) ht)).2.2.1
      (KStep.scr X0 X1 X2 (t - 1) (Nat.lt_of_le_of_lt (Nat.sub_le _ _) ht)).2.2.2
    rw [ihh.1] at a0
    rw [ihh.2.1] at a1
    rw [ihh.2.2.1] at a2
    rw [ihh.2.2.2] at a3
    unfold RowsAre
    rw [show KStep.scr X0 X1 X2 t ht = _ from h]
    unfold KStep.step
    dsimp only
    refine ⟨?_, ?_, ?_, ?_⟩
    · exact a0
    · exact a1
    · exact a2
    · exact a3

/-- The first output at a batch entry's last point: the chamfer distance to the target cloud. -/
theorem outA_eq (b : Fin 8) (t : ℕ) (ht : t < grid0.N) (hb : t = 16 * b.val + 15) (y : S1x1x128.Idx) :
    KStep.outA (KStep.scr X0 X1 X2 t ht) y = ChamferSpec.chamfer (ChamferSpec.cloud A0 b) (ChamferSpec.cloud A1 b) := by
  have hr := scr_rows A0 A1 A2 X0 X1 X2 hX0 hX1 hX2 b 15 t ht (by norm_num) hb
  unfold RowsAre at hr
  unfold KStep.outA
  refine (pay1_apply _ _ y).trans ?_
  have e1 : (fun j : Fin 4096 => ((KStep.scr X0 X1 X2 t ht).1 (ix2 (0 : Fin 1) j) : EReal))
      = fun j => Finset.univ.inf fun m : Fin 4096 => ChamferSpec.dist (ChamferSpec.cloud A0 b) (ChamferSpec.cloud A1 b) j m :=
    hr.1.trans (TileMin.run_rows _)
  have e2 : (fun j : Fin 4096 => ((KStep.scr X0 X1 X2 t ht).2.2.1 (ix2 (0 : Fin 1) j) : EReal))
      = fun j => Finset.univ.inf fun n : Fin 4096 => ChamferSpec.dist (ChamferSpec.cloud A0 b) (ChamferSpec.cloud A1 b) n j :=
    hr.2.2.1.trans (TileMin.run_cols _)
  unfold ChamferSpec.chamfer ChamferSpec.rowMin ChamferSpec.colMin
  exact congrArg₂ (fun a c : EReal => Ideal.div a ChamferSpec.count + Ideal.div c ChamferSpec.count)
    (congrArg (fun f : Fin 4096 → EReal => ∑ j, f j) e1) (congrArg (fun f : Fin 4096 → EReal => ∑ j, f j) e2)

/-- The second output: the chamfer distance to the cloud moved by the other transform. -/
theorem outB_eq (b : Fin 8) (t : ℕ) (ht : t < grid0.N) (hb : t = 16 * b.val + 15) (y : S1x1x128.Idx) :
    KStep.outB (KStep.scr X0 X1 X2 t ht) y = ChamferSpec.chamfer (ChamferSpec.cloud A0 b) (ChamferSpec.cloud A2 b) := by
  have hr := scr_rows A0 A1 A2 X0 X1 X2 hX0 hX1 hX2 b 15 t ht (by norm_num) hb
  unfold RowsAre at hr
  unfold KStep.outB
  refine (pay2_apply _ _ y).trans ?_
  have e1 : (fun j : Fin 4096 => ((KStep.scr X0 X1 X2 t ht).2.1 (ix2 (0 : Fin 1) j) : EReal))
      = fun j => Finset.univ.inf fun m : Fin 4096 => ChamferSpec.dist (ChamferSpec.cloud A0 b) (ChamferSpec.cloud A2 b) j m :=
    hr.2.1.trans (TileMin.run_rows _)
  have e2 : (fun j : Fin 4096 => ((KStep.scr X0 X1 X2 t ht).2.2.2 (ix2 (0 : Fin 1) j) : EReal))
      = fun j => Finset.univ.inf fun n : Fin 4096 => ChamferSpec.dist (ChamferSpec.cloud A0 b) (ChamferSpec.cloud A2 b) n j :=
    hr.2.2.2.trans (TileMin.run_cols _)
  unfold ChamferSpec.chamfer ChamferSpec.rowMin ChamferSpec.colMin
  exact congrArg₂ (fun a c : EReal => Ideal.div a ChamferSpec.count + Ideal.div c ChamferSpec.count)
    (congrArg (fun f : Fin 4096 → EReal => ∑ j, f j) e1) (congrArg (fun f : Fin 4096 → EReal => ∑ j, f j) e2)

end Entry

end Cert.KernelIdeal.KVal

end
-- ==== Proof.KHost.lean ====
/-
  The host arithmetic that follows the tiled computation.

  From the two per-batch values the tiled computation leaves (one in every lane of a row; lane 0 is read) and the
  two transforms, the program forms, per batch entry b,
      tr₁ b = the square root of the sum of the squared differences of the transforms' 3×3 blocks,
      tr₂ b = the square root of the sum of the squared differences of their translation columns,
      total b = (ch b + (tr₁ b + tr₂ b)) + ½ · tch b,
  and returns the four batch means of total, ch, tr₁ + tr₂, tch, each mean a sum from zero over the eight entries
  divided by the float word of 8, laid side by side in a vector of four.

  This module names each of these values as a function of what the buffers hold before the operations, proves that the
  straight line of operations computes the named term (in three stretches, the contents between two stretches
  arbitrary), and reads the term at each of the four positions.  The two square roots stay closed: nothing below looks
  inside them.
-/
import proofs.«126651_j14345190769122_2_alg».proof.Proof.Gen.KernelIdeal.Launch
import proofs.«126651_j14345190769122_2_alg».proof.Proof.Spec
import proofs.«126651_j14345190769122_2_alg».proof.Proof.LibHostFold
import Idealize.ShloMosaic.Lib.Pipeline.Value
import Idealize.ShloMosaic.Lib.ValueIdx
import Idealize.ShloMosaic.PureOps.Ideal.Laws

noncomputable section

namespace Cert.KernelIdeal.KHost

open Cert.KernelIdeal Cert.KernelIdeal.Gen Idealize.ShloMosaic Idealize.ShloMosaic.TcCoe Idealize.SL.Sem
open Idealize.ShloMosaic.StableHlo Idealize.ShloMosaic.ValueIdx
open scoped BigOperators

variable {F : FTy → Type} [FloatOps F]

/-- Contents of a float buffer of shape s. -/
abbrev Arr (F : FTy → Type) (s : Shape) := (⟨s, .f32⟩ : BufTy).Contents (Elt F)

/-! ## The values, named (for any float values; read at the ideal ones further down) -/

/-- The square root of the sum, over the 3×3 block, of the squared differences of two transforms. -/
def tr1G (a0 a1 : Arr F S8x4x4) : Arr F S8 :=
  Host.sqrt (Host.reduceAdd
    (mulf (subf (extractStridedSlice S8x3x3 ![0, 0, 0] a0 slices_S8x4x4_S8x3x3_0_0_0)
                (extractStridedSlice S8x3x3 ![0, 0, 0] a1 slices_S8x4x4_S8x3x3_0_0_0))
          (subf (extractStridedSlice S8x3x3 ![0, 0, 0] a0 slices_S8x4x4_S8x3x3_0_0_0)
                (extractStridedSlice S8x3x3 ![0, 0, 0] a1 slices_S8x4x4_S8x3x3_0_0_0)))
    (constant S_ .f32 0x00000000#32) reducesTo_S8x3x3_S8_d1_2 h_S_)

/-- The square root of the sum, over the translation column, of the squared differences of two transforms. -/
def tr2G (a0 a1 : Arr F S8x4x4) : Arr F S8 :=
  Host.sqrt (Host.reduceAdd
    (mulf (subf (shapeCast S8x3 (extractStridedSlice S8x3x1 ![0, 0, 3] a0 slices_S8x4x4_S8x3x1_0_0_3) shapeCasts_S8x3x1_S8x3)
                (shapeCast S8x3 (extractStridedSlice S8x3x1 ![0, 0, 3] a1 slices_S8x4x4_S8x3x1_0_0_3) shapeCasts_S8x3x1_S8x3))
          (subf (shapeCast S8x3 (extractStridedSlice S8x3x1 ![0, 0, 3] a0 slices_S8x4x4_S8x3x1_0_0_3) shapeCasts_S8x3x1_S8x3)
                (shapeCast S8x3 (extractStridedSlice S8x3x1 ![0, 0, 3] a1 slices_S8x4x4_S8x3x1_0_0_3) shapeCasts_S8x3x1_S8x3)))
    (constant S_ .f32 0x00000000#32) reducesTo_S8x3_S8_d1 h_S_)

/-- Lane 0 of each row of a [8, 1, 128] array, as a vector of eight. -/
def lane0 (v : Arr F S8x1x128) : Arr F S8 :=
  shapeCast S8 (extractStridedSlice S8x1x1 ![0, 0, 0] v slices_S8x1x128_S8x1x1_0_0_0) shapeCasts_S8x1x1_S8

/-- tr₁ + tr₂. -/
def trSum (a0 a1 : Arr F S8x4x4) : Arr F S8 := addf (tr1G a0 a1) (tr2G a0 a1)

/-- (ch + tr) + ½ · tch, from the three vectors. -/
def totalOf (ch tr tch : Arr F S8) : Arr F S8 :=
  addf (addf ch tr) (mulf (broadcastInDim S8 ![] bcast_S_S8 (constant S_ .f32 0x3F000000#32 : Arr F S_)) tch)

/-- The sum from zero of a vector of eight, divided by the float word of 8. -/
def meanV (x : Arr F S8) : Arr F S_ :=
  Host.divf (Host.reduceAdd x (constant S_ .f32 0x00000000#32) reducesTo_S8_S_d0 h_S_) (constant S_ .f32 0x41000000#32)

/-- A scalar as a vector of one. -/
def one1 (x : Arr F S_) : Arr F S1 := broadcastInDim S1 ![] bcast_S_S1 x

/-- Four means side by side. -/
def outOf (tot ch tr tch : Arr F S8) : Arr F S4 :=
  concatenate S4 0 [⟨S1, one1 (meanV tot)⟩, ⟨S1, one1 (meanV ch)⟩, ⟨S1, one1 (meanV tr)⟩, ⟨S1, one1 (meanV tch)⟩]
    concatenates_S1_S1_S1_S1_S4_d0

/-! ## The straight line, in three stretches -/

/-- The first stretch: the lane-0 vectors and the transform discrepancy. -/
abbrev opsA : List (HloOp τ sig (Elt F)) :=
  [ StableHlo.unary main_v6_0 main_v7 ((extractStridedSlice S8x1x1 ![0, 0, 0] · slices_S8x1x128_S8x1x1_0_0_0) : (⟨S8x1x128, .f32⟩ : BufTy).Contents (Elt F) → (⟨S8x1x1, .f32⟩ : BufTy).Contents (Elt F)),
    StableHlo.reshape main_v7 main_v8 rfl shapeCasts_S8x1x1_S8,
    StableHlo.unary main_v6_1 main_v9 ((extractStridedSlice S8x1x1 ![0, 0, 0] · slices_S8x1x128_S8x1x1_0_0_0) : (⟨S8x1x128, .f32⟩ : BufTy).Contents (Elt F) → (⟨S8x1x1, .f32⟩ : BufTy).Contents (Elt F)),
    StableHlo.reshape main_v9 main_v10 rfl shapeCasts_S8x1x1_S8,
    StableHlo.unary main_arg0 main_v11 ((extractStridedSlice S8x3x3 ![0, 0, 0] · slices_S8x4x4_S8x3x3_0_0_0) : (⟨S8x4x4, .f32⟩ : BufTy).Contents (Elt F) → (⟨S8x3x3, .f32⟩ : BufTy).Contents (Elt F)),
    StableHlo.unary main_arg1 main_v12 ((extractStridedSlice S8x3x3 ![0, 0, 0] · slices_S8x4x4_S8x3x3_0_0_0) : (⟨S8x4x4, .f32⟩ : BufTy).Contents (Elt F) → (⟨S8x3x3, .f32⟩ : BufTy).Contents (Elt F)),
    StableHlo.binary main_v11 main_v12 main_v13 (subf : (⟨S8x3x3, .f32⟩ : BufTy).Contents (Elt F) → (⟨S8x3x3, .f32⟩ : BufTy).Contents (Elt F) → (⟨S8x3x3, .f32⟩ : BufTy).Contents (Elt F)),
    StableHlo.unary main_arg0 main_v14 ((extractStridedSlice S8x3x1 ![0, 0, 3] · slices_S8x4x4_S8x3x1_0_0_3) : (⟨S8x4x4, .f32⟩ : BufTy).Contents (Elt F) → (⟨S8x3x1, .f32⟩ : BufTy).Contents (Elt F)),
    StableHlo.reshape main_v14 main_v15 rfl shapeCasts_S8x3x1_S8x3,
    StableHlo.unary main_arg1 main_v16 ((extractStridedSlice S8x3x1 ![0, 0, 3] · slices_S8x4x4_S8x3x1_0_0_3) : (⟨S8x4x4, .f32⟩ : BufTy).Contents (Elt F) → (⟨S8x3x1, .f32⟩ : BufTy).Contents (Elt F)),
    StableHlo.reshape main_v16 main_v17 rfl shapeCasts_S8x3x1_S8x3,
    StableHlo.binary main_v15 main_v17 main_v18 (subf : (⟨S8x3, .f32⟩ : BufTy).Contents (Elt F) → (⟨S8x3, .f32⟩ : BufTy).Contents (Elt F) → (⟨S8x3, .f32⟩ : BufTy).Contents (Elt F)),
    StableHlo.binary main_v13 main_v13 main_v19 (mulf : (⟨S8x3x3, .f32⟩ : BufTy).Contents (Elt F) → (⟨S8x3x3, .f32⟩ : BufTy).Contents (Elt F) → (⟨S8x3x3, .f32⟩ : BufTy).Contents (Elt F)),
    StableHlo.nullary main_cst_0 (constant S_ .f32 0x00000000#32),
    StableHlo.binary main_v19 main_cst_0 main_v20 ((fun x v => Host.reduceAdd x v reducesTo_S8x3x3_S8_d1_2 h_S_) : (⟨S8x3x3, .f32⟩ : BufTy).Contents (Elt F) → (⟨S_, .f32⟩ : BufTy).Contents (Elt F) → (⟨S8, .f32⟩ : BufTy).Contents (Elt F)),
    StableHlo.unary main_v20 main_v21 (Host.sqrt : (⟨S8, .f32⟩ : BufTy).Contents (Elt F) → (⟨S8, .f32⟩ : BufTy).Contents (Elt F)),
    StableHlo.binary main_v18 main_v18 main_v22 (mulf : (⟨S8x3, .f32⟩ : BufTy).Contents (Elt F) → (⟨S8x3, .f32⟩ : BufTy).Contents (Elt F) → (⟨S8x3, .f32⟩ : BufTy).Contents (Elt F)),
    StableHlo.nullary main_cst_1 (constant S_ .f32 0x00000000#32),
    StableHlo.binary main_v22 main_cst_1 main_v23 ((fun x v => Host.reduceAdd x v reducesTo_S8x3_S8_d1 h_S_) : (⟨S8x3, .f32⟩ : BufTy).Contents (Elt F) → (⟨S_, .f32⟩ : BufTy).Contents (Elt F) → (⟨S8, .f32⟩ : BufTy).Contents (Elt F)),
    StableHlo.unary main_v23 main_v24 (Host.sqrt : (⟨S8, .f32⟩ : BufTy).Contents (Elt F) → (⟨S8, .f32⟩ : BufTy).Contents (Elt F)),
    StableHlo.binary main_v21 main_v24 main_v25 (addf : (⟨S8, .f32⟩ : BufTy).Contents (Elt F) → (⟨S8, .f32⟩ : BufTy).Contents (Elt F) → (⟨S8, .f32⟩ : BufTy).Contents (Elt F)) ]

/-- The second stretch: the weighted total. -/
abbrev opsB : List (HloOp τ sig (Elt F)) :=
  [ StableHlo.binary main_v8 main_v25 main_v26 (addf : (⟨S8, .f32⟩ : BufTy).Contents (Elt F) → (⟨S8, .f32⟩ : BufTy).Contents (Elt F) → (⟨S8, .f32⟩ : BufTy).Contents (Elt F)),
    StableHlo.nullary main_cst_2 (constant S_ .f32 0x3F000000#32),
    StableHlo.unary main_cst_2 main_v27 (broadcastInDim S8 ![] bcast_S_S8 : (⟨S_, .f32⟩ : BufTy).Contents (Elt F) → (⟨S8, .f32⟩ : BufTy).Contents (Elt F)),
    StableHlo.binary main_v27 main_v10 main_v28 (mulf : (⟨S8, .f32⟩ : BufTy).Contents (Elt F) → (⟨S8, .f32⟩ : BufTy).Contents (Elt F) → (⟨S8, .f32⟩ : BufTy).Contents (Elt F)),
    StableHlo.binary main_v26 main_v28 main_v29 (addf : (⟨S8, .f32⟩ : BufTy).Contents (Elt F) → (⟨S8, .f32⟩ : BufTy).Contents (Elt F) → (⟨S8, .f32⟩ : BufTy).Contents (Elt F)) ]

/-- The third stretch: the four means and their concatenation. -/
abbrev opsC : List (HloOp τ sig (Elt F)) :=
  [ StableHlo.nullary main_cst_3 (constant S_ .f32 0x00000000#32),
    StableHlo.binary main_v29 main_cst_3 main_v30 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    StableHlo.nullary main_cst_4 (constant S_ .f32 0x41000000#32),
    StableHlo.binary main_v30 main_cst_4 main_v31 (Host.divf : (⟨S_, .f32⟩ : BufTy).Contents (Elt F) → (⟨S_, .f32⟩ : BufTy).Contents (Elt F) → (⟨S_, .f32⟩ : BufTy).Contents (Elt F)),
    StableHlo.nullary main_cst_5 (constant S_ .f32 0x00000000#32),
    StableHlo.binary main_v8 main_cst_5 main_v32 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    StableHlo.nullary main_cst_6 (constant S_ .f32 0x41000000#32),
    StableHlo.binary main_v32 main_cst_6 main_v33 (Host.divf : (⟨S_, .f32⟩ : BufTy).Contents (Elt F) → (⟨S_, .f32⟩ : BufTy).Contents (Elt F) → (⟨S_, .f32⟩ : BufTy).Contents (Elt F)),
    StableHlo.nullary main_cst_7 (constant S_ .f32 0x00000000#32),
    StableHlo.binary main_v25 main_cst_7 main_v34 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    StableHlo.nullary main_cst_8 (constant S_ .f32 0x41000000#32),
    StableHlo.binary main_v34 main_cst_8 main_v35 (Host.divf : (⟨S_, .f32⟩ : BufTy).Contents (Elt F) → (⟨S_, .f32⟩ : BufTy).Contents (Elt F) → (⟨S_, .f32⟩ : BufTy).Contents (Elt F)),
    StableHlo.nullary main_cst_9 (constant S_ .f32 0x00000000#32),
    StableHlo.binary main_v10 main_cst_9 main_v36 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    StableHlo.nullary main_cst_10 (constant S_ .f32 0x41000000#32),
    StableHlo.binary main_v36 main_cst_10 main_v37 (Host.divf : (⟨S_, .f32⟩ : BufTy).Contents (Elt F) → (⟨S_, .f32⟩ : BufTy).Contents (Elt F) → (⟨S_, .f32⟩ : BufTy).Contents (Elt F)),
    StableHlo.unary main_v31 main_v38 (broadcastInDim S1 ![] bcast_S_S1 : (⟨S_, .f32⟩ : BufTy).Contents (Elt F) → (⟨S1, .f32⟩ : BufTy).Contents (Elt F)),
    StableHlo.unary main_v33 main_v39 (broadcastInDim S1 ![] bcast_S_S1 : (⟨S_, .f32⟩ : BufTy).Contents (Elt F) → (⟨S1, .f32⟩ : BufTy).Contents (Elt F)),
    StableHlo.unary main_v35 main_v40 (broadcastInDim S1 ![] bcast_S_S1 : (⟨S_, .f32⟩ : BufTy).Contents (Elt F) → (⟨S1, .f32⟩ : BufTy).Contents (Elt F)),
    StableHlo.unary main_v37 main_v41 (broadcastInDim S1 ![] bcast_S_S1 : (⟨S_, .f32⟩ : BufTy).Contents (Elt F) → (⟨S1, .f32⟩ : BufTy).Contents (Elt F)),
    StableHlo.nary ![main_v38, main_v39, main_v40, main_v41] main_v42 (fun u => concatenate S4 0 [⟨S1, u 0⟩, ⟨S1, u 1⟩, ⟨S1, u 2⟩, ⟨S1, u 3⟩] concatenates_S1_S1_S1_S1_S4_d0) ]

/-- The operations are the three stretches in order. -/
theorem ops_split : (Gen.hostOps1 (F := F)) = opsA ++ (opsB ++ opsC) := rfl

set_option maxRecDepth 65536 in
set_option maxHeartbeats 800000 in
theorem afterA_v8 (V : Valuation τ sig (Elt F)) :
    StableHlo.after (opsA (F := F)) V (Proc.devRef .tc main_v8) = lane0 (V (Proc.devRef .tc main_v6_0)) := by
  show StableHlo.after (opsA (F := F)) V (Proc.devRef .tc main_v8) = _
  after_results_simp
  rfl

set_option maxRecDepth 65536 in
set_option maxHeartbeats 800000 in
theorem afterA_v10 (V : Valuation τ sig (Elt F)) :
    StableHlo.after (opsA (F := F)) V (Proc.devRef .tc main_v10) = lane0 (V (Proc.devRef .tc main_v6_1)) := by
  show StableHlo.after (opsA (F := F)) V (Proc.devRef .tc main_v10) = _
  after_results_simp
  rfl

set_option maxRecDepth 65536 in
set_option maxHeartbeats 800000 in
theorem afterA_v25 (V : Valuation τ sig (Elt F)) :
    StableHlo.after (opsA (F := F)) V (Proc.devRef .tc main_v25)
      = trSum (V (Proc.devRef .tc main_arg0)) (V (Proc.devRef .tc main_arg1)) := by
  show StableHlo.after (opsA (F := F)) V (Proc.devRef .tc main_v25) = _
  after_results_simp
  rfl

set_option maxRecDepth 65536 in
set_option maxHeartbeats 800000 in
theorem afterB_v29 (V : Valuation τ sig (Elt F)) :
    StableHlo.after (opsB (F := F)) V (Proc.devRef .tc main_v29)
      = totalOf (V (Proc.devRef .tc main_v8)) (V (Proc.devRef .tc main_v25)) (V (Proc.devRef .tc main_v10)) := by
  show StableHlo.after (opsB (F := F)) V (Proc.devRef .tc main_v29) = _
  after_results_simp
  rfl

set_option maxRecDepth 65536 in
set_option maxHeartbeats 800000 in
theorem afterB_v8 (V : Valuation τ sig (Elt F)) :
    StableHlo.after (opsB (F := F)) V (Proc.devRef .tc main_v8) = V (Proc.devRef .tc main_v8) := by
  show StableHlo.after (opsB (F := F)) V (Proc.devRef .tc main_v8) = _
  after_results_simp

set_option maxRecDepth 65536 in
set_option maxHeartbeats 800000 in
theorem afterB_v10 (V : Valuation τ sig (Elt F)) :
    StableHlo.after (opsB (F := F)) V (Proc.devRef .tc main_v10) = V (Proc.devRef .tc main_v10) := by
  show StableHlo.after (opsB (F := F)) V (Proc.devRef .tc main_v10) = _
  after_results_simp

set_option maxRecDepth 65536 in
set_option maxHeartbeats 800000 in
theorem afterB_v25 (V : Valuation τ sig (Elt F)) :
    StableHlo.after (opsB (F := F)) V (Proc.devRef .tc main_v25) = V (Proc.devRef .tc main_v25) := by
  show StableHlo.after (opsB (F := F)) V (Proc.devRef .tc main_v25) = _
  after_results_simp

set_option maxRecDepth 65536 in
set_option maxHeartbeats 800000 in
theorem afterC (V : Valuation τ sig (Elt F)) :
    StableHlo.after (opsC (F := F)) V (Proc.devRef .tc main_v42)
      = outOf (V (Proc.devRef .tc main_v29)) (V (Proc.devRef .tc main_v8)) (V (Proc.devRef .tc main_v25)) (V (Proc.devRef .tc main_v10)) := by
  show StableHlo.after (opsC (F := F)) V (Proc.devRef .tc main_v42) = _
  after_results_simp
  rfl

/-- After the operations the result buffer holds the four means, as functions of the contents before. -/
theorem after_eq (W : Valuation τ sig (Elt F)) :
    StableHlo.after (Gen.hostOps1 (F := F)) W (Proc.devRef .tc main_v42)
      = outOf (totalOf (lane0 (W (Proc.devRef .tc main_v6_0)))
                       (trSum (W (Proc.devRef .tc main_arg0)) (W (Proc.devRef .tc main_arg1)))
                       (lane0 (W (Proc.devRef .tc main_v6_1))))
              (lane0 (W (Proc.devRef .tc main_v6_0)))
              (trSum (W (Proc.devRef .tc main_arg0)) (W (Proc.devRef .tc main_arg1)))
              (lane0 (W (Proc.devRef .tc main_v6_1))) := by
  rw [ops_split, HostFold.after_append, HostFold.after_append, afterC, afterB_v29, afterB_v8, afterB_v25, afterB_v10,
    afterA_v8, afterA_v10, afterA_v25]

/-! ## The named term read at the ideal values -/

/-- The first part of the transform discrepancy, at the ideal values. -/
def tr1 (a0 a1 : S8x4x4.Idx → EReal) : S8.Idx → EReal := tr1G (F := Ideal) a0 a1

/-- The second part of the transform discrepancy, at the ideal values. -/
def tr2 (a0 a1 : S8x4x4.Idx → EReal) : S8.Idx → EReal := tr2G (F := Ideal) a0 a1

/-- A vector's indices are its coordinates. -/
def idxEquiv1 {n : Nat} : (⟨1, ![n]⟩ : Shape).Idx ≃ Fin n where
  toFun j := j 0
  invFun := ix1
  left_inv j := (eq_ix1 j).symm
  right_inv _ := rfl

/-- Entry b of the lane-0 vector is the array at row b, lane 0. -/
theorem lane0_apply (v : Arr Ideal S8x1x128) (b : Fin 8) :
    lane0 (F := Ideal) v (ix1 b) = v (ix3 b (0 : Fin 1) (0 : Fin 128)) := by
  unfold lane0
  rw [shapeCast_apply _ shapeCasts_S8x1x1_S8 (ix1 b) (ix3 b (0 : Fin 1) (0 : Fin 1))
    (by rw [Shape.rowMajor_val_three, Shape.rowMajor_val_one]; show (b.val * 1 + 0) * 1 + 0 = b.val; omega)]
  exact extractStridedSlice_apply ![0, 0, 0] v slices_S8x1x128_S8x1x1_0_0_0 _ (ix3 b (0 : Fin 1) (0 : Fin 128))
    (fun a => match a with
      | ⟨0, _⟩ => by show b.val = 0 + b.val; omega
      | ⟨1, _⟩ => rfl
      | ⟨2, _⟩ => rfl)

/-- The weighted total at an entry. -/
theorem totalOf_apply (ch tr tch : Arr Ideal S8) (i : S8.Idx) :
    totalOf (F := Ideal) ch tr tch i = (ch i + tr i) + ChamferSpec.half * tch i := by
  unfold totalOf
  rw [addf_apply, addf_apply, mulf_apply,
    broadcastInDim_apply _ bcast_S_S8 (constant (F := Ideal) S_ .f32 0x3F000000#32) i ix0 (fun a => a.elim0)]
  rfl

/-- The mean of a vector of eight at the ideal values: the sum over the entries over the exact 8. -/
theorem meanV_apply (x : Arr Ideal S8) (i : S_.Idx) :
    meanV (F := Ideal) x i = ChamferSpec.mean8 fun b => x (ix1 b) := by
  unfold meanV
  show Ideal.div (Host.reduceAdd (F := Ideal) x (constant S_ .f32 0x00000000#32) reducesTo_S8_S_d0 h_S_ i)
      (Ideal.ofBits .f32 0x41000000#32) = _
  simp only [Host.reduceAdd, Ideal.hostReduceAdd_def]
  rw [Ideal.hostReduceAdd_total reducesTo_S8_S_d0 (fun b => b.elim0), constant_apply, Ideal.ofBits_zero_f32, zero_add]
  unfold ChamferSpec.mean8 ChamferSpec.eight
  exact congrArg (Ideal.div · _) (Equiv.sum_comp idxEquiv1.symm x).symm

/-- A scalar as a vector of one, read at its entry. -/
theorem one1_apply (x : Arr Ideal S_) (i : S1.Idx) : one1 (F := Ideal) x i = x ix0 := by
  unfold one1
  exact broadcastInDim_apply _ bcast_S_S1 x i ix0 (fun a => a.elim0)

/-- Position k of the four means side by side is the k-th mean. -/
theorem outOf_apply0 (tot ch tr tch : Arr Ideal S8) (h : 0 < 4) :
    outOf (F := Ideal) tot ch tr tch (ix1 (⟨0, h⟩ : Fin 4)) = ChamferSpec.mean8 fun b => tot (ix1 b) := by
  unfold outOf
  rw [concatenate_apply_piece (0 : Fin S4.rank)
      [⟨S1, one1 (meanV tot)⟩, ⟨S1, one1 (meanV ch)⟩, ⟨S1, one1 (meanV tr)⟩, ⟨S1, one1 (meanV tch)⟩]
      concatenates_S1_S1_S1_S1_S4_d0 (ix1 (⟨0, h⟩ : Fin 4)) 0 (by show 0 < 4; omega) S1
    (one1 (meanV tot)) rfl rfl 0 rfl (ix1 (0 : Fin 1)) (fun b hb => (hb (Subsingleton.elim _ _)).elim) rfl,
    one1_apply, meanV_apply]

theorem outOf_apply1 (tot ch tr tch : Arr Ideal S8) (h : 1 < 4) :
    outOf (F := Ideal) tot ch tr tch (ix1 (⟨1, h⟩ : Fin 4)) = ChamferSpec.mean8 fun b => ch (ix1 b) := by
  unfold outOf
  rw [concatenate_apply_piece (0 : Fin S4.rank)
      [⟨S1, one1 (meanV tot)⟩, ⟨S1, one1 (meanV ch)⟩, ⟨S1, one1 (meanV tr)⟩, ⟨S1, one1 (meanV tch)⟩]
      concatenates_S1_S1_S1_S1_S4_d0 (ix1 (⟨1, h⟩ : Fin 4)) 1 (by show 1 < 4; omega) S1
    (one1 (meanV ch)) rfl rfl 1 rfl (ix1 (0 : Fin 1)) (fun b hb => (hb (Subsingleton.elim _ _)).elim) rfl,
    one1_apply, meanV_apply]

theorem outOf_apply2 (tot ch tr tch : Arr Ideal S8) (h : 2 < 4) :
    outOf (F := Ideal) tot ch tr tch (ix1 (⟨2, h⟩ : Fin 4)) = ChamferSpec.mean8 fun b => tr (ix1 b) := by
  unfold outOf
  rw [concatenate_apply_piece (0 : Fin S4.rank)
      [⟨S1, one1 (meanV tot)⟩, ⟨S1, one1 (meanV ch)⟩, ⟨S1, one1 (meanV tr)⟩, ⟨S1, one1 (meanV tch)⟩]
      concatenates_S1_S1_S1_S1_S4_d0 (ix1 (⟨2, h⟩ : Fin 4)) 2 (by show 2 < 4; omega) S1
    (one1 (meanV tr)) rfl rfl 2 rfl (ix1 (0 : Fin 1)) (fun b hb => (hb (Subsingleton.elim _ _)).elim) rfl,
    one1_apply, meanV_apply]

theorem outOf_apply3 (tot ch tr tch : Arr Ideal S8) (h : 3 < 4) :
    outOf (F := Ideal) tot ch tr tch (ix1 (⟨3, h⟩ : Fin 4)) = ChamferSpec.mean8 fun b => tch (ix1 b) := by
  unfold outOf
  rw [concatenate_apply_piece (0 : Fin S4.rank)
      [⟨S1, one1 (meanV tot)⟩, ⟨S1, one1 (meanV ch)⟩, ⟨S1, one1 (meanV tr)⟩, ⟨S1, one1 (meanV tch)⟩]
      concatenates_S1_S1_S1_S1_S4_d0 (ix1 (⟨3, h⟩ : Fin 4)) 3 (by show 3 < 4; omega) S1
    (one1 (meanV tch)) rfl rfl 3 rfl (ix1 (0 : Fin 1)) (fun b hb => (hb (Subsingleton.elim _ _)).elim) rfl,
    one1_apply, meanV_apply]

/-! ## The tail against the specification -/

/-- After the operations, from any contents W, the result buffer holds the specification's four results of the two
    per-batch values at lane 0 and the two parts of the transform discrepancy. -/
theorem tail_eq (W : Valuation τ sig (Elt Ideal)) :
    StableHlo.after (Gen.hostOps1 (F := Ideal)) W (Proc.devRef .tc main_v42)
      = ChamferSpec.out (fun b => W (Proc.devRef .tc main_v6_0) (ix3 b (0 : Fin 1) (0 : Fin 128)))
                        (fun b => W (Proc.devRef .tc main_v6_1) (ix3 b (0 : Fin 1) (0 : Fin 128)))
                        (fun b => tr1 (W (Proc.devRef .tc main_arg0)) (W (Proc.devRef .tc main_arg1)) (ix1 b))
                        (fun b => tr2 (W (Proc.devRef .tc main_arg0)) (W (Proc.devRef .tc main_arg1)) (ix1 b)) := by
  rw [after_eq]
  funext j
  obtain ⟨q, rfl⟩ : ∃ q : Fin 4, j = ix1 q := ⟨j 0, eq_ix1 j⟩
  match q with
  | ⟨0, h⟩ =>
    rw [outOf_apply0]
    show _ = ChamferSpec.mean8 (ChamferSpec.total _ _ _ _)
    refine congrArg ChamferSpec.mean8 (funext fun b => ?_)
    rw [totalOf_apply, lane0_apply, lane0_apply]
    rfl
  | ⟨1, h⟩ =>
    rw [outOf_apply1]
    show _ = ChamferSpec.mean8 _
    exact congrArg ChamferSpec.mean8 (funext fun b => lane0_apply _ b)
  | ⟨2, h⟩ =>
    rw [outOf_apply2]
    show _ = ChamferSpec.mean8 _
    rfl
  | ⟨3, h⟩ =>
    rw [outOf_apply3]
    show _ = ChamferSpec.mean8 _
    exact congrArg ChamferSpec.mean8 (funext fun b => lane0_apply _ b)
  | ⟨n + 4, h⟩ => exact absurd h (by omega)

end Cert.KernelIdeal.KHost

end
-- ==== Proof.KHostRef.lean ====
/-
  The host arithmetic the two programs share.

  Both programs begin with the same seven host operations: append a column of ones to the source points, multiply by
  each transform's transpose, keep three columns.  And both form the same two square roots of sums of squared
  differences of the transforms.  Here the first program's values of these are identified with the second program's
  named stage values: the same operations on the same operands, so the terms coincide by unfolding.  Also recorded: the
  operations before and after the tiled computation leave the four arguments as they were, and the opening seven leave
  every buffer they do not write.
-/
import proofs.«126651_j14345190769122_2_alg».proof.Proof.KHost
import proofs.«126651_j14345190769122_2_alg».proof.Proof.RefReadP

noncomputable section

namespace Cert.KernelIdeal.KHost

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-! ## The transform discrepancy is the other program's -/

/-- The first square root is the other program's stage value of the same operations. -/
theorem tr1G_eq (a0 a1 : Arr F S8x4x4) : tr1G a0 a1 = Cert.ReferenceIdeal.ReadP.val_main_v38 (F := F) a0 a1 := rfl

/-- The second square root is the other program's stage value of the same operations. -/
theorem tr2G_eq (a0 a1 : Arr F S8x4x4) : tr2G a0 a1 = Cert.ReferenceIdeal.ReadP.val_main_v41 (F := F) a0 a1 := rfl

theorem tr1_eq (a0 a1 : S8x4x4.Idx → EReal) : tr1 a0 a1 = Cert.ReferenceIdeal.ReadP.val_main_v38 (F := Ideal) a0 a1 := rfl

theorem tr2_eq (a0 a1 : S8x4x4.Idx → EReal) : tr2 a0 a1 = Cert.ReferenceIdeal.ReadP.val_main_v41 (F := Ideal) a0 a1 := rfl

/-! ## The moved source points are the other program's -/

set_option maxRecDepth 65536 in
set_option maxHeartbeats 800000 in
/-- After the opening operations the first moved cloud is the other program's stage value, of the first transform and
    the source points. -/
theorem v3_eq (W : Valuation τ sig (Elt F)) :
    StableHlo.after (Gen.hostOps0 (F := F)) W (Proc.devRef .tc main_v3)
      = Cert.ReferenceIdeal.ReadP.val_main_v3 (F := F) (W (Proc.devRef .tc main_arg0)) (W (Proc.devRef .tc main_arg2)) := by
  show StableHlo.after (Gen.hostOps0 (F := F)) W (Proc.devRef .tc main_v3) = _
  after_results_simp
  rfl

set_option maxRecDepth 65536 in
set_option maxHeartbeats 800000 in
/-- After the opening operations the second moved cloud is the other program's stage value, of the second transform and
    the source points. -/
theorem v5_eq (W : Valuation τ sig (Elt F)) :
    StableHlo.after (Gen.hostOps0 (F := F)) W (Proc.devRef .tc main_v5)
      = Cert.ReferenceIdeal.ReadP.val_main_v5 (F := F) (W (Proc.devRef .tc main_arg1)) (W (Proc.devRef .tc main_arg2)) := by
  show StableHlo.after (Gen.hostOps0 (F := F)) W (Proc.devRef .tc main_v5) = _
  after_results_simp
  rfl

/-! ## What the host operations leave alone -/

/-- The opening operations write seven buffers and no other. -/
theorem ops0_frame (W : Valuation τ sig (Elt F)) (r : Ref sig .tc)
    (hr : r ∉ [main_cst, main_v0, main_v1, main_v2, main_v3, main_v4, main_v5]) :
    StableHlo.after (Gen.hostOps0 (F := F)) W (Proc.devRef .tc r) = W (Proc.devRef .tc r) :=
  after_of_writes_sub (W := [main_cst, main_v0, main_v1, main_v2, main_v3, main_v4, main_v5]) _ W
    (by refine ⟨?_, ?_, ?_, ?_, ?_, ?_, ?_⟩ <;> simp) hr

theorem ops0_arg0 (W : Valuation τ sig (Elt F)) :
    StableHlo.after (Gen.hostOps0 (F := F)) W (Proc.devRef .tc main_arg0) = W (Proc.devRef .tc main_arg0) :=
  ops0_frame W main_arg0 (by decide)
theorem ops0_arg1 (W : Valuation τ sig (Elt F)) :
    StableHlo.after (Gen.hostOps0 (F := F)) W (Proc.devRef .tc main_arg1) = W (Proc.devRef .tc main_arg1) :=
  ops0_frame W main_arg1 (by decide)
theorem ops0_arg2 (W : Valuation τ sig (Elt F)) :
    StableHlo.after (Gen.hostOps0 (F := F)) W (Proc.devRef .tc main_arg2) = W (Proc.devRef .tc main_arg2) :=
  ops0_frame W main_arg2 (by decide)
theorem ops0_arg3 (W : Valuation τ sig (Elt F)) :
    StableHlo.after (Gen.hostOps0 (F := F)) W (Proc.devRef .tc main_arg3) = W (Proc.devRef .tc main_arg3) :=
  ops0_frame W main_arg3 (by decide)

set_option maxRecDepth 65536 in
set_option maxHeartbeats 800000 in
theorem ops1_arg0 (W : Valuation τ sig (Elt F)) :
    StableHlo.after (Gen.hostOps1 (F := F)) W (Proc.devRef .tc main_arg0) = W (Proc.devRef .tc main_arg0) := by
  show StableHlo.after (Gen.hostOps1 (F := F)) W (Proc.devRef .tc main_arg0) = _
  after_results_simp
set_option maxRecDepth 65536 in
set_option maxHeartbeats 800000 in
theorem ops1_arg1 (W : Valuation τ sig (Elt F)) :
    StableHlo.after (Gen.hostOps1 (F := F)) W (Proc.devRef .tc main_arg1) = W (Proc.devRef .tc main_arg1) := by
  show StableHlo.after (Gen.hostOps1 (F := F)) W (Proc.devRef .tc main_arg1) = _
  after_results_simp
set_option maxRecDepth 65536 in
set_option maxHeartbeats 800000 in
theorem ops1_arg2 (W : Valuation τ sig (Elt F)) :
    StableHlo.after (Gen.hostOps1 (F := F)) W (Proc.devRef .tc main_arg2) = W (Proc.devRef .tc main_arg2) := by
  show StableHlo.after (Gen.hostOps1 (F := F)) W (Proc.devRef .tc main_arg2) = _
  after_results_simp
set_option maxRecDepth 65536 in
set_option maxHeartbeats 800000 in
theorem ops1_arg3 (W : Valuation τ sig (Elt F)) :
    StableHlo.after (Gen.hostOps1 (F := F)) W (Proc.devRef .tc main_arg3) = W (Proc.devRef .tc main_arg3) := by
  show StableHlo.after (Gen.hostOps1 (F := F)) W (Proc.devRef .tc main_arg3) = _
  after_results_simp

end Cert.KernelIdeal.KHost

end
-- ==== Proof.KValue.lean ====
/-
  The kernel program's result from the run of its one pallas_call.

  After the call the two result arrays hold, in row b, what the body left at the last point of batch entry b: the
  chamfer distance of the first moved cloud to the target cloud, and to the second moved cloud.  The host operations
  after the call read lane 0 of each row and the two transforms, and form the four batch means of the specification.
-/
import proofs.«126651_j14345190769122_2_alg».proof.Proof.KFrameOf
import proofs.«126651_j14345190769122_2_alg».proof.Proof.KBlocks
import proofs.«126651_j14345190769122_2_alg».proof.Proof.KOutArr
import proofs.«126651_j14345190769122_2_alg».proof.Proof.KVal
import proofs.«126651_j14345190769122_2_alg».proof.Proof.KHost
import proofs.«126651_j14345190769122_2_alg».proof.Proof.KHostRef

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers after the call -/

/-- The buffers when the host operations after the call begin: the staged arrays at what the write-backs left,
    every other buffer as the call found it. -/
def WK (c : Dev nD) : Valuation τ sig (Elt F) :=
  Pipeline.withArrays spec0 c (V0 m c) fun w => (dats m 0 c).arrAt w cfg0.N
theorem WK_arr (c : Dev nD) (w : Fin cfg0.W) :
    WK m c (Proc.devRef .tc (Pipeline.arrRef spec0 w)) = (dats m 0 c).arrAt w cfg0.N := by
  unfold WK; exact Pipeline.withArrays_arr spec0 launch0.win.arr_inj c _ _ w
theorem WK_of_ne (c : Dev nD) (b : Ref sig .tc) (hb : ∀ w, Pipeline.arrRef spec0 w ≠ b) :
    WK m c (Proc.devRef .tc b) = V0 m c (Proc.devRef .tc b) := by
  unfold WK; exact Pipeline.withArrays_of_ne spec0 c _ _ b hb
theorem WK_v6_0 (c : Dev nD) : WK m c (Proc.devRef .tc main_v6_0) = (dats m 0 c).arrAt 3 cfg0.N := WK_arr m c 3
theorem WK_v6_1 (c : Dev nD) : WK m c (Proc.devRef .tc main_v6_1) = (dats m 0 c).arrAt 4 cfg0.N := WK_arr m c 4
theorem WK_arg0 (c : Dev nD) : WK m c (Proc.devRef .tc main_arg0) = m ((c.tc : Thread nD τ).loc main_arg0) :=
  (WK_of_ne m c main_arg0 (by decide)).trans (V_main_arg0 m c)
theorem WK_arg1 (c : Dev nD) : WK m c (Proc.devRef .tc main_arg1) = m ((c.tc : Thread nD τ).loc main_arg1) :=
  (WK_of_ne m c main_arg1 (by decide)).trans (V_main_arg1 m c)

/-- The scratch rows after a point do not depend on how the point is written. -/
theorem scrM_congr (c : Dev nD) {t t' : ℕ} (h : t = t') (ht : t < cfg0.N) (ht' : t' < cfg0.N) :
    scrM m c t ht = scrM m c t' ht' := by subst h; rfl

theorem lastPoint_lt (b : Fin 8) : 16 * b.val + 15 < cfg0.N := by
  have hN : cfg0.N = 128 := N_0
  have := b.isLt
  omega

/-- Row b, lane l of the first result array after the call. -/
theorem arr3_apply (c : Dev nD) (b : Fin 8) (l : Fin 128) :
    ((dats m 0 c).arrAt 3 cfg0.N : S8x1x128.Idx → Elt F .f32) (ix3 b (0 : Fin 1) l)
      = KStep.outA (scrM m c (16 * b.val + 15) (lastPoint_lt b)) (ix3 (0 : Fin 1) (0 : Fin 1) l) :=
  arrAt3_apply (dats m 0 c) (fun b => KStep.outA (scrM m c (16 * b.val + 15) (lastPoint_lt b)))
    (fun t h15 b hb => (after0_3 m c t).trans (congrArg KStep.outA (scrM_congr m c (by omega) _ _))) b l
theorem arr4_apply (c : Dev nD) (b : Fin 8) (l : Fin 128) :
    ((dats m 0 c).arrAt 4 cfg0.N : S8x1x128.Idx → Elt F .f32) (ix3 b (0 : Fin 1) l)
      = KStep.outB (scrM m c (16 * b.val + 15) (lastPoint_lt b)) (ix3 (0 : Fin 1) (0 : Fin 1) l) :=
  arrAt4_apply (dats m 0 c) (fun b => KStep.outB (scrM m c (16 * b.val + 15) (lastPoint_lt b)))
    (fun t h15 b hb => (after0_4 m c t).trans (congrArg KStep.outB (scrM_congr m c (by omega) _ _))) b l

/-! ## At the ideal values -/

section AtIdeal

/-- Buffer contents at the ideal values. -/
abbrev MI : Type := (ℓ : Loc nD τ sig) → Buf (Elt Ideal) ℓ

/-- The three clouds' arrays as the call finds them: the first moved cloud, the target cloud, the second moved cloud. -/
abbrev arrP (m : MI) (c : Dev nD) : S8x4096x3.Idx → EReal := V m c main_v3
abbrev arrT (m : MI) (c : Dev nD) : S8x4096x3.Idx → EReal := V m c main_arg3
abbrev arrG (m : MI) (c : Dev nD) : S8x4096x3.Idx → EReal := V m c main_v5

/-- Lane 0 of row b of the first result: the chamfer distance of the first moved cloud and the target cloud. -/
theorem lane_ch (m : MI) (c : Dev nD) (b : Fin 8) :
    ((dats m 0 c).arrAt 3 cfg0.N : S8x1x128.Idx → EReal) (ix3 b (0 : Fin 1) (0 : Fin 128))
      = ChamferSpec.chamfer (ChamferSpec.cloud (arrP m c) b) (ChamferSpec.cloud (arrT m c) b) := by
  rw [arr3_apply]
  unfold scrM
  exact KVal.outA_eq (arrP m c) (arrT m c) (arrG m c) (fun t => iblk m c 0 t) (fun t => iblk m c 1 t) (fun t => iblk m c 2 t)
    (fun t r d b q hb hq => iblk0_apply m c t r d b q hb hq) (fun t r d b q hb hq => iblk1_apply m c t r d b q hb hq)
    (fun t r d b q hb hq => iblk2_apply m c t r d b q hb hq) b _ _ rfl _
/-- Lane 0 of row b of the second result: the chamfer distance of the two moved clouds. -/
theorem lane_tch (m : MI) (c : Dev nD) (b : Fin 8) :
    ((dats m 0 c).arrAt 4 cfg0.N : S8x1x128.Idx → EReal) (ix3 b (0 : Fin 1) (0 : Fin 128))
      = ChamferSpec.chamfer (ChamferSpec.cloud (arrP m c) b) (ChamferSpec.cloud (arrG m c) b) := by
  rw [arr4_apply]
  unfold scrM
  exact KVal.outB_eq (arrP m c) (arrT m c) (arrG m c) (fun t => iblk m c 0 t) (fun t => iblk m c 1 t) (fun t => iblk m c 2 t)
    (fun t r d b q hb hq => iblk0_apply m c t r d b q hb hq) (fun t r d b q hb hq => iblk1_apply m c t r d b q hb hq)
    (fun t r d b q hb hq => iblk2_apply m c t r d b q hb hq) b _ _ rfl _

/-- The result buffer is unscoped and no window's array. -/
theorem v42_rest : main_v42 ∈ Pipeline.restRefs sig (cfgs 0).spec := Pipeline.mem_restRefs_of main_v42 rfl (by decide)

/-- What the run leaves in the result buffer, over the arrays as the call finds them. -/
theorem rest_v42 (m : MI) (c : Dev nD) :
    Pipeline.afterTail₀ cfgs (dats m) 0 (V0 m) [hostOps1] c main_v42
      = ChamferSpec.out (fun b => ChamferSpec.chamfer (ChamferSpec.cloud (arrP m c) b) (ChamferSpec.cloud (arrT m c) b))
          (fun b => ChamferSpec.chamfer (ChamferSpec.cloud (arrP m c) b) (ChamferSpec.cloud (arrG m c) b))
          (fun b => KHost.tr1 (m ((c.tc : Thread nD τ).loc main_arg0)) (m ((c.tc : Thread nD τ).loc main_arg1)) (ix1 b))
          (fun b => KHost.tr2 (m ((c.tc : Thread nD τ).loc main_arg0)) (m ((c.tc : Thread nD τ).loc main_arg1)) (ix1 b)) := by
  unfold Pipeline.afterTail₀
  show StableHlo.after (List.flatten [hostOps1]) (WK m c) (Proc.devRef .tc main_v42) = _
  simp only [List.flatten_cons, List.flatten_nil, List.append_nil]
  rw [KHost.tail_eq, WK_v6_0, WK_v6_1, WK_arg0, WK_arg1]
  have e1 := funext (lane_ch m c)
  have e2 := funext (lane_tch m c)
  rw [e1, e2]

/-- The arrays as the call finds them, as functions of the arguments: the two moved clouds are the source points moved
    by the two transforms, the target cloud is the fourth argument. -/
theorem arrP_eq (m : MI) (c : Dev nD) :
    arrP m c = Cert.ReferenceIdeal.ReadP.val_main_v3 (F := Ideal) (m ((c.tc : Thread nD τ).loc main_arg0)) (m ((c.tc : Thread nD τ).loc main_arg2)) := by
  show StableHlo.after (hostOps0 (F := Ideal)) (fun b => m (c, b)) (Proc.devRef .tc main_v3) = _
  exact KHost.v3_eq _
theorem arrG_eq (m : MI) (c : Dev nD) :
    arrG m c = Cert.ReferenceIdeal.ReadP.val_main_v5 (F := Ideal) (m ((c.tc : Thread nD τ).loc main_arg1)) (m ((c.tc : Thread nD τ).loc main_arg2)) := by
  show StableHlo.after (hostOps0 (F := Ideal)) (fun b => m (c, b)) (Proc.devRef .tc main_v5) = _
  exact KHost.v5_eq _
theorem arrT_eq (m : MI) (c : Dev nD) : arrT m c = (m ((c.tc : Thread nD τ).loc main_arg3)) := V_main_arg3 m c

/-- What the run leaves in the result buffer, as a function of the four arguments. -/
theorem value_v42 (m : MI) (c : Dev nD) :
    Pipeline.afterTail₀ cfgs (dats m) 0 (V0 m) [hostOps1] c main_v42
      = ChamferSpec.out
            (fun b => ChamferSpec.chamfer (ChamferSpec.cloud (Cert.ReferenceIdeal.ReadP.val_main_v3 (F := Ideal) (m ((c.tc : Thread nD τ).loc main_arg0)) (m ((c.tc : Thread nD τ).loc main_arg2))) b) (ChamferSpec.cloud (m ((c.tc : Thread nD τ).loc main_arg3)) b))
            (fun b => ChamferSpec.chamfer (ChamferSpec.cloud (Cert.ReferenceIdeal.ReadP.val_main_v3 (F := Ideal) (m ((c.tc : Thread nD τ).loc main_arg0)) (m ((c.tc : Thread nD τ).loc main_arg2))) b) (ChamferSpec.cloud (Cert.ReferenceIdeal.ReadP.val_main_v5 (F := Ideal) (m ((c.tc : Thread nD τ).loc main_arg1)) (m ((c.tc : Thread nD τ).loc main_arg2))) b))
            (fun b => Cert.ReferenceIdeal.ReadP.val_main_v38 (F := Ideal) (m ((c.tc : Thread nD τ).loc main_arg0)) (m ((c.tc : Thread nD τ).loc main_arg1)) (ix1 b))
            (fun b => Cert.ReferenceIdeal.ReadP.val_main_v41 (F := Ideal) (m ((c.tc : Thread nD τ).loc main_arg0)) (m ((c.tc : Thread nD τ).loc main_arg1)) (ix1 b)) := by
  rw [rest_v42, arrP_eq, arrG_eq, arrT_eq]
  rfl

/-- The kernel program's run: the result buffer ends at the specification's four results of the chamfer distances of
    the moved clouds and the transform discrepancy, and the four arguments end unchanged. -/
theorem kernel_value (m : MI) (ρ : Dev nD → PrngReg)
    (hrun : θ_run (defs (F := Ideal)) (onTc (τ := τ) (main (F := Ideal))) (s₀ m ρ)
      (Pipeline.FramePost cfgs (dats m) 0 (Pipeline.afterTail₀ cfgs (dats m) 0 (V0 m) [hostOps1]))) :
    θ_run (defs (F := Ideal)) (onTc (τ := τ) (main (F := Ideal))) ⟨m, fun _ => 0, ρ⟩ (fun r => ∀ c : Dev nD,
      r.2.mem ((c.tc : Thread nD τ).loc main_v42)
        = ChamferSpec.out
            (fun b => ChamferSpec.chamfer (ChamferSpec.cloud (Cert.ReferenceIdeal.ReadP.val_main_v3 (F := Ideal) (m ((c.tc : Thread nD τ).loc main_arg0)) (m ((c.tc : Thread nD τ).loc main_arg2))) b) (ChamferSpec.cloud (m ((c.tc : Thread nD τ).loc main_arg3)) b))
            (fun b => ChamferSpec.chamfer (ChamferSpec.cloud (Cert.ReferenceIdeal.ReadP.val_main_v3 (F := Ideal) (m ((c.tc : Thread nD τ).loc main_arg0)) (m ((c.tc : Thread nD τ).loc main_arg2))) b) (ChamferSpec.cloud (Cert.ReferenceIdeal.ReadP.val_main_v5 (F := Ideal) (m ((c.tc : Thread nD τ).loc main_arg1)) (m ((c.tc : Thread nD τ).loc main_arg2))) b))
            (fun b => Cert.ReferenceIdeal.ReadP.val_main_v38 (F := Ideal) (m ((c.tc : Thread nD τ).loc main_arg0)) (m ((c.tc : Thread nD τ).loc main_arg1)) (ix1 b))
            (fun b => Cert.ReferenceIdeal.ReadP.val_main_v41 (F := Ideal) (m ((c.tc : Thread nD τ).loc main_arg0)) (m ((c.tc : Thread nD τ).loc main_arg1)) (ix1 b))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v42 v42_rest).trans (value_v42 m c),
     ((h c).2 main_arg0 arg0_rest).trans (rest_arg0 m c),
     ((h c).2 main_arg1 arg1_rest).trans (rest_arg1 m c),
     ((h c).2 main_arg2 arg2_rest).trans (rest_arg2 m c),
     ((h c).1 1).trans (((dats m 0 c).arrAt_in 1 rfl _).trans ((A_eq m c 1).trans (V_main_arg3 m c)))⟩) hrun

end AtIdeal

end Cert.KernelIdeal.KFrame

end
-- ==== Proof.lean ====
/-
  The proof of the certificate's claim.

  Both programs compute, for eight pairs of 4096-point clouds, the chamfer distance (the mean over one cloud's points of the
  least squared distance to the other cloud, plus the same with the clouds exchanged) of the moved source cloud against the
  target cloud and against the source cloud moved by the other transform, add a discrepancy of the two transforms, and
  return the batch means of the weighted total and of its three parts.  The kernel walks each 4096 × 4096 distance matrix in
  sixteen tiles, keeping running row and column minima; the reference forms the matrix whole.  A minimum over a range is the
  minimum of the minima over the parts of a partition of it, so both reach the same extended-real numbers: the
  specification's `out` of the same host terms.

  The claim's five parts: the kernel's frame at the bit-exact and at the ideal instance, the reference's frame, the
  idealization rewrote no operation, and at the ideal instance both programs end with equal results and unchanged arguments.
-/
import proofs.«126651_j14345190769122_2_alg».proof.Defs
import proofs.«126651_j14345190769122_2_alg».proof.Proof.ClaimOf
import proofs.«126651_j14345190769122_2_alg».proof.Proof.WFrame
import proofs.«126651_j14345190769122_2_alg».proof.Proof.KFrame
import proofs.«126651_j14345190769122_2_alg».proof.Proof.KValue

noncomputable section

namespace Cert.Proof

theorem claim : Cert.Claim :=
  Cert.Bridge.claim_of
    (fun m ρ _ => Cert.Kernel.KFrame.frame m ρ)
    (fun m ρ _ => Cert.KernelIdeal.KFrame.frame m ρ)
    (fun m ρ _ => Cert.KernelIdeal.KFrame.kernel_value m ρ (Cert.KernelIdeal.KFrame.run_main m ρ))

end Cert.Proof

end
